-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S512x128 : Shape := ⟨2, ![512, 128]⟩
abbrev S128 : Shape := ⟨1, ![128]⟩
abbrev S384x128 : Shape := ⟨2, ![384, 128]⟩
abbrev S1x128 : Shape := ⟨2, ![1, 128]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000 : S_.BroadcastsInDim S50000 (![] : Fin 0 → Fin S50000.rank)
  reducesTo_S50000_S_d0 : S50000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S1x128 : S_.BroadcastsInDim S1x128 (![] : Fin 0 → Fin S1x128.rank)
  reducesTo_S1x128_S_d0_1 : S1x128.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S128 .f32) (main_arg9 : FVec F S256x2 .f32) (main_arg10 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x2 .f32 := Host.absf main_arg9
  let main_cst_14 : FVec F S_ .f32 := constant S_ .f32 0x7F800000#32
  let main_v40 : FVec F S256x2 .f32 := broadcastInDim S256x2 ![] bcast_S_S256x2 main_cst_14
  let main_v41 : IVec S256x2 1 := cmpf .olt main_v39 main_v40
  let main_c_15 : IVec S_ 1 := constantI S_ 1 1#1
  let main_v42 : IVec S_ 1 := (fun x v => Host.reduce IntOp.andi x v reducesTo_S256x2_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg5 : FVec F S384x128 .f32) (main_arg6 : FVec F S128 .f32) (main_arg7 : FVec F S1x128 .f32) (main_arg8 : FVec F S128 .f32) (main_arg9 : FVec F S256x2 .f32) (main_arg10 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1x128 .f32 := Host.absf main_arg7
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x600000 32) (main_arg2 : FVec F S50000 .f32) (main_arg3 : FVec F S512x128 .f32) (main_arg4 : FVec F S128 .f32) (main_arg5 : FVec F S384x128 .f32) (main_arg6 : FVec F S128 .f32) (main_arg7 : FVec F S1x128 .f32) (main_arg8 : FVec F S128 .f32) (main_arg9 : FVec F S256x2 .f32) (main_arg10 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000 .f32 := Host.absf main_arg2
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S512x128 : Shape := ⟨2, ![512, 128]⟩
abbrev S128 : Shape := ⟨1, ![128]⟩
abbrev S384x128 : Shape := ⟨2, ![384, 128]⟩
abbrev S1x128 : Shape := ⟨2, ![1, 128]⟩
abbrev S256x2 : Shape := ⟨2, ![256, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x512 : Shape := ⟨2, ![50000, 512]⟩
abbrev S2000x512 : Shape := ⟨2, ![2000, 512]⟩
abbrev S2000x128 : Shape := ⟨2, ![2000, 128]⟩
abbrev S50000x384 : Shape := ⟨2, ![50000, 384]⟩
abbrev S2000x384 : Shape := ⟨2, ![2000, 384]⟩
abbrev S50000x1 : Shape := ⟨2, ![50000, 1]⟩
abbrev S128x2 : Shape := ⟨2, ![128, 2]⟩
abbrev S128x128 : Shape := ⟨2, ![128, 128]⟩
abbrev S5000x128 : Shape := ⟨2, ![5000, 128]⟩
abbrev S50000x2 : Shape := ⟨2, ![50000, 2]⟩

abbrev nBuf : Space → Nat
  | .hbm => 169
  | .vmem => 21
  | .smem => 0
  | _ => 0

abbrev hbmTy0_0 (i : Nat) : BufTy := match i % 128 with
  | 0 => ⟨S50000x128, .f32⟩
  | 1 => ⟨S2x600000, .i32⟩
  | 2 => ⟨S50000, .f32⟩
  | 3 => ⟨S512x128, .f32⟩
  | 4 => ⟨S128, .f32⟩
  | 5 => ⟨S384x128, .f32⟩
  | 6 => ⟨S128, .f32⟩
  | 7 => ⟨S1x128, .f32⟩
  | 8 => ⟨S128, .f32⟩
  | 9 => ⟨S256x2, .f32⟩
  | 10 => ⟨S2, .f32⟩
  | 11 => ⟨S1x600000, .i32⟩
  | 12 => ⟨S600000, .i32⟩
  | 13 => ⟨S1x600000, .i32⟩
  | 14 => ⟨S600000, .i32⟩
  | 15 => ⟨S_, .f32⟩
  | 16 => ⟨S600000, .f32⟩
  | 17 => ⟨S_, .f32⟩
  | 18 => ⟨S50000, .f32⟩
  | 19 => ⟨S600000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000, .f32⟩
  | 50 => ⟨S600000, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x128, .f32⟩
  | 60 => ⟨S600000x1, .f32⟩
  | 61 => ⟨S600000x128, .f32⟩
  | 62 => ⟨S600000x128, .f32⟩
  | 63 => ⟨S_, .f32⟩
  | 64 => ⟨S50000x128, .f32⟩
  | 65 => ⟨S600000x1, .i32⟩
  | 66 => ⟨S50000x128, .f32⟩
  | 67 => ⟨S_, .i32⟩
  | 68 => ⟨S600000, .i32⟩
  | 69 => ⟨S600000, .i1⟩
  | 70 => ⟨S_, .i32⟩
  | 71 => ⟨S600000, .i32⟩
  | 72 => ⟨S600000, .i32⟩
  | 73 => ⟨S600000, .i32⟩
  | 74 => ⟨S600000x1, .i32⟩
  | 75 => ⟨S600000x128, .f32⟩
  | 76 => ⟨S600000x1, .f32⟩
  | 77 => ⟨S600000x128, .f32⟩
  | 78 => ⟨S600000x128, .f32⟩
  | 79 => ⟨S_, .f32⟩
  | 80 => ⟨S50000x128, .f32⟩
  | 81 => ⟨S600000x1, .i32⟩
  | 82 => ⟨S50000x128, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000x128, .f32⟩
  | 92 => ⟨S600000x1, .f32⟩
  | 93 => ⟨S600000x128, .f32⟩
  | 94 => ⟨S600000x128, .f32⟩
  | 95 => ⟨S_, .f32⟩
  | 96 => ⟨S50000x128, .f32⟩
  | 97 => ⟨S600000x1, .i32⟩
  | 98 => ⟨S50000x128, .f32⟩
  | 99 => ⟨S50000x512, .f32⟩
  | 100 => ⟨S1x128, .f32⟩
  | 101 => ⟨S50000x128, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000x128, .f32⟩
  | 111 => ⟨S600000x1, .f32⟩
  | 112 => ⟨S600000x128, .f32⟩
  | 113 => ⟨S600000x128, .f32⟩
  | 114 => ⟨S_, .f32⟩
  | 115 => ⟨S50000x128, .f32⟩
  | 116 => ⟨S600000x1, .i32⟩
  | 117 => ⟨S50000x128, .f32⟩
  | 118 => ⟨S_, .i32⟩
  | 119 => ⟨S600000, .i32⟩
  | 120 => ⟨S600000, .i1⟩
  | 121 => ⟨S_, .i32⟩
  | 122 => ⟨S600000, .i32⟩
  | 123 => ⟨S600000, .i32⟩
  | 124 => ⟨S600000, .i32⟩
  | 125 => ⟨S600000x1, .i32⟩
  | 126 => ⟨S600000x128, .f32⟩
  | 127 => ⟨S600000x1, .f32⟩
  | _ => ⟨S50000x128, .f32⟩

abbrev hbmTy0_1 (i : Nat) : BufTy := match i % 128 with
  | 0 => ⟨S600000x128, .f32⟩
  | 1 => ⟨S600000x128, .f32⟩
  | 2 => ⟨S_, .f32⟩
  | 3 => ⟨S50000x128, .f32⟩
  | 4 => ⟨S600000x1, .i32⟩
  | 5 => ⟨S50000x128, .f32⟩
  | 6 => ⟨S50000x384, .f32⟩
  | 7 => ⟨S1x128, .f32⟩
  | 8 => ⟨S50000x128, .f32⟩
  | 9 => ⟨S_, .f32⟩
  | 10 => ⟨S_, .f32⟩
  | 11 => ⟨S_, .f32⟩
  | 12 => ⟨S_, .f32⟩
  | 13 => ⟨S50000x1, .f32⟩
  | 14 => ⟨S50000x1, .f32⟩
  | 15 => ⟨S50000x1, .f32⟩
  | 16 => ⟨S_, .f32⟩
  | 17 => ⟨S_, .f32⟩
  | 18 => ⟨S_, .f32⟩
  | 19 => ⟨S50000x1, .f32⟩
  | 20 => ⟨S50000x1, .f32⟩
  | 21 => ⟨S50000x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S128x2, .f32⟩
  | 28 => ⟨S_, .i32⟩
  | 29 => ⟨S_, .f32⟩
  | 30 => ⟨S128x128, .f32⟩
  | 31 => ⟨S128x2, .f32⟩
  | 32 => ⟨S_, .i32⟩
  | 33 => ⟨S_, .f32⟩
  | 34 => ⟨S128x128, .f32⟩
  | 35 => ⟨S_, .i32⟩
  | 36 => ⟨S_, .f32⟩
  | 37 => ⟨S128, .f32⟩
  | 38 => ⟨S1x128, .f32⟩
  | 39 => ⟨S50000x128, .f32⟩
  | 40 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x384, .f32⟩
  | .local _ .vmem, ⟨7, _⟩ => ⟨S2000x384, .f32⟩
  | .local _ .vmem, ⟨8, _⟩ => ⟨S384x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_c_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_10 : Ref sig .tc := ⟨.hbm, 67, rfl⟩
abbrev main_v42 : Ref sig .tc := ⟨.hbm, 68, rfl⟩
abbrev main_v43 : Ref sig .tc := ⟨.hbm, 69, rfl⟩
abbrev main_c_11 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_13 : Ref sig .tc := ⟨.hbm, 83, rfl⟩
abbrev main_v55 : Ref sig .tc := ⟨.hbm, 84, rfl⟩
abbrev main_v56 : Ref sig .tc := ⟨.hbm, 85, rfl⟩
abbrev main_c_14 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_16 : Ref sig .tc := ⟨.hbm, 102, rfl⟩
abbrev main_v71 : Ref sig .tc := ⟨.hbm, 103, rfl⟩
abbrev main_v72 : Ref sig .tc := ⟨.hbm, 104, rfl⟩
abbrev main_c_17 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_19 : Ref sig .tc := ⟨.hbm, 118, rfl⟩
abbrev main_v84 : Ref sig .tc := ⟨.hbm, 119, rfl⟩
abbrev main_v85 : Ref sig .tc := ⟨.hbm, 120, rfl⟩
abbrev main_c_20 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_21 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_22 : Ref sig .tc := ⟨.hbm, 137, rfl⟩
abbrev main_v100 : Ref sig .tc := ⟨.hbm, 138, rfl⟩
abbrev main_cst_23 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_24 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_c_25 : Ref sig .tc := ⟨.hbm, 156, rfl⟩
abbrev main_call1_v0 : Ref sig .tc := ⟨.hbm, 157, rfl⟩
abbrev main_v116 : Ref sig .tc := ⟨.hbm, 158, rfl⟩
abbrev main_v117 : Ref sig .tc := ⟨.hbm, 159, rfl⟩
abbrev main_c_26 : Ref sig .tc := ⟨.hbm, 160, rfl⟩
abbrev main_call2_v0 : Ref sig .tc := ⟨.hbm, 161, rfl⟩
abbrev main_v118 : Ref sig .tc := ⟨.hbm, 162, rfl⟩
abbrev main_c_27 : Ref sig .tc := ⟨.hbm, 163, rfl⟩
abbrev main_call3_v0 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  concatenates_S50000x128_S50000x128_S50000x128_S50000x128_S50000x512_d1 : Shape.Concatenates [S50000x128, S50000x128, S50000x128, S50000x128] S50000x512 1
  shapeCasts_S128_S1x128 : S128.ShapeCasts S1x128
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  concatenates_S50000x128_S50000x128_S50000x128_S50000x384_d1 : Shape.Concatenates [S50000x128, S50000x128, S50000x128] S50000x384 1
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S384x128_S384x128_0_0 : ∀ a, (![0, 0] : Fin 2 → Nat) a + S384x128.size a ≤ S384x128.size a
  h_S384x128 : 0 < S384x128.numel
  reducesTo_S50000_S_d0 : S50000.ReducesTo [0] S_
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S128_S1x128_1 : S128.BroadcastsInDim S1x128 (![1] : Fin 1 → Fin S1x128.rank)
  slices_S256x2_S128x2_0_0 : S256x2.Slices ![0, 0] S128x2
  pads_S128x2_S128x128_000_01260 : S128x2.Pads (![0, 0] : Fin 2 → Nat) ![0, 126] ![0, 0] S128x128
  slices_S256x2_S128x2_128_0 : S256x2.Slices ![128, 0] S128x2
  pads_S2_S128_01260 : S2.Pads (![0] : Fin 1 → Nat) ![126] ![0] S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  slices_S50000x128_S50000x2_0_0 : S50000x128.Slices ![0, 0] S50000x2
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x512_S512x128_S2000x128_1_0_0_1_n_n_wf : DotDims.WF S2000x512 S512x128 S2000x128 [1] [0] [0] [1] [] []
  dot_S2000x384_S384x128_S2000x128_1_0_0_1_n_n_wf : DotDims.WF S2000x384 S384x128 S2000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x384.size a ≤ S50000x384.size a
  hwx1_0 : ∀ i : grid1.Coords, EltTy.bits .f32 = 32 ∨ (Rect.block (s := S50000x384) S2000x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x128.size a ≤ S384x128.size a
  hwx1_1 : ∀ i : grid1.Coords, EltTy.bits .f32 = 32 ∨ (Rect.block (s := S384x128) S384x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v68) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v69) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v70) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v97) S2000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v98) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v99) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v99) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v114) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v116) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v118) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v120) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v121) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S512x128 : Shape := ⟨2, ![512, 128]⟩
abbrev S128 : Shape := ⟨1, ![128]⟩
abbrev S384x128 : Shape := ⟨2, ![384, 128]⟩
abbrev S1x128 : Shape := ⟨2, ![1, 128]⟩
abbrev S256x2 : Shape := ⟨2, ![256, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x512 : Shape := ⟨2, ![50000, 512]⟩
abbrev S50000x384 : Shape := ⟨2, ![50000, 384]⟩
abbrev S50000x1 : Shape := ⟨2, ![50000, 1]⟩
abbrev S50000x256 : Shape := ⟨2, ![50000, 256]⟩
abbrev S50000x2 : Shape := ⟨2, ![50000, 2]⟩
abbrev S1x2 : Shape := ⟨2, ![1, 2]⟩

abbrev nBuf : Space → Nat
  | .hbm => 206
  | .vmem => 0
  | .smem => 0
  | _ => 0

abbrev hbmTy0_0 (i : Nat) : BufTy := match i % 128 with
  | 0 => ⟨S50000x128, .f32⟩
  | 1 => ⟨S2x600000, .i32⟩
  | 2 => ⟨S50000, .f32⟩
  | 3 => ⟨S512x128, .f32⟩
  | 4 => ⟨S128, .f32⟩
  | 5 => ⟨S384x128, .f32⟩
  | 6 => ⟨S128, .f32⟩
  | 7 => ⟨S1x128, .f32⟩
  | 8 => ⟨S128, .f32⟩
  | 9 => ⟨S256x2, .f32⟩
  | 10 => ⟨S2, .f32⟩
  | 11 => ⟨S1x600000, .i32⟩
  | 12 => ⟨S600000, .i32⟩
  | 13 => ⟨S1x600000, .i32⟩
  | 14 => ⟨S600000, .i32⟩
  | 15 => ⟨S_, .f32⟩
  | 16 => ⟨S600000, .f32⟩
  | 17 => ⟨S_, .f32⟩
  | 18 => ⟨S50000, .f32⟩
  | 19 => ⟨S600000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000, .f32⟩
  | 50 => ⟨S600000, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x128, .f32⟩
  | 60 => ⟨S600000x1, .f32⟩
  | 61 => ⟨S600000x128, .f32⟩
  | 62 => ⟨S600000x128, .f32⟩
  | 63 => ⟨S_, .f32⟩
  | 64 => ⟨S50000x128, .f32⟩
  | 65 => ⟨S600000x1, .i32⟩
  | 66 => ⟨S50000x128, .f32⟩
  | 67 => ⟨S_, .i32⟩
  | 68 => ⟨S600000, .i32⟩
  | 69 => ⟨S600000, .i1⟩
  | 70 => ⟨S_, .i32⟩
  | 71 => ⟨S600000, .i32⟩
  | 72 => ⟨S600000, .i32⟩
  | 73 => ⟨S600000, .i32⟩
  | 74 => ⟨S600000x1, .i32⟩
  | 75 => ⟨S600000x128, .f32⟩
  | 76 => ⟨S600000x1, .f32⟩
  | 77 => ⟨S600000x128, .f32⟩
  | 78 => ⟨S600000x128, .f32⟩
  | 79 => ⟨S_, .f32⟩
  | 80 => ⟨S50000x128, .f32⟩
  | 81 => ⟨S600000x1, .i32⟩
  | 82 => ⟨S50000x128, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000x128, .f32⟩
  | 92 => ⟨S600000x1, .f32⟩
  | 93 => ⟨S600000x128, .f32⟩
  | 94 => ⟨S600000x128, .f32⟩
  | 95 => ⟨S_, .f32⟩
  | 96 => ⟨S50000x128, .f32⟩
  | 97 => ⟨S600000x1, .i32⟩
  | 98 => ⟨S50000x128, .f32⟩
  | 99 => ⟨S50000x512, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S_, .f32⟩
  | 108 => ⟨S600000, .f32⟩
  | 109 => ⟨S_, .f32⟩
  | 110 => ⟨S50000, .f32⟩
  | 111 => ⟨S600000x1, .i32⟩
  | 112 => ⟨S50000, .f32⟩
  | 113 => ⟨S_, .f32⟩
  | 114 => ⟨S50000, .f32⟩
  | 115 => ⟨S50000, .i1⟩
  | 116 => ⟨S_, .f32⟩
  | 117 => ⟨S50000, .f32⟩
  | 118 => ⟨S50000, .f32⟩
  | 119 => ⟨S50000, .f32⟩
  | 120 => ⟨S_, .f32⟩
  | 121 => ⟨S_, .f32⟩
  | 122 => ⟨S50000, .f32⟩
  | 123 => ⟨S50000, .f32⟩
  | 124 => ⟨S_, .i32⟩
  | 125 => ⟨S600000, .i32⟩
  | 126 => ⟨S600000, .i1⟩
  | 127 => ⟨S_, .i32⟩
  | _ => ⟨S50000x128, .f32⟩

abbrev hbmTy0_1 (i : Nat) : BufTy := match i % 128 with
  | 0 => ⟨S600000, .i32⟩
  | 1 => ⟨S600000, .i32⟩
  | 2 => ⟨S600000, .i32⟩
  | 3 => ⟨S600000x1, .i32⟩
  | 4 => ⟨S600000, .f32⟩
  | 5 => ⟨S_, .i32⟩
  | 6 => ⟨S600000, .i32⟩
  | 7 => ⟨S600000, .i1⟩
  | 8 => ⟨S_, .i32⟩
  | 9 => ⟨S600000, .i32⟩
  | 10 => ⟨S600000, .i32⟩
  | 11 => ⟨S600000, .i32⟩
  | 12 => ⟨S600000x1, .i32⟩
  | 13 => ⟨S600000, .f32⟩
  | 14 => ⟨S600000, .f32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S600000x128, .f32⟩
  | 24 => ⟨S600000x1, .f32⟩
  | 25 => ⟨S600000x128, .f32⟩
  | 26 => ⟨S600000x128, .f32⟩
  | 27 => ⟨S_, .f32⟩
  | 28 => ⟨S50000x128, .f32⟩
  | 29 => ⟨S600000x1, .i32⟩
  | 30 => ⟨S50000x128, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x128, .f32⟩
  | 40 => ⟨S600000x1, .f32⟩
  | 41 => ⟨S600000x128, .f32⟩
  | 42 => ⟨S600000x128, .f32⟩
  | 43 => ⟨S_, .f32⟩
  | 44 => ⟨S50000x128, .f32⟩
  | 45 => ⟨S600000x1, .i32⟩
  | 46 => ⟨S50000x128, .f32⟩
  | 47 => ⟨S50000x384, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S50000x1, .f32⟩
  | 56 => ⟨S_, .f32⟩
  | 57 => ⟨S_, .f32⟩
  | 58 => ⟨S50000x1, .f32⟩
  | 59 => ⟨S50000x1, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S50000x1, .f32⟩
  | 68 => ⟨S50000x1, .f32⟩
  | 69 => ⟨S50000x128, .f32⟩
  | 70 => ⟨S1x128, .f32⟩
  | 71 => ⟨S50000x128, .f32⟩
  | 72 => ⟨S50000x128, .f32⟩
  | 73 => ⟨S50000x256, .f32⟩
  | 74 => ⟨S50000x2, .f32⟩
  | 75 => ⟨S1x2, .f32⟩
  | 76 => ⟨S50000x2, .f32⟩
  | 77 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_c_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_10 : Ref sig .tc := ⟨.hbm, 67, rfl⟩
abbrev main_v42 : Ref sig .tc := ⟨.hbm, 68, rfl⟩
abbrev main_v43 : Ref sig .tc := ⟨.hbm, 69, rfl⟩
abbrev main_c_11 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_13 : Ref sig .tc := ⟨.hbm, 83, rfl⟩
abbrev main_v55 : Ref sig .tc := ⟨.hbm, 84, rfl⟩
abbrev main_v56 : Ref sig .tc := ⟨.hbm, 85, rfl⟩
abbrev main_c_14 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call1_cst : Ref sig .tc := ⟨.hbm, 104, rfl⟩
abbrev main_call1_v0 : Ref sig .tc := ⟨.hbm, 105, rfl⟩
abbrev main_v73 : Ref sig .tc := ⟨.hbm, 106, rfl⟩
abbrev main_cst_16 : Ref sig .tc := ⟨.hbm, 107, rfl⟩
abbrev main_v74 : Ref sig .tc := ⟨.hbm, 108, rfl⟩
abbrev main_cst_17 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_18 : Ref sig .tc := ⟨.hbm, 113, rfl⟩
abbrev main_v78 : Ref sig .tc := ⟨.hbm, 114, rfl⟩
abbrev main_v79 : Ref sig .tc := ⟨.hbm, 115, rfl⟩
abbrev main_cst_19 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_20 : Ref sig .tc := ⟨.hbm, 120, rfl⟩
abbrev main_call2_v0 : Ref sig .tc := ⟨.hbm, 121, rfl⟩
abbrev main_call2_v1 : Ref sig .tc := ⟨.hbm, 122, rfl⟩
abbrev main_v83 : Ref sig .tc := ⟨.hbm, 123, rfl⟩
abbrev main_c_21 : Ref sig .tc := ⟨.hbm, 124, rfl⟩
abbrev main_v84 : Ref sig .tc := ⟨.hbm, 125, rfl⟩
abbrev main_v85 : Ref sig .tc := ⟨.hbm, 126, rfl⟩
abbrev main_c_22 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_c_23 : Ref sig .tc := ⟨.hbm, 133, rfl⟩
abbrev main_v91 : Ref sig .tc := ⟨.hbm, 134, rfl⟩
abbrev main_v92 : Ref sig .tc := ⟨.hbm, 135, rfl⟩
abbrev main_c_24 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_c_25 : Ref sig .tc := ⟨.hbm, 143, rfl⟩
abbrev main_v99 : Ref sig .tc := ⟨.hbm, 144, rfl⟩
abbrev main_v100 : Ref sig .tc := ⟨.hbm, 145, rfl⟩
abbrev main_c_26 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_27 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_c_28 : Ref sig .tc := ⟨.hbm, 159, rfl⟩
abbrev main_v112 : Ref sig .tc := ⟨.hbm, 160, rfl⟩
abbrev main_v113 : Ref sig .tc := ⟨.hbm, 161, rfl⟩
abbrev main_c_29 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_30 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_call3_cst : Ref sig .tc := ⟨.hbm, 180, rfl⟩
abbrev main_call3_v0 : Ref sig .tc := ⟨.hbm, 181, rfl⟩
abbrev main_v130 : Ref sig .tc := ⟨.hbm, 182, rfl⟩
abbrev main_v131 : Ref sig .tc := ⟨.hbm, 183, rfl⟩
abbrev main_cst_31 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_32 : Ref sig .tc := ⟨.hbm, 188, rfl⟩
abbrev main_v135 : Ref sig .tc := ⟨.hbm, 189, rfl⟩
abbrev main_cst_33 : Ref sig .tc := ⟨.hbm, 190, rfl⟩
abbrev main_v136 : Ref sig .tc := ⟨.hbm, 191, rfl⟩
abbrev main_v137 : Ref sig .tc := ⟨.hbm, 192, rfl⟩
abbrev main_cst_34 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  concatenates_S50000x128_S50000x128_S50000x128_S50000x128_S50000x512_d1 : Shape.Concatenates [S50000x128, S50000x128, S50000x128, S50000x128] S50000x512 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x128_S50000x384_d1 : Shape.Concatenates [S50000x128, S50000x128, S50000x128] S50000x384 1
  bcast_S50000_S50000x1_0 : S50000.BroadcastsInDim S50000x1 (![0] : Fin 1 → Fin S50000x1.rank)
  reducesTo_S50000_S_d0 : S50000.ReducesTo [0] S_
  h_S_ : 0 < S_.numel
  bcast_S_S50000x1 : S_.BroadcastsInDim S50000x1 (![] : Fin 0 → Fin S50000x1.rank)
  concatenates_S50000x128_S50000x128_S50000x256_d1 : Shape.Concatenates [S50000x128, S50000x128] S50000x256 1
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x512_S512x128_S50000x128_1_0_0_1_n_n_wf : DotDims.WF S50000x512 S512x128 S50000x128 [1] [0] [0] [1] [] []
  dot_S50000x384_S384x128_S50000x128_1_0_0_1_n_n_wf : DotDims.WF S50000x384 S384x128 S50000x128 [1] [0] [0] [1] [] []
  dot_S50000x1_S1x128_S50000x128_1_0_0_1_n_n_wf : DotDims.WF S50000x1 S1x128 S50000x128 [1] [0] [0] [1] [] []
  dot_S50000x256_S256x2_S50000x2_1_0_0_1_n_n_wf : DotDims.WF S50000x256 S256x2 S50000x2 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def dot_S50000x1_S1x128_S50000x128_1_0_0_1_n_n : DotDims S50000x1 S1x128 S50000x128 where
  lhsContracting := [1]
  rhsContracting := [0]
  lhsNonContracting := [0]
  rhsNonContracting := [1]
  lhsBatch := []
  rhsBatch := []
  wf := dot_S50000x1_S1x128_S50000x128_1_0_0_1_n_n_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.K.Region0.lean ====
/-
  Region 0 of the program: the kernel `cc0__fc_kernel` on its grid, at a parameter `V` — what the TensorCore's buffers hold
  when the region is entered. Each point reads its input windows' blocks whole and writes its output block whole:
  a block of 2000 rows of the concatenated features times the whole 512×128 weight, plus the bias row, clipped below at zero. Stated here: a window's block at a point as a function of `V`; what the body leaves in the output
  buffer as a function of the input blocks; the body's triple; the proof data of the pipeline and its obligation
  at every grid point. Nothing about the values is used: the three facts are that the body terminates, faults
  nowhere, and leaves each input buffer as it found it.
-/
import proofs.«161761_j55783035240724_1_alg».proof.Proof.Gen.Kernel.Launch
import proofs.«161761_j55783035240724_1_alg».proof.Proof.Gen.Kernel.Skeleton
import proofs.«161761_j55783035240724_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched
    the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: where it is not fetched
    the block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: where it is not fetched
    the block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev r0_0 : Rect S2000x512 := Rect.unit (s := S2000x512) ![0, 0] S2000x512.size inb_S2000x512_S2000x512_0_0
abbrev r0_1 : Rect S512x128 := Rect.unit (s := S512x128) ![0, 0] S512x128.size inb_S512x128_S512x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-! ## What the body leaves in the output window's buffer -/

/-- The output buffer after the body, from the input blocks: its one store as a piece. -/
def out0_3 (x0 : Vec F S2000x512 .f32) (x1 : Vec F S512x128 .f32) (x2 : Vec F S1x128 .f32) : Vec F S2000x128 .f32 :=
  View.canon [⟨r0_3, k0_pay1 (View.ld x0 r0_0) (View.ld x1 r0_1) (View.ld x2 r0_2)⟩]

/-- The one store takes the whole buffer, so it covers every index of it. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

/-! ## The body's triple -/

set_option maxHeartbeats 1000000 in
/-- The body on whole staging buffers, the inputs' holding `x0 …` and the output's anything, runs to its end holding
    the inputs' as they were and the output's at `out0_3` of them. -/
theorem sound_kernel0 (c : Dev nD) (E : Set ℕ) (i : grid0.Coords) (arg0 : Memref sig .tc .vmem S2000x512 .f32) (harg0 : arg0.IsWhole) (arg1 : Memref sig .tc .vmem S512x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x512 .f32) (x1 : Vec F S512x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__fc_kernel i arg0 harg0 arg1 harg1 arg2 harg2 arg3 harg3) K := by
  simp only [cc0__fc_kernel_eq_skeleton]; unfold cc0__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t` each
    input's buffer at its block and the output's at `out0_3` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 of the program: the kernel `cc1__fc_kernel` on its grid, at a parameter `V` — what the TensorCore's buffers hold
  when the region is entered. Each point reads its input windows' blocks whole and writes its output block whole:
  a block of 2000 rows of the concatenated features times the whole 384×128 weight, plus the bias row, clipped below at zero. Stated here: a window's block at a point as a function of `V`; what the body leaves in the output
  buffer as a function of the input blocks; the body's triple; the proof data of the pipeline and its obligation
  at every grid point. Nothing about the values is used: the three facts are that the body terminates, faults
  nowhere, and leaves each input buffer as it found it.
-/
import proofs.«161761_j55783035240724_1_alg».proof.Proof.Gen.Kernel.Launch
import proofs.«161761_j55783035240724_1_alg».proof.Proof.Gen.Kernel.Skeleton
import proofs.«161761_j55783035240724_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched
    the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: where it is not fetched
    the block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: where it is not fetched
    the block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_0 : Rect S2000x384 := Rect.unit (s := S2000x384) ![0, 0] S2000x384.size inb_S2000x384_S2000x384_0_0
abbrev r1_1 : Rect S384x128 := Rect.unit (s := S384x128) ![0, 0] S384x128.size inb_S384x128_S384x128_0_0
abbrev r1_2 : Rect S1x128 := Rect.unit (s := S1x128) ![0, 0] S1x128.size inb_S1x128_S1x128_0_0
abbrev r1_3 : Rect S2000x128 := Rect.unit (s := S2000x128) ![0, 0] S2000x128.size inb_S2000x128_S2000x128_0_0

/-! ## What the body leaves in the output window's buffer -/

/-- The output buffer after the body, from the input blocks: its one store as a piece. -/
def out1_3 (x0 : Vec F S2000x384 .f32) (x1 : Vec F S384x128 .f32) (x2 : Vec F S1x128 .f32) : Vec F S2000x128 .f32 :=
  View.canon [⟨r1_3, k1_pay1 (View.ld x0 r1_0) (View.ld x1 r1_1) (View.ld x2 r1_2)⟩]

/-- The one store takes the whole buffer, so it covers every index of it. -/
theorem cover1_3 (p0 : Vec F S2000x128 .f32) (y : S2000x128.Idx) :
    ∃ pc ∈ ([⟨r1_3, p0⟩] : List (View.Piece (Elt F) S2000x128 .f32)), y ∈ pc.1.set :=
  View.cover_of_tiled [⟨r1_3, p0⟩] S2000x128.size (by rfl) y

/-! ## The body's triple -/

set_option maxHeartbeats 1000000 in
/-- The body on whole staging buffers, the inputs' holding `x0 …` and the output's anything, runs to its end holding
    the inputs' as they were and the output's at `out1_3` of them. -/
theorem sound_kernel1 (c : Dev nD) (E : Set ℕ) (i : grid1.Coords) (arg0 : Memref sig .tc .vmem S2000x384 .f32) (harg0 : arg0.IsWhole) (arg1 : Memref sig .tc .vmem S384x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x384 .f32) (x1 : Vec F S384x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__fc_kernel i arg0 harg0 arg1 harg1 arg2 harg2 arg3 harg3) K := by
  simp only [cc1__fc_kernel_eq_skeleton]; unfold cc1__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them; after the body at point `t` each
    input's buffer at its block and the output's at `out1_3` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  Region 2 of the program: the kernel `cc2__final_kernel` on its grid, at a parameter `V` — what the TensorCore's buffers hold
  when the region is entered. Each point reads its input windows' blocks whole and writes its output block whole:
  a block of 5000 rows of the hidden features times the first padded weight, plus the same rows of the time embedding times the second, plus the padded bias row. Stated here: a window's block at a point as a function of `V`; what the body leaves in the output
  buffer as a function of the input blocks; the body's triple; the proof data of the pipeline and its obligation
  at every grid point. Nothing about the values is used: the three facts are that the body terminates, faults
  nowhere, and leaves each input buffer as it found it.
-/
import proofs.«161761_j55783035240724_1_alg».proof.Proof.Gen.Kernel.Launch
import proofs.«161761_j55783035240724_1_alg».proof.Proof.Gen.Kernel.Skeleton
import proofs.«161761_j55783035240724_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: where it is not fetched
    the block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not: where it is not fetched
    the block index has not moved since the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not: where it is not fetched
    the block index has not moved since the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not: where it is not fetched
    the block index has not moved since the point before. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not: where it is not fetched
    the block index has not moved since the point before. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole buffer -/

abbrev r2_0 : Rect S5000x128 := Rect.unit (s := S5000x128) ![0, 0] S5000x128.size inb_S5000x128_S5000x128_0_0
abbrev r2_1 : Rect S5000x128 := Rect.unit (s := S5000x128) ![0, 0] S5000x128.size inb_S5000x128_S5000x128_0_0
abbrev r2_2 : Rect S128x128 := Rect.unit (s := S128x128) ![0, 0] S128x128.size inb_S128x128_S128x128_0_0
abbrev r2_3 : Rect S128x128 := Rect.unit (s := S128x128) ![0, 0] S128x128.size inb_S128x128_S128x128_0_0
abbrev r2_4 : Rect S1x128 := Rect.unit (s := S1x128) ![0, 0] S1x128.size inb_S1x128_S1x128_0_0
abbrev r2_5 : Rect S5000x128 := Rect.unit (s := S5000x128) ![0, 0] S5000x128.size inb_S5000x128_S5000x128_0_0

/-! ## What the body leaves in the output window's buffer -/

/-- The output buffer after the body, from the input blocks: its one store as a piece. -/
def out2_5 (x0 : Vec F S5000x128 .f32) (x1 : Vec F S5000x128 .f32) (x2 : Vec F S128x128 .f32) (x3 : Vec F S128x128 .f32) (x4 : Vec F S1x128 .f32) : Vec F S5000x128 .f32 :=
  View.canon [⟨r2_5, k2_pay1 (View.ld x0 r2_0) (View.ld x1 r2_1) (View.ld x2 r2_2) (View.ld x3 r2_3) (View.ld x4 r2_4)⟩]

/-- The one store takes the whole buffer, so it covers every index of it. -/
theorem cover2_5 (p0 : Vec F S5000x128 .f32) (y : S5000x128.Idx) :
    ∃ pc ∈ ([⟨r2_5, p0⟩] : List (View.Piece (Elt F) S5000x128 .f32)), y ∈ pc.1.set :=
  View.cover_of_tiled [⟨r2_5, p0⟩] S5000x128.size (by rfl) y

/-! ## The body's triple -/

set_option maxHeartbeats 1000000 in
/-- The body on whole staging buffers, the inputs' holding `x0 …` and the output's anything, runs to its end holding
    the inputs' as they were and the output's at `out2_5` of them. -/
theorem sound_kernel2 (c : Dev nD) (E : Set ℕ) (i : grid2.Coords) (arg0 : Memref sig .tc .vmem S5000x128 .f32) (harg0 : arg0.IsWhole) (arg1 : Memref sig .tc .vmem S5000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__final_kernel i arg0 harg0 arg1 harg1 arg2 harg2 arg3 harg3 arg4 harg4 arg5 harg5) K := by
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core `c`: the arrays as the region finds them; after the body at point `t` each
    input's buffer at its block and the output's at `out2_5` of the input blocks; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The whole run of the program: its three kernel regions among twelve stretches of host operations, composed from the
  launch to the return. Written here: what every TensorCore buffer holds at each of the sixteen boundaries between
  consecutive items — a fold from the launch memory, a host stretch applying its operations, a region leaving its
  arrays at what its grid points wrote back and every other buffer as it was —; that no item writes an argument
  array, so each is read back through the fold to its launch contents; each region as a segment between two such
  boundaries; and the run: every weakly fair execution terminates, nothing faults, and the final memory holds every
  unscoped buffer at the last boundary's contents.
-/
import proofs.«161761_j55783035240724_1_alg».proof.Proof.Gen.Kernel.Launch
import proofs.«161761_j55783035240724_1_alg».proof.Proof.Gen.Kernel.Skeleton
import proofs.«161761_j55783035240724_1_alg».proof.Proof.Gen.Kernel.Points
import proofs.«161761_j55783035240724_1_alg».proof.Proof.K.Region0
import proofs.«161761_j55783035240724_1_alg».proof.Proof.K.Region1
import proofs.«161761_j55783035240724_1_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- The same read at the TensorCore's references: what region 0 is entered from. -/
abbrev V3 : (c : Dev nD) → (b : Ref sig .tc) → Buf (Elt F) ((c : Thread nD τ).loc b) := fun c b => W3 m ρ c b
/-- At region 0's exit: its arrays at what the pipeline leaves (an input as entered, the output at its grid points'
    write-backs), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After `hostOps1`. -/
abbrev W5 : Dev nD → Valuation τ sig (Elt F) := fun c => StableHlo.after hostOps1 (W4 m ρ c)
/-- The same read at the TensorCore's references: what region 1 is entered from. -/
abbrev V5 : (c : Dev nD) → (b : Ref sig .tc) → Buf (Elt F) ((c : Thread nD τ).loc b) := fun c b => W5 m ρ c b
/-- At region 1's exit: its arrays at what the pipeline leaves (an input as entered, the output at its grid points'
    write-backs), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After `hostOps2`. -/
abbrev W7 : Dev nD → Valuation τ sig (Elt F) := fun c => StableHlo.after hostOps2 (W6 m ρ c)
/-- After `hostOps2_1`. -/
abbrev W8 : Dev nD → Valuation τ sig (Elt F) := fun c => StableHlo.after hostOps2_1 (W7 m ρ c)
/-- After `hostOps2_2`. -/
abbrev W9 : Dev nD → Valuation τ sig (Elt F) := fun c => StableHlo.after hostOps2_2 (W8 m ρ c)
/-- After `hostOps2_3`. -/
abbrev W10 : Dev nD → Valuation τ sig (Elt F) := fun c => StableHlo.after hostOps2_3 (W9 m ρ c)
/-- After `hostOps2_4`. -/
abbrev W11 : Dev nD → Valuation τ sig (Elt F) := fun c => StableHlo.after hostOps2_4 (W10 m ρ c)
/-- After `hostOps2_5`. -/
abbrev W12 : Dev nD → Valuation τ sig (Elt F) := fun c => StableHlo.after hostOps2_5 (W11 m ρ c)
/-- After `hostOps2_6`. -/
abbrev W13 : Dev nD → Valuation τ sig (Elt F) := fun c => StableHlo.after hostOps2_6 (W12 m ρ c)
/-- The same read at the TensorCore's references: what region 2 is entered from. -/
abbrev V13 : (c : Dev nD) → (b : Ref sig .tc) → Buf (Elt F) ((c : Thread nD τ).loc b) := fun c b => W13 m ρ c b
/-- At region 2's exit: its arrays at what the pipeline leaves (an input as entered, the output at its grid points'
    write-backs), every other buffer as entered. -/
def W14 (c : Dev nD) : Valuation τ sig (Elt F) :=
  Pipeline.withArrays spec2 c (W13 m ρ c) fun w => (dat2 (V13 m ρ) c).arrAt w cfg2.N
theorem W14_arr (c : Dev nD) (w : Fin cfg2.W) :
    W14 m ρ c (Proc.devRef .tc (Pipeline.arrRef spec2 w)) = (dat2 (V13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
abbrev V14 : (c : Dev nD) → (b : Ref sig .tc) → Buf (Elt F) ((c : Thread nD τ).loc b) := fun c b => W14 m ρ c b
theorem hF2 (c : Dev nD) (w : Fin cfg2.W) : (dat2 (V13 m ρ) c).arrAt w cfg2.N = V14 m ρ c (Pipeline.arrRef spec2 w) :=
  (W14_arr m ρ c w).symm
theorem hrest2 (c : Dev nD) : ∀ b, b ∉ Finset.univ.image (Pipeline.arrRef spec2) → V14 m ρ c b = V13 m ρ c b :=
  fun b hb => W14_of_ne m ρ c b fun w e => hb (Finset.mem_image.mpr ⟨w, Finset.mem_univ _, e⟩)
/-- After `hostOps3`. -/
abbrev W15 : Dev nD → Valuation τ sig (Elt F) := fun c => StableHlo.after hostOps3 (W14 m ρ c)

/-! ## What the host stretches write, and that none of them allocates -/

theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1, main_v2, main_v3, main_cst, main_v4, main_cst_0, main_v5, main_v6, main_v7, main_cst_1, main_v8, main_v9, main_cst_2, main_v10, main_v11, main_v12, main_cst_3]
theorem hostOps0_writes : (hostOps0 : List (HloOp τ sig (Elt F))).Forall fun op => op.writes ⊆ (hostOps0_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

theorem hostOps0_1_fresh : (hostOps0_1 : List (HloOp τ sig (Elt F))).Forall fun op => op.fresh = ∅ := by
  simp only [List.Forall]; repeat' constructor
/-- The references `hostOps0_1`'s operations write. -/
abbrev hostOps0_1_W : List (Ref sig .tc) := [main_call0_v0, main_call0_v1, main_v13]
theorem hostOps0_1_writes : (hostOps0_1 : List (HloOp τ sig (Elt F))).Forall fun op => op.writes ⊆ (hostOps0_1_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

theorem hostOps0_2_fresh : (hostOps0_2 : List (HloOp τ sig (Elt F))).Forall fun op => op.fresh = ∅ := by
  simp only [List.Forall]; repeat' constructor
/-- The references `hostOps0_2`'s operations write. -/
abbrev hostOps0_2_W : List (Ref sig .tc) := [main_c, main_v14, main_v15, main_c_4, main_v16, main_v17, main_v18, main_v19, main_v20, main_c_5, main_v21, main_v22, main_c_6, main_v23, main_v24, main_v25, main_v26, main_v27, main_v28, main_c_7, main_v29, main_v30, main_c_8, main_v31, main_v32, main_v33, main_v34, main_v35, main_v36, main_v37, main_v38, main_cst_9, main_v39, main_v40, main_v41, main_c_10, main_v42, main_v43, main_c_11, main_v44, main_v45, main_v46, main_v47, main_v48, main_v49, main_v50, main_v51, main_cst_12, main_v52, main_v53, main_v54, main_c_13, main_v55, main_v56, main_c_14, main_v57, main_v58, main_v59, main_v60, main_v61, main_v62, main_v63, main_v64, main_cst_15, main_v65, main_v66, main_v67, main_v68, main_v69]
theorem hostOps0_2_writes : (hostOps0_2 : List (HloOp τ sig (Elt F))).Forall fun op => op.writes ⊆ (hostOps0_2_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_c_16, main_v71, main_v72, main_c_17, main_v73, main_v74, main_v75, main_v76, main_v77, main_v78, main_v79, main_v80, main_cst_18, main_v81, main_v82, main_v83, main_c_19, main_v84, main_v85, main_c_20, main_v86, main_v87, main_v88, main_v89, main_v90, main_v91, main_v92, main_v93, main_cst_21, main_v94, main_v95, main_v96, main_v97, main_v98]
theorem hostOps1_writes : (hostOps1 : List (HloOp τ sig (Elt F))).Forall fun op => op.writes ⊆ (hostOps1_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_cst_22, main_v100, main_cst_23, main_v101, main_v102, main_v103, main_v104, main_v105, main_cst_24, main_v106, main_v107, main_v108, main_v109, main_v110, main_v111, main_v112, main_v113, main_v114, main_v115, main_c_25]
theorem hostOps2_writes : (hostOps2 : List (HloOp τ sig (Elt F))).Forall fun op => op.writes ⊆ (hostOps2_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

theorem hostOps2_1_fresh : (hostOps2_1 : List (HloOp τ sig (Elt F))).Forall fun op => op.fresh = ∅ := by
  simp only [List.Forall]; repeat' constructor
/-- The references `hostOps2_1`'s operations write. -/
abbrev hostOps2_1_W : List (Ref sig .tc) := [main_call1_v0, main_v116]
theorem hostOps2_1_writes : (hostOps2_1 : List (HloOp τ sig (Elt F))).Forall fun op => op.writes ⊆ (hostOps2_1_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide)))⟩

theorem hostOps2_2_fresh : (hostOps2_2 : List (HloOp τ sig (Elt F))).Forall fun op => op.fresh = ∅ := by
  simp only [List.Forall]; repeat' constructor
/-- The references `hostOps2_2`'s operations write. -/
abbrev hostOps2_2_W : List (Ref sig .tc) := [main_v117, main_c_26]
theorem hostOps2_2_writes : (hostOps2_2 : List (HloOp τ sig (Elt F))).Forall fun op => op.writes ⊆ (hostOps2_2_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide)))⟩

theorem hostOps2_3_fresh : (hostOps2_3 : List (HloOp τ sig (Elt F))).Forall fun op => op.fresh = ∅ := by
  simp only [List.Forall]; repeat' constructor
/-- The references `hostOps2_3`'s operations write. -/
abbrev hostOps2_3_W : List (Ref sig .tc) := [main_call2_v0, main_v118]
theorem hostOps2_3_writes : (hostOps2_3 : List (HloOp τ sig (Elt F))).Forall fun op => op.writes ⊆ (hostOps2_3_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide)))⟩

theorem hostOps2_4_fresh : (hostOps2_4 : List (HloOp τ sig (Elt F))).Forall fun op => op.fresh = ∅ := by
  simp only [List.Forall]; repeat' constructor
/-- The references `hostOps2_4`'s operations write. -/
abbrev hostOps2_4_W : List (Ref sig .tc) := [main_c_27]
theorem hostOps2_4_writes : (hostOps2_4 : List (HloOp τ sig (Elt F))).Forall fun op => op.writes ⊆ (hostOps2_4_W.map (Proc.devRef (τ := τ) .tc)).toFinset := by
  simp only [List.Forall]
  exact (Finset.singleton_subset_iff.mpr (List.mem_toFinset.mpr (List.mem_map_of_mem (by decide))))

theorem hostOps2_5_fresh : (hostOps2_5 : List (HloOp τ sig (Elt F))).Forall fun op => op.fresh = ∅ := by
  simp only [List.Forall]; repeat' constructor
/-- The references `hostOps2_5`'s operations write. -/
abbrev hostOps2_5_W : List (Ref sig .tc) := [main_call3_v0, main_v119]
theorem hostOps2_5_writes : (hostOps2_5 : List (HloOp τ sig (Elt F))).Forall fun op => op.writes ⊆ (hostOps2_5_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide)))⟩

theorem hostOps2_6_fresh : (hostOps2_6 : List (HloOp τ sig (Elt F))).Forall fun op => op.fresh = ∅ := by
  simp only [List.Forall]; repeat' constructor
/-- The references `hostOps2_6`'s operations write. -/
abbrev hostOps2_6_W : List (Ref sig .tc) := [main_v120]
theorem hostOps2_6_writes : (hostOps2_6 : List (HloOp τ sig (Elt F))).Forall fun op => op.writes ⊆ (hostOps2_6_W.map (Proc.devRef (τ := τ) .tc)).toFinset := by
  simp only [List.Forall]
  exact (Finset.singleton_subset_iff.mpr (List.mem_toFinset.mpr (List.mem_map_of_mem (by decide))))

theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_v122]
theorem hostOps3_writes : (hostOps3 : List (HloOp τ sig (Elt F))).Forall fun op => op.writes ⊆ (hostOps3_W.map (Proc.devRef (τ := τ) .tc)).toFinset := by
  simp only [List.Forall]
  exact (Finset.singleton_subset_iff.mpr (List.mem_toFinset.mpr (List.mem_map_of_mem (by decide))))

/-! ## What each item leaves unchanged -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W8_of (c : Dev nD) (r : Ref sig .tc) (h : r ∉ hostOps2_1_W) : W8 m ρ c (Proc.devRef .tc r) = W7 m ρ c (Proc.devRef .tc r) :=
  StableHlo.after_of_writes_sub hostOps2_1 _ hostOps2_1_writes h
theorem W9_of (c : Dev nD) (r : Ref sig .tc) (h : r ∉ hostOps2_2_W) : W9 m ρ c (Proc.devRef .tc r) = W8 m ρ c (Proc.devRef .tc r) :=
  StableHlo.after_of_writes_sub hostOps2_2 _ hostOps2_2_writes h
theorem W10_of (c : Dev nD) (r : Ref sig .tc) (h : r ∉ hostOps2_3_W) : W10 m ρ c (Proc.devRef .tc r) = W9 m ρ c (Proc.devRef .tc r) :=
  StableHlo.after_of_writes_sub hostOps2_3 _ hostOps2_3_writes h
theorem W11_of (c : Dev nD) (r : Ref sig .tc) (h : r ∉ hostOps2_4_W) : W11 m ρ c (Proc.devRef .tc r) = W10 m ρ c (Proc.devRef .tc r) :=
  StableHlo.after_of_writes_sub hostOps2_4 _ hostOps2_4_writes h
theorem W12_of (c : Dev nD) (r : Ref sig .tc) (h : r ∉ hostOps2_5_W) : W12 m ρ c (Proc.devRef .tc r) = W11 m ρ c (Proc.devRef .tc r) :=
  StableHlo.after_of_writes_sub hostOps2_5 _ hostOps2_5_writes h
theorem W13_of (c : Dev nD) (r : Ref sig .tc) (h : r ∉ hostOps2_6_W) : W13 m ρ c (Proc.devRef .tc r) = W12 m ρ c (Proc.devRef .tc r) :=
  StableHlo.after_of_writes_sub hostOps2_6 _ hostOps2_6_writes h
theorem W15_of (c : Dev nD) (r : Ref sig .tc) (h : r ∉ hostOps3_W) : W15 m ρ c (Proc.devRef .tc r) = W14 m ρ c (Proc.devRef .tc r) :=
  StableHlo.after_of_writes_sub hostOps3 _ hostOps3_writes h

/-! ## No item writes an argument: each is read back through the fold to its launch contents -/

theorem W15_main_arg0 (c : Dev nD) : W15 m ρ c (Proc.devRef .tc main_arg0) = m ((c : Thread nD τ).loc main_arg0) :=
  (W15_of m ρ c main_arg0 (by decide)).trans <|
  (W14_of_ne m ρ c main_arg0 (by decide)).trans <|
  (W13_of m ρ c main_arg0 (by decide)).trans <|
  (W12_of m ρ c main_arg0 (by decide)).trans <|
  (W11_of m ρ c main_arg0 (by decide)).trans <|
  (W10_of m ρ c main_arg0 (by decide)).trans <|
  (W9_of m ρ c main_arg0 (by decide)).trans <|
  (W8_of m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of m ρ c main_arg0 (by decide)).trans <|
  (W1_of m ρ c main_arg0 (by decide)).trans <| rfl

theorem W15_main_arg1 (c : Dev nD) : W15 m ρ c (Proc.devRef .tc main_arg1) = m ((c : Thread nD τ).loc main_arg1) :=
  (W15_of m ρ c main_arg1 (by decide)).trans <|
  (W14_of_ne m ρ c main_arg1 (by decide)).trans <|
  (W13_of m ρ c main_arg1 (by decide)).trans <|
  (W12_of m ρ c main_arg1 (by decide)).trans <|
  (W11_of m ρ c main_arg1 (by decide)).trans <|
  (W10_of m ρ c main_arg1 (by decide)).trans <|
  (W9_of m ρ c main_arg1 (by decide)).trans <|
  (W8_of m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of m ρ c main_arg1 (by decide)).trans <|
  (W1_of m ρ c main_arg1 (by decide)).trans <| rfl

theorem W15_main_arg2 (c : Dev nD) : W15 m ρ c (Proc.devRef .tc main_arg2) = m ((c : Thread nD τ).loc main_arg2) :=
  (W15_of m ρ c main_arg2 (by decide)).trans <|
  (W14_of_ne m ρ c main_arg2 (by decide)).trans <|
  (W13_of m ρ c main_arg2 (by decide)).trans <|
  (W12_of m ρ c main_arg2 (by decide)).trans <|
  (W11_of m ρ c main_arg2 (by decide)).trans <|
  (W10_of m ρ c main_arg2 (by decide)).trans <|
  (W9_of m ρ c main_arg2 (by decide)).trans <|
  (W8_of m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of m ρ c main_arg2 (by decide)).trans <|
  (W1_of m ρ c main_arg2 (by decide)).trans <| rfl

theorem W15_main_arg3 (c : Dev nD) : W15 m ρ c (Proc.devRef .tc main_arg3) = m ((c : Thread nD τ).loc main_arg3) :=
  (W15_of m ρ c main_arg3 (by decide)).trans <|
  (W14_of_ne m ρ c main_arg3 (by decide)).trans <|
  (W13_of m ρ c main_arg3 (by decide)).trans <|
  (W12_of m ρ c main_arg3 (by decide)).trans <|
  (W11_of m ρ c main_arg3 (by decide)).trans <|
  (W10_of m ρ c main_arg3 (by decide)).trans <|
  (W9_of m ρ c main_arg3 (by decide)).trans <|
  (W8_of m ρ c main_arg3 (by decide)).trans <|
  (W7_of m ρ c main_arg3 (by decide)).trans <|
  (W6_of_ne m ρ c main_arg3 (by decide)).trans <|
  (W5_of m ρ c main_arg3 (by decide)).trans <|
  ((W4_arr m ρ c 1).trans (((dat0 (V3 m ρ) c).arrAt_in 1 rfl _).trans (A_eq0 (V3 m ρ) c 1))).trans <|
  (W3_of m ρ c main_arg3 (by decide)).trans <|
  (W2_of m ρ c main_arg3 (by decide)).trans <|
  (W1_of m ρ c main_arg3 (by decide)).trans <| rfl

theorem W15_main_arg4 (c : Dev nD) : W15 m ρ c (Proc.devRef .tc main_arg4) = m ((c : Thread nD τ).loc main_arg4) :=
  (W15_of m ρ c main_arg4 (by decide)).trans <|
  (W14_of_ne m ρ c main_arg4 (by decide)).trans <|
  (W13_of m ρ c main_arg4 (by decide)).trans <|
  (W12_of m ρ c main_arg4 (by decide)).trans <|
  (W11_of m ρ c main_arg4 (by decide)).trans <|
  (W10_of m ρ c main_arg4 (by decide)).trans <|
  (W9_of m ρ c main_arg4 (by decide)).trans <|
  (W8_of m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of m ρ c main_arg4 (by decide)).trans <|
  (W1_of m ρ c main_arg4 (by decide)).trans <| rfl

theorem W15_main_arg5 (c : Dev nD) : W15 m ρ c (Proc.devRef .tc main_arg5) = m ((c : Thread nD τ).loc main_arg5) :=
  (W15_of m ρ c main_arg5 (by decide)).trans <|
  (W14_of_ne m ρ c main_arg5 (by decide)).trans <|
  (W13_of m ρ c main_arg5 (by decide)).trans <|
  (W12_of m ρ c main_arg5 (by decide)).trans <|
  (W11_of m ρ c main_arg5 (by decide)).trans <|
  (W10_of m ρ c main_arg5 (by decide)).trans <|
  (W9_of m ρ c main_arg5 (by decide)).trans <|
  (W8_of m ρ c main_arg5 (by decide)).trans <|
  (W7_of m ρ c main_arg5 (by decide)).trans <|
  ((W6_arr m ρ c 1).trans (((dat1 (V5 m ρ) c).arrAt_in 1 rfl _).trans (A_eq1 (V5 m ρ) c 1))).trans <|
  (W5_of m ρ c main_arg5 (by decide)).trans <|
  (W4_of_ne m ρ c main_arg5 (by decide)).trans <|
  (W3_of m ρ c main_arg5 (by decide)).trans <|
  (W2_of m ρ c main_arg5 (by decide)).trans <|
  (W1_of m ρ c main_arg5 (by decide)).trans <| rfl

theorem W15_main_arg6 (c : Dev nD) : W15 m ρ c (Proc.devRef .tc main_arg6) = m ((c : Thread nD τ).loc main_arg6) :=
  (W15_of m ρ c main_arg6 (by decide)).trans <|
  (W14_of_ne m ρ c main_arg6 (by decide)).trans <|
  (W13_of m ρ c main_arg6 (by decide)).trans <|
  (W12_of m ρ c main_arg6 (by decide)).trans <|
  (W11_of m ρ c main_arg6 (by decide)).trans <|
  (W10_of m ρ c main_arg6 (by decide)).trans <|
  (W9_of m ρ c main_arg6 (by decide)).trans <|
  (W8_of m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of m ρ c main_arg6 (by decide)).trans <|
  (W1_of m ρ c main_arg6 (by decide)).trans <| rfl

theorem W15_main_arg7 (c : Dev nD) : W15 m ρ c (Proc.devRef .tc main_arg7) = m ((c : Thread nD τ).loc main_arg7) :=
  (W15_of m ρ c main_arg7 (by decide)).trans <|
  (W14_of_ne m ρ c main_arg7 (by decide)).trans <|
  (W13_of m ρ c main_arg7 (by decide)).trans <|
  (W12_of m ρ c main_arg7 (by decide)).trans <|
  (W11_of m ρ c main_arg7 (by decide)).trans <|
  (W10_of m ρ c main_arg7 (by decide)).trans <|
  (W9_of m ρ c main_arg7 (by decide)).trans <|
  (W8_of m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of m ρ c main_arg7 (by decide)).trans <|
  (W1_of m ρ c main_arg7 (by decide)).trans <| rfl

theorem W15_main_arg8 (c : Dev nD) : W15 m ρ c (Proc.devRef .tc main_arg8) = m ((c : Thread nD τ).loc main_arg8) :=
  (W15_of m ρ c main_arg8 (by decide)).trans <|
  (W14_of_ne m ρ c main_arg8 (by decide)).trans <|
  (W13_of m ρ c main_arg8 (by decide)).trans <|
  (W12_of m ρ c main_arg8 (by decide)).trans <|
  (W11_of m ρ c main_arg8 (by decide)).trans <|
  (W10_of m ρ c main_arg8 (by decide)).trans <|
  (W9_of m ρ c main_arg8 (by decide)).trans <|
  (W8_of m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of m ρ c main_arg8 (by decide)).trans <|
  (W1_of m ρ c main_arg8 (by decide)).trans <| rfl

theorem W15_main_arg9 (c : Dev nD) : W15 m ρ c (Proc.devRef .tc main_arg9) = m ((c : Thread nD τ).loc main_arg9) :=
  (W15_of m ρ c main_arg9 (by decide)).trans <|
  (W14_of_ne m ρ c main_arg9 (by decide)).trans <|
  (W13_of m ρ c main_arg9 (by decide)).trans <|
  (W12_of m ρ c main_arg9 (by decide)).trans <|
  (W11_of m ρ c main_arg9 (by decide)).trans <|
  (W10_of m ρ c main_arg9 (by decide)).trans <|
  (W9_of m ρ c main_arg9 (by decide)).trans <|
  (W8_of m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of m ρ c main_arg9 (by decide)).trans <|
  (W1_of m ρ c main_arg9 (by decide)).trans <| rfl

theorem W15_main_arg10 (c : Dev nD) : W15 m ρ c (Proc.devRef .tc main_arg10) = m ((c : Thread nD τ).loc main_arg10) :=
  (W15_of m ρ c main_arg10 (by decide)).trans <|
  (W14_of_ne m ρ c main_arg10 (by decide)).trans <|
  (W13_of m ρ c main_arg10 (by decide)).trans <|
  (W12_of m ρ c main_arg10 (by decide)).trans <|
  (W11_of m ρ c main_arg10 (by decide)).trans <|
  (W10_of m ρ c main_arg10 (by decide)).trans <|
  (W9_of m ρ c main_arg10 (by decide)).trans <|
  (W8_of m ρ c main_arg10 (by decide)).trans <|
  (W7_of m ρ c main_arg10 (by decide)).trans <|
  (W6_of_ne m ρ c main_arg10 (by decide)).trans <|
  (W5_of m ρ c main_arg10 (by decide)).trans <|
  (W4_of_ne m ρ c main_arg10 (by decide)).trans <|
  (W3_of m ρ c main_arg10 (by decide)).trans <|
  (W2_of m ρ c main_arg10 (by decide)).trans <|
  (W1_of m ρ c main_arg10 (by decide)).trans <| rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes,
    which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W15 m ρ c) ∗ ∃ r, prngReg c r)

/-! ## The regions as segments -/

set_option backward.isDefEq.respectTransparency.types false in
/-- Region 0 over the thread state: entered from every unscoped buffer at `W3`, left at `W4`. Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split
    out of the unscoped buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W13`, left at `W14`. Its arrays are split
    out of the unscoped buffers and put back at the exit contents; the generator register goes into the invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V13 m ρ) c).loose
  hwaits := Pipeline.hwaits_of_owed_zero _ _ _ _ L lv 2 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec2 c (V13 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V13 m ρ c) (V14 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 15 segments in order: a host segment per stretch from its boundary's contents, a region per kernel launch. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .host (hseg hostOps2_1 hostOps2_1_sub hostOps2_1_fresh (W7 m ρ)),
    .host (hseg hostOps2_2 hostOps2_2_sub hostOps2_2_fresh (W8 m ρ)),
    .host (hseg hostOps2_3 hostOps2_3_sub hostOps2_3_fresh (W9 m ρ)),
    .host (hseg hostOps2_4 hostOps2_4_sub hostOps2_4_fresh (W10 m ρ)),
    .host (hseg hostOps2_5 hostOps2_5_sub hostOps2_5_fresh (W11 m ρ)),
    .host (hseg hostOps2_6 hostOps2_6_sub hostOps2_6_fresh (W12 m ρ)),
    .region (reg2 m ρ),
    .host (hseg hostOps3 hostOps3_sub hostOps3_fresh (W14 m ρ)) ]

/-- The program IS the run of the segments. -/
theorem main_run (c : Dev nD) : main (F := F) c = Pipeline.Seg.run (segs m ρ) := (main_chain c).trans (by chain_rfl)

set_option backward.isDefEq.respectTransparency.types false in
/-- THE RUN. From any memory with zero counters, every weakly fair execution of the program on the TensorCores terminates,
    nothing faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c =>
      show iprop(StableHlo.held (c : Thread nD τ) (Pipeline.ucRefs τ sig) (W15 m ρ c) ∗ (∃ r, prngReg c r)
          ∗ ∃ W, owes (c : Thread nD τ) (0 : CellTallies nD τ sig Unit) W)
        ⊢ iprop((StableHlo.held (c : Thread nD τ) (Pipeline.ucRefs τ sig) (W15 m ρ c) ∗ ∃ r, prngReg c r)
          ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c)⟩) (run_all m ρ)

end Cert.Kernel.Hand

end
-- ==== Proof.KI.Region0.lean ====
/-
  Region 0 of the program: the kernel `cc0__fc_kernel` on its grid, at a parameter `V` — what the TensorCore's buffers hold
  when the region is entered. Each point reads its input windows' blocks whole and writes its output block whole:
  a block of 2000 rows of the concatenated features times the whole 512×128 weight, plus the bias row, clipped below at zero. Stated here: a window's block at a point as a function of `V`; what the body leaves in the output
  buffer as a function of the input blocks; the body's triple; the proof data of the pipeline and its obligation
  at every grid point. Nothing about the values is used: the three facts are that the body terminates, faults
  nowhere, and leaves each input buffer as it found it.
-/
import proofs.«161761_j55783035240724_1_alg».proof.Proof.Gen.KernelIdeal.Launch
import proofs.«161761_j55783035240724_1_alg».proof.Proof.Gen.KernelIdeal.Skeleton
import proofs.«161761_j55783035240724_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched
    the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: where it is not fetched
    the block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: where it is not fetched
    the block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev r0_0 : Rect S2000x512 := Rect.unit (s := S2000x512) ![0, 0] S2000x512.size inb_S2000x512_S2000x512_0_0
abbrev r0_1 : Rect S512x128 := Rect.unit (s := S512x128) ![0, 0] S512x128.size inb_S512x128_S512x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-! ## What the body leaves in the output window's buffer -/

/-- The output buffer after the body, from the input blocks: its one store as a piece. -/
def out0_3 (x0 : Vec F S2000x512 .f32) (x1 : Vec F S512x128 .f32) (x2 : Vec F S1x128 .f32) : Vec F S2000x128 .f32 :=
  View.canon [⟨r0_3, k0_pay1 (View.ld x0 r0_0) (View.ld x1 r0_1) (View.ld x2 r0_2)⟩]

/-- The one store takes the whole buffer, so it covers every index of it. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

/-! ## The body's triple -/

set_option maxHeartbeats 1000000 in
/-- The body on whole staging buffers, the inputs' holding `x0 …` and the output's anything, runs to its end holding
    the inputs' as they were and the output's at `out0_3` of them. -/
theorem sound_kernel0 (c : Dev nD) (E : Set ℕ) (i : grid0.Coords) (arg0 : Memref sig .tc .vmem S2000x512 .f32) (harg0 : arg0.IsWhole) (arg1 : Memref sig .tc .vmem S512x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x512 .f32) (x1 : Vec F S512x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__fc_kernel i arg0 harg0 arg1 harg1 arg2 harg2 arg3 harg3) K := by
  simp only [cc0__fc_kernel_eq_skeleton]; unfold cc0__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t` each
    input's buffer at its block and the output's at `out0_3` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of the program: the kernel `cc1__fc_kernel` on its grid, at a parameter `V` — what the TensorCore's buffers hold
  when the region is entered. Each point reads its input windows' blocks whole and writes its output block whole:
  a block of 2000 rows of the concatenated features times the whole 384×128 weight, plus the bias row, clipped below at zero. Stated here: a window's block at a point as a function of `V`; what the body leaves in the output
  buffer as a function of the input blocks; the body's triple; the proof data of the pipeline and its obligation
  at every grid point. Nothing about the values is used: the three facts are that the body terminates, faults
  nowhere, and leaves each input buffer as it found it.
-/
import proofs.«161761_j55783035240724_1_alg».proof.Proof.Gen.KernelIdeal.Launch
import proofs.«161761_j55783035240724_1_alg».proof.Proof.Gen.KernelIdeal.Skeleton
import proofs.«161761_j55783035240724_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched
    the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: where it is not fetched
    the block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: where it is not fetched
    the block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_0 : Rect S2000x384 := Rect.unit (s := S2000x384) ![0, 0] S2000x384.size inb_S2000x384_S2000x384_0_0
abbrev r1_1 : Rect S384x128 := Rect.unit (s := S384x128) ![0, 0] S384x128.size inb_S384x128_S384x128_0_0
abbrev r1_2 : Rect S1x128 := Rect.unit (s := S1x128) ![0, 0] S1x128.size inb_S1x128_S1x128_0_0
abbrev r1_3 : Rect S2000x128 := Rect.unit (s := S2000x128) ![0, 0] S2000x128.size inb_S2000x128_S2000x128_0_0

/-! ## What the body leaves in the output window's buffer -/

/-- The output buffer after the body, from the input blocks: its one store as a piece. -/
def out1_3 (x0 : Vec F S2000x384 .f32) (x1 : Vec F S384x128 .f32) (x2 : Vec F S1x128 .f32) : Vec F S2000x128 .f32 :=
  View.canon [⟨r1_3, k1_pay1 (View.ld x0 r1_0) (View.ld x1 r1_1) (View.ld x2 r1_2)⟩]

/-- The one store takes the whole buffer, so it covers every index of it. -/
theorem cover1_3 (p0 : Vec F S2000x128 .f32) (y : S2000x128.Idx) :
    ∃ pc ∈ ([⟨r1_3, p0⟩] : List (View.Piece (Elt F) S2000x128 .f32)), y ∈ pc.1.set :=
  View.cover_of_tiled [⟨r1_3, p0⟩] S2000x128.size (by rfl) y

/-! ## The body's triple -/

set_option maxHeartbeats 1000000 in
/-- The body on whole staging buffers, the inputs' holding `x0 …` and the output's anything, runs to its end holding
    the inputs' as they were and the output's at `out1_3` of them. -/
theorem sound_kernel1 (c : Dev nD) (E : Set ℕ) (i : grid1.Coords) (arg0 : Memref sig .tc .vmem S2000x384 .f32) (harg0 : arg0.IsWhole) (arg1 : Memref sig .tc .vmem S384x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x384 .f32) (x1 : Vec F S384x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__fc_kernel i arg0 harg0 arg1 harg1 arg2 harg2 arg3 harg3) K := by
  simp only [cc1__fc_kernel_eq_skeleton]; unfold cc1__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them; after the body at point `t` each
    input's buffer at its block and the output's at `out1_3` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Region 2 of the program: the kernel `cc2__final_kernel` on its grid, at a parameter `V` — what the TensorCore's buffers hold
  when the region is entered. Each point reads its input windows' blocks whole and writes its output block whole:
  a block of 5000 rows of the hidden features times the first padded weight, plus the same rows of the time embedding times the second, plus the padded bias row. Stated here: a window's block at a point as a function of `V`; what the body leaves in the output
  buffer as a function of the input blocks; the body's triple; the proof data of the pipeline and its obligation
  at every grid point. Nothing about the values is used: the three facts are that the body terminates, faults
  nowhere, and leaves each input buffer as it found it.
-/
import proofs.«161761_j55783035240724_1_alg».proof.Proof.Gen.KernelIdeal.Launch
import proofs.«161761_j55783035240724_1_alg».proof.Proof.Gen.KernelIdeal.Skeleton
import proofs.«161761_j55783035240724_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: where it is not fetched
    the block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not: where it is not fetched
    the block index has not moved since the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not: where it is not fetched
    the block index has not moved since the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not: where it is not fetched
    the block index has not moved since the point before. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not: where it is not fetched
    the block index has not moved since the point before. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole buffer -/

abbrev r2_0 : Rect S5000x128 := Rect.unit (s := S5000x128) ![0, 0] S5000x128.size inb_S5000x128_S5000x128_0_0
abbrev r2_1 : Rect S5000x128 := Rect.unit (s := S5000x128) ![0, 0] S5000x128.size inb_S5000x128_S5000x128_0_0
abbrev r2_2 : Rect S128x128 := Rect.unit (s := S128x128) ![0, 0] S128x128.size inb_S128x128_S128x128_0_0
abbrev r2_3 : Rect S128x128 := Rect.unit (s := S128x128) ![0, 0] S128x128.size inb_S128x128_S128x128_0_0
abbrev r2_4 : Rect S1x128 := Rect.unit (s := S1x128) ![0, 0] S1x128.size inb_S1x128_S1x128_0_0
abbrev r2_5 : Rect S5000x128 := Rect.unit (s := S5000x128) ![0, 0] S5000x128.size inb_S5000x128_S5000x128_0_0

/-! ## What the body leaves in the output window's buffer -/

/-- The output buffer after the body, from the input blocks: its one store as a piece. -/
def out2_5 (x0 : Vec F S5000x128 .f32) (x1 : Vec F S5000x128 .f32) (x2 : Vec F S128x128 .f32) (x3 : Vec F S128x128 .f32) (x4 : Vec F S1x128 .f32) : Vec F S5000x128 .f32 :=
  View.canon [⟨r2_5, k2_pay1 (View.ld x0 r2_0) (View.ld x1 r2_1) (View.ld x2 r2_2) (View.ld x3 r2_3) (View.ld x4 r2_4)⟩]

/-- The one store takes the whole buffer, so it covers every index of it. -/
theorem cover2_5 (p0 : Vec F S5000x128 .f32) (y : S5000x128.Idx) :
    ∃ pc ∈ ([⟨r2_5, p0⟩] : List (View.Piece (Elt F) S5000x128 .f32)), y ∈ pc.1.set :=
  View.cover_of_tiled [⟨r2_5, p0⟩] S5000x128.size (by rfl) y

/-! ## The body's triple -/

set_option maxHeartbeats 1000000 in
/-- The body on whole staging buffers, the inputs' holding `x0 …` and the output's anything, runs to its end holding
    the inputs' as they were and the output's at `out2_5` of them. -/
theorem sound_kernel2 (c : Dev nD) (E : Set ℕ) (i : grid2.Coords) (arg0 : Memref sig .tc .vmem S5000x128 .f32) (harg0 : arg0.IsWhole) (arg1 : Memref sig .tc .vmem S5000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__final_kernel i arg0 harg0 arg1 harg1 arg2 harg2 arg3 harg3 arg4 harg4 arg5 harg5) K := by
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core `c`: the arrays as the region finds them; after the body at point `t` each
    input's buffer at its block and the output's at `out2_5` of the input blocks; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole run of the program: its three kernel regions among twelve stretches of host operations, composed from the
  launch to the return. Written here: what every TensorCore buffer holds at each of the sixteen boundaries between
  consecutive items — a fold from the launch memory, a host stretch applying its operations, a region leaving its
  arrays at what its grid points wrote back and every other buffer as it was —; that no item writes an argument
  array, so each is read back through the fold to its launch contents; each region as a segment between two such
  boundaries; and the run: every weakly fair execution terminates, nothing faults, and the final memory holds every
  unscoped buffer at the last boundary's contents.
-/
import proofs.«161761_j55783035240724_1_alg».proof.Proof.Gen.KernelIdeal.Launch
import proofs.«161761_j55783035240724_1_alg».proof.Proof.Gen.KernelIdeal.Skeleton
import proofs.«161761_j55783035240724_1_alg».proof.Proof.Gen.KernelIdeal.Points
import proofs.«161761_j55783035240724_1_alg».proof.Proof.KI.Region0
import proofs.«161761_j55783035240724_1_alg».proof.Proof.KI.Region1
import proofs.«161761_j55783035240724_1_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- The same read at the TensorCore's references: what region 0 is entered from. -/
abbrev V3 : (c : Dev nD) → (b : Ref sig .tc) → Buf (Elt F) ((c : Thread nD τ).loc b) := fun c b => W3 m ρ c b
/-- At region 0's exit: its arrays at what the pipeline leaves (an input as entered, the output at its grid points'
    write-backs), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After `hostOps1`. -/
abbrev W5 : Dev nD → Valuation τ sig (Elt F) := fun c => StableHlo.after hostOps1 (W4 m ρ c)
/-- The same read at the TensorCore's references: what region 1 is entered from. -/
abbrev V5 : (c : Dev nD) → (b : Ref sig .tc) → Buf (Elt F) ((c : Thread nD τ).loc b) := fun c b => W5 m ρ c b
/-- At region 1's exit: its arrays at what the pipeline leaves (an input as entered, the output at its grid points'
    write-backs), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After `hostOps2`. -/
abbrev W7 : Dev nD → Valuation τ sig (Elt F) := fun c => StableHlo.after hostOps2 (W6 m ρ c)
/-- After `hostOps2_1`. -/
abbrev W8 : Dev nD → Valuation τ sig (Elt F) := fun c => StableHlo.after hostOps2_1 (W7 m ρ c)
/-- After `hostOps2_2`. -/
abbrev W9 : Dev nD → Valuation τ sig (Elt F) := fun c => StableHlo.after hostOps2_2 (W8 m ρ c)
/-- After `hostOps2_3`. -/
abbrev W10 : Dev nD → Valuation τ sig (Elt F) := fun c => StableHlo.after hostOps2_3 (W9 m ρ c)
/-- After `hostOps2_4`. -/
abbrev W11 : Dev nD → Valuation τ sig (Elt F) := fun c => StableHlo.after hostOps2_4 (W10 m ρ c)
/-- After `hostOps2_5`. -/
abbrev W12 : Dev nD → Valuation τ sig (Elt F) := fun c => StableHlo.after hostOps2_5 (W11 m ρ c)
/-- After `hostOps2_6`. -/
abbrev W13 : Dev nD → Valuation τ sig (Elt F) := fun c => StableHlo.after hostOps2_6 (W12 m ρ c)
/-- The same read at the TensorCore's references: what region 2 is entered from. -/
abbrev V13 : (c : Dev nD) → (b : Ref sig .tc) → Buf (Elt F) ((c : Thread nD τ).loc b) := fun c b => W13 m ρ c b
/-- At region 2's exit: its arrays at what the pipeline leaves (an input as entered, the output at its grid points'
    write-backs), every other buffer as entered. -/
def W14 (c : Dev nD) : Valuation τ sig (Elt F) :=
  Pipeline.withArrays spec2 c (W13 m ρ c) fun w => (dat2 (V13 m ρ) c).arrAt w cfg2.N
theorem W14_arr (c : Dev nD) (w : Fin cfg2.W) :
    W14 m ρ c (Proc.devRef .tc (Pipeline.arrRef spec2 w)) = (dat2 (V13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
abbrev V14 : (c : Dev nD) → (b : Ref sig .tc) → Buf (Elt F) ((c : Thread nD τ).loc b) := fun c b => W14 m ρ c b
theorem hF2 (c : Dev nD) (w : Fin cfg2.W) : (dat2 (V13 m ρ) c).arrAt w cfg2.N = V14 m ρ c (Pipeline.arrRef spec2 w) :=
  (W14_arr m ρ c w).symm
theorem hrest2 (c : Dev nD) : ∀ b, b ∉ Finset.univ.image (Pipeline.arrRef spec2) → V14 m ρ c b = V13 m ρ c b :=
  fun b hb => W14_of_ne m ρ c b fun w e => hb (Finset.mem_image.mpr ⟨w, Finset.mem_univ _, e⟩)
/-- After `hostOps3`. -/
abbrev W15 : Dev nD → Valuation τ sig (Elt F) := fun c => StableHlo.after hostOps3 (W14 m ρ c)

/-! ## What the host stretches write, and that none of them allocates -/

theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1, main_v2, main_v3, main_cst, main_v4, main_cst_0, main_v5, main_v6, main_v7, main_cst_1, main_v8, main_v9, main_cst_2, main_v10, main_v11, main_v12, main_cst_3]
theorem hostOps0_writes : (hostOps0 : List (HloOp τ sig (Elt F))).Forall fun op => op.writes ⊆ (hostOps0_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

theorem hostOps0_1_fresh : (hostOps0_1 : List (HloOp τ sig (Elt F))).Forall fun op => op.fresh = ∅ := by
  simp only [List.Forall]; repeat' constructor
/-- The references `hostOps0_1`'s operations write. -/
abbrev hostOps0_1_W : List (Ref sig .tc) := [main_call0_v0, main_call0_v1, main_v13]
theorem hostOps0_1_writes : (hostOps0_1 : List (HloOp τ sig (Elt F))).Forall fun op => op.writes ⊆ (hostOps0_1_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

theorem hostOps0_2_fresh : (hostOps0_2 : List (HloOp τ sig (Elt F))).Forall fun op => op.fresh = ∅ := by
  simp only [List.Forall]; repeat' constructor
/-- The references `hostOps0_2`'s operations write. -/
abbrev hostOps0_2_W : List (Ref sig .tc) := [main_c, main_v14, main_v15, main_c_4, main_v16, main_v17, main_v18, main_v19, main_v20, main_c_5, main_v21, main_v22, main_c_6, main_v23, main_v24, main_v25, main_v26, main_v27, main_v28, main_c_7, main_v29, main_v30, main_c_8, main_v31, main_v32, main_v33, main_v34, main_v35, main_v36, main_v37, main_v38, main_cst_9, main_v39, main_v40, main_v41, main_c_10, main_v42, main_v43, main_c_11, main_v44, main_v45, main_v46, main_v47, main_v48, main_v49, main_v50, main_v51, main_cst_12, main_v52, main_v53, main_v54, main_c_13, main_v55, main_v56, main_c_14, main_v57, main_v58, main_v59, main_v60, main_v61, main_v62, main_v63, main_v64, main_cst_15, main_v65, main_v66, main_v67, main_v68, main_v69]
theorem hostOps0_2_writes : (hostOps0_2 : List (HloOp τ sig (Elt F))).Forall fun op => op.writes ⊆ (hostOps0_2_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_c_16, main_v71, main_v72, main_c_17, main_v73, main_v74, main_v75, main_v76, main_v77, main_v78, main_v79, main_v80, main_cst_18, main_v81, main_v82, main_v83, main_c_19, main_v84, main_v85, main_c_20, main_v86, main_v87, main_v88, main_v89, main_v90, main_v91, main_v92, main_v93, main_cst_21, main_v94, main_v95, main_v96, main_v97, main_v98]
theorem hostOps1_writes : (hostOps1 : List (HloOp τ sig (Elt F))).Forall fun op => op.writes ⊆ (hostOps1_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_cst_22, main_v100, main_cst_23, main_v101, main_v102, main_v103, main_v104, main_v105, main_cst_24, main_v106, main_v107, main_v108, main_v109, main_v110, main_v111, main_v112, main_v113, main_v114, main_v115, main_c_25]
theorem hostOps2_writes : (hostOps2 : List (HloOp τ sig (Elt F))).Forall fun op => op.writes ⊆ (hostOps2_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

theorem hostOps2_1_fresh : (hostOps2_1 : List (HloOp τ sig (Elt F))).Forall fun op => op.fresh = ∅ := by
  simp only [List.Forall]; repeat' constructor
/-- The references `hostOps2_1`'s operations write. -/
abbrev hostOps2_1_W : List (Ref sig .tc) := [main_call1_v0, main_v116]
theorem hostOps2_1_writes : (hostOps2_1 : List (HloOp τ sig (Elt F))).Forall fun op => op.writes ⊆ (hostOps2_1_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide)))⟩

theorem hostOps2_2_fresh : (hostOps2_2 : List (HloOp τ sig (Elt F))).Forall fun op => op.fresh = ∅ := by
  simp only [List.Forall]; repeat' constructor
/-- The references `hostOps2_2`'s operations write. -/
abbrev hostOps2_2_W : List (Ref sig .tc) := [main_v117, main_c_26]
theorem hostOps2_2_writes : (hostOps2_2 : List (HloOp τ sig (Elt F))).Forall fun op => op.writes ⊆ (hostOps2_2_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide)))⟩

theorem hostOps2_3_fresh : (hostOps2_3 : List (HloOp τ sig (Elt F))).Forall fun op => op.fresh = ∅ := by
  simp only [List.Forall]; repeat' constructor
/-- The references `hostOps2_3`'s operations write. -/
abbrev hostOps2_3_W : List (Ref sig .tc) := [main_call2_v0, main_v118]
theorem hostOps2_3_writes : (hostOps2_3 : List (HloOp τ sig (Elt F))).Forall fun op => op.writes ⊆ (hostOps2_3_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide)))⟩

theorem hostOps2_4_fresh : (hostOps2_4 : List (HloOp τ sig (Elt F))).Forall fun op => op.fresh = ∅ := by
  simp only [List.Forall]; repeat' constructor
/-- The references `hostOps2_4`'s operations write. -/
abbrev hostOps2_4_W : List (Ref sig .tc) := [main_c_27]
theorem hostOps2_4_writes : (hostOps2_4 : List (HloOp τ sig (Elt F))).Forall fun op => op.writes ⊆ (hostOps2_4_W.map (Proc.devRef (τ := τ) .tc)).toFinset := by
  simp only [List.Forall]
  exact (Finset.singleton_subset_iff.mpr (List.mem_toFinset.mpr (List.mem_map_of_mem (by decide))))

theorem hostOps2_5_fresh : (hostOps2_5 : List (HloOp τ sig (Elt F))).Forall fun op => op.fresh = ∅ := by
  simp only [List.Forall]; repeat' constructor
/-- The references `hostOps2_5`'s operations write. -/
abbrev hostOps2_5_W : List (Ref sig .tc) := [main_call3_v0, main_v119]
theorem hostOps2_5_writes : (hostOps2_5 : List (HloOp τ sig (Elt F))).Forall fun op => op.writes ⊆ (hostOps2_5_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide)))⟩

theorem hostOps2_6_fresh : (hostOps2_6 : List (HloOp τ sig (Elt F))).Forall fun op => op.fresh = ∅ := by
  simp only [List.Forall]; repeat' constructor
/-- The references `hostOps2_6`'s operations write. -/
abbrev hostOps2_6_W : List (Ref sig .tc) := [main_v120]
theorem hostOps2_6_writes : (hostOps2_6 : List (HloOp τ sig (Elt F))).Forall fun op => op.writes ⊆ (hostOps2_6_W.map (Proc.devRef (τ := τ) .tc)).toFinset := by
  simp only [List.Forall]
  exact (Finset.singleton_subset_iff.mpr (List.mem_toFinset.mpr (List.mem_map_of_mem (by decide))))

theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_v122]
theorem hostOps3_writes : (hostOps3 : List (HloOp τ sig (Elt F))).Forall fun op => op.writes ⊆ (hostOps3_W.map (Proc.devRef (τ := τ) .tc)).toFinset := by
  simp only [List.Forall]
  exact (Finset.singleton_subset_iff.mpr (List.mem_toFinset.mpr (List.mem_map_of_mem (by decide))))

/-! ## What each item leaves unchanged -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W8_of (c : Dev nD) (r : Ref sig .tc) (h : r ∉ hostOps2_1_W) : W8 m ρ c (Proc.devRef .tc r) = W7 m ρ c (Proc.devRef .tc r) :=
  StableHlo.after_of_writes_sub hostOps2_1 _ hostOps2_1_writes h
theorem W9_of (c : Dev nD) (r : Ref sig .tc) (h : r ∉ hostOps2_2_W) : W9 m ρ c (Proc.devRef .tc r) = W8 m ρ c (Proc.devRef .tc r) :=
  StableHlo.after_of_writes_sub hostOps2_2 _ hostOps2_2_writes h
theorem W10_of (c : Dev nD) (r : Ref sig .tc) (h : r ∉ hostOps2_3_W) : W10 m ρ c (Proc.devRef .tc r) = W9 m ρ c (Proc.devRef .tc r) :=
  StableHlo.after_of_writes_sub hostOps2_3 _ hostOps2_3_writes h
theorem W11_of (c : Dev nD) (r : Ref sig .tc) (h : r ∉ hostOps2_4_W) : W11 m ρ c (Proc.devRef .tc r) = W10 m ρ c (Proc.devRef .tc r) :=
  StableHlo.after_of_writes_sub hostOps2_4 _ hostOps2_4_writes h
theorem W12_of (c : Dev nD) (r : Ref sig .tc) (h : r ∉ hostOps2_5_W) : W12 m ρ c (Proc.devRef .tc r) = W11 m ρ c (Proc.devRef .tc r) :=
  StableHlo.after_of_writes_sub hostOps2_5 _ hostOps2_5_writes h
theorem W13_of (c : Dev nD) (r : Ref sig .tc) (h : r ∉ hostOps2_6_W) : W13 m ρ c (Proc.devRef .tc r) = W12 m ρ c (Proc.devRef .tc r) :=
  StableHlo.after_of_writes_sub hostOps2_6 _ hostOps2_6_writes h
theorem W15_of (c : Dev nD) (r : Ref sig .tc) (h : r ∉ hostOps3_W) : W15 m ρ c (Proc.devRef .tc r) = W14 m ρ c (Proc.devRef .tc r) :=
  StableHlo.after_of_writes_sub hostOps3 _ hostOps3_writes h

/-! ## No item writes an argument: each is read back through the fold to its launch contents -/

theorem W15_main_arg0 (c : Dev nD) : W15 m ρ c (Proc.devRef .tc main_arg0) = m ((c : Thread nD τ).loc main_arg0) :=
  (W15_of m ρ c main_arg0 (by decide)).trans <|
  (W14_of_ne m ρ c main_arg0 (by decide)).trans <|
  (W13_of m ρ c main_arg0 (by decide)).trans <|
  (W12_of m ρ c main_arg0 (by decide)).trans <|
  (W11_of m ρ c main_arg0 (by decide)).trans <|
  (W10_of m ρ c main_arg0 (by decide)).trans <|
  (W9_of m ρ c main_arg0 (by decide)).trans <|
  (W8_of m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of m ρ c main_arg0 (by decide)).trans <|
  (W1_of m ρ c main_arg0 (by decide)).trans <| rfl

theorem W15_main_arg1 (c : Dev nD) : W15 m ρ c (Proc.devRef .tc main_arg1) = m ((c : Thread nD τ).loc main_arg1) :=
  (W15_of m ρ c main_arg1 (by decide)).trans <|
  (W14_of_ne m ρ c main_arg1 (by decide)).trans <|
  (W13_of m ρ c main_arg1 (by decide)).trans <|
  (W12_of m ρ c main_arg1 (by decide)).trans <|
  (W11_of m ρ c main_arg1 (by decide)).trans <|
  (W10_of m ρ c main_arg1 (by decide)).trans <|
  (W9_of m ρ c main_arg1 (by decide)).trans <|
  (W8_of m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of m ρ c main_arg1 (by decide)).trans <|
  (W1_of m ρ c main_arg1 (by decide)).trans <| rfl

theorem W15_main_arg2 (c : Dev nD) : W15 m ρ c (Proc.devRef .tc main_arg2) = m ((c : Thread nD τ).loc main_arg2) :=
  (W15_of m ρ c main_arg2 (by decide)).trans <|
  (W14_of_ne m ρ c main_arg2 (by decide)).trans <|
  (W13_of m ρ c main_arg2 (by decide)).trans <|
  (W12_of m ρ c main_arg2 (by decide)).trans <|
  (W11_of m ρ c main_arg2 (by decide)).trans <|
  (W10_of m ρ c main_arg2 (by decide)).trans <|
  (W9_of m ρ c main_arg2 (by decide)).trans <|
  (W8_of m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of m ρ c main_arg2 (by decide)).trans <|
  (W1_of m ρ c main_arg2 (by decide)).trans <| rfl

theorem W15_main_arg3 (c : Dev nD) : W15 m ρ c (Proc.devRef .tc main_arg3) = m ((c : Thread nD τ).loc main_arg3) :=
  (W15_of m ρ c main_arg3 (by decide)).trans <|
  (W14_of_ne m ρ c main_arg3 (by decide)).trans <|
  (W13_of m ρ c main_arg3 (by decide)).trans <|
  (W12_of m ρ c main_arg3 (by decide)).trans <|
  (W11_of m ρ c main_arg3 (by decide)).trans <|
  (W10_of m ρ c main_arg3 (by decide)).trans <|
  (W9_of m ρ c main_arg3 (by decide)).trans <|
  (W8_of m ρ c main_arg3 (by decide)).trans <|
  (W7_of m ρ c main_arg3 (by decide)).trans <|
  (W6_of_ne m ρ c main_arg3 (by decide)).trans <|
  (W5_of m ρ c main_arg3 (by decide)).trans <|
  ((W4_arr m ρ c 1).trans (((dat0 (V3 m ρ) c).arrAt_in 1 rfl _).trans (A_eq0 (V3 m ρ) c 1))).trans <|
  (W3_of m ρ c main_arg3 (by decide)).trans <|
  (W2_of m ρ c main_arg3 (by decide)).trans <|
  (W1_of m ρ c main_arg3 (by decide)).trans <| rfl

theorem W15_main_arg4 (c : Dev nD) : W15 m ρ c (Proc.devRef .tc main_arg4) = m ((c : Thread nD τ).loc main_arg4) :=
  (W15_of m ρ c main_arg4 (by decide)).trans <|
  (W14_of_ne m ρ c main_arg4 (by decide)).trans <|
  (W13_of m ρ c main_arg4 (by decide)).trans <|
  (W12_of m ρ c main_arg4 (by decide)).trans <|
  (W11_of m ρ c main_arg4 (by decide)).trans <|
  (W10_of m ρ c main_arg4 (by decide)).trans <|
  (W9_of m ρ c main_arg4 (by decide)).trans <|
  (W8_of m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of m ρ c main_arg4 (by decide)).trans <|
  (W1_of m ρ c main_arg4 (by decide)).trans <| rfl

theorem W15_main_arg5 (c : Dev nD) : W15 m ρ c (Proc.devRef .tc main_arg5) = m ((c : Thread nD τ).loc main_arg5) :=
  (W15_of m ρ c main_arg5 (by decide)).trans <|
  (W14_of_ne m ρ c main_arg5 (by decide)).trans <|
  (W13_of m ρ c main_arg5 (by decide)).trans <|
  (W12_of m ρ c main_arg5 (by decide)).trans <|
  (W11_of m ρ c main_arg5 (by decide)).trans <|
  (W10_of m ρ c main_arg5 (by decide)).trans <|
  (W9_of m ρ c main_arg5 (by decide)).trans <|
  (W8_of m ρ c main_arg5 (by decide)).trans <|
  (W7_of m ρ c main_arg5 (by decide)).trans <|
  ((W6_arr m ρ c 1).trans (((dat1 (V5 m ρ) c).arrAt_in 1 rfl _).trans (A_eq1 (V5 m ρ) c 1))).trans <|
  (W5_of m ρ c main_arg5 (by decide)).trans <|
  (W4_of_ne m ρ c main_arg5 (by decide)).trans <|
  (W3_of m ρ c main_arg5 (by decide)).trans <|
  (W2_of m ρ c main_arg5 (by decide)).trans <|
  (W1_of m ρ c main_arg5 (by decide)).trans <| rfl

theorem W15_main_arg6 (c : Dev nD) : W15 m ρ c (Proc.devRef .tc main_arg6) = m ((c : Thread nD τ).loc main_arg6) :=
  (W15_of m ρ c main_arg6 (by decide)).trans <|
  (W14_of_ne m ρ c main_arg6 (by decide)).trans <|
  (W13_of m ρ c main_arg6 (by decide)).trans <|
  (W12_of m ρ c main_arg6 (by decide)).trans <|
  (W11_of m ρ c main_arg6 (by decide)).trans <|
  (W10_of m ρ c main_arg6 (by decide)).trans <|
  (W9_of m ρ c main_arg6 (by decide)).trans <|
  (W8_of m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of m ρ c main_arg6 (by decide)).trans <|
  (W1_of m ρ c main_arg6 (by decide)).trans <| rfl

theorem W15_main_arg7 (c : Dev nD) : W15 m ρ c (Proc.devRef .tc main_arg7) = m ((c : Thread nD τ).loc main_arg7) :=
  (W15_of m ρ c main_arg7 (by decide)).trans <|
  (W14_of_ne m ρ c main_arg7 (by decide)).trans <|
  (W13_of m ρ c main_arg7 (by decide)).trans <|
  (W12_of m ρ c main_arg7 (by decide)).trans <|
  (W11_of m ρ c main_arg7 (by decide)).trans <|
  (W10_of m ρ c main_arg7 (by decide)).trans <|
  (W9_of m ρ c main_arg7 (by decide)).trans <|
  (W8_of m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of m ρ c main_arg7 (by decide)).trans <|
  (W1_of m ρ c main_arg7 (by decide)).trans <| rfl

theorem W15_main_arg8 (c : Dev nD) : W15 m ρ c (Proc.devRef .tc main_arg8) = m ((c : Thread nD τ).loc main_arg8) :=
  (W15_of m ρ c main_arg8 (by decide)).trans <|
  (W14_of_ne m ρ c main_arg8 (by decide)).trans <|
  (W13_of m ρ c main_arg8 (by decide)).trans <|
  (W12_of m ρ c main_arg8 (by decide)).trans <|
  (W11_of m ρ c main_arg8 (by decide)).trans <|
  (W10_of m ρ c main_arg8 (by decide)).trans <|
  (W9_of m ρ c main_arg8 (by decide)).trans <|
  (W8_of m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of m ρ c main_arg8 (by decide)).trans <|
  (W1_of m ρ c main_arg8 (by decide)).trans <| rfl

theorem W15_main_arg9 (c : Dev nD) : W15 m ρ c (Proc.devRef .tc main_arg9) = m ((c : Thread nD τ).loc main_arg9) :=
  (W15_of m ρ c main_arg9 (by decide)).trans <|
  (W14_of_ne m ρ c main_arg9 (by decide)).trans <|
  (W13_of m ρ c main_arg9 (by decide)).trans <|
  (W12_of m ρ c main_arg9 (by decide)).trans <|
  (W11_of m ρ c main_arg9 (by decide)).trans <|
  (W10_of m ρ c main_arg9 (by decide)).trans <|
  (W9_of m ρ c main_arg9 (by decide)).trans <|
  (W8_of m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of m ρ c main_arg9 (by decide)).trans <|
  (W1_of m ρ c main_arg9 (by decide)).trans <| rfl

theorem W15_main_arg10 (c : Dev nD) : W15 m ρ c (Proc.devRef .tc main_arg10) = m ((c : Thread nD τ).loc main_arg10) :=
  (W15_of m ρ c main_arg10 (by decide)).trans <|
  (W14_of_ne m ρ c main_arg10 (by decide)).trans <|
  (W13_of m ρ c main_arg10 (by decide)).trans <|
  (W12_of m ρ c main_arg10 (by decide)).trans <|
  (W11_of m ρ c main_arg10 (by decide)).trans <|
  (W10_of m ρ c main_arg10 (by decide)).trans <|
  (W9_of m ρ c main_arg10 (by decide)).trans <|
  (W8_of m ρ c main_arg10 (by decide)).trans <|
  (W7_of m ρ c main_arg10 (by decide)).trans <|
  (W6_of_ne m ρ c main_arg10 (by decide)).trans <|
  (W5_of m ρ c main_arg10 (by decide)).trans <|
  (W4_of_ne m ρ c main_arg10 (by decide)).trans <|
  (W3_of m ρ c main_arg10 (by decide)).trans <|
  (W2_of m ρ c main_arg10 (by decide)).trans <|
  (W1_of m ρ c main_arg10 (by decide)).trans <| rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes,
    which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W15 m ρ c) ∗ ∃ r, prngReg c r)

/-! ## The regions as segments -/

set_option backward.isDefEq.respectTransparency.types false in
/-- Region 0 over the thread state: entered from every unscoped buffer at `W3`, left at `W4`. Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split
    out of the unscoped buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W13`, left at `W14`. Its arrays are split
    out of the unscoped buffers and put back at the exit contents; the generator register goes into the invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V13 m ρ) c).loose
  hwaits := Pipeline.hwaits_of_owed_zero _ _ _ _ L lv 2 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec2 c (V13 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V13 m ρ c) (V14 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 15 segments in order: a host segment per stretch from its boundary's contents, a region per kernel launch. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .host (hseg hostOps2_1 hostOps2_1_sub hostOps2_1_fresh (W7 m ρ)),
    .host (hseg hostOps2_2 hostOps2_2_sub hostOps2_2_fresh (W8 m ρ)),
    .host (hseg hostOps2_3 hostOps2_3_sub hostOps2_3_fresh (W9 m ρ)),
    .host (hseg hostOps2_4 hostOps2_4_sub hostOps2_4_fresh (W10 m ρ)),
    .host (hseg hostOps2_5 hostOps2_5_sub hostOps2_5_fresh (W11 m ρ)),
    .host (hseg hostOps2_6 hostOps2_6_sub hostOps2_6_fresh (W12 m ρ)),
    .region (reg2 m ρ),
    .host (hseg hostOps3 hostOps3_sub hostOps3_fresh (W14 m ρ)) ]

/-- The program IS the run of the segments. -/
theorem main_run (c : Dev nD) : main (F := F) c = Pipeline.Seg.run (segs m ρ) := (main_chain c).trans (by chain_rfl)

set_option backward.isDefEq.respectTransparency.types false in
/-- THE RUN. From any memory with zero counters, every weakly fair execution of the program on the TensorCores terminates,
    nothing faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c =>
      show iprop(StableHlo.held (c : Thread nD τ) (Pipeline.ucRefs τ sig) (W15 m ρ c) ∗ (∃ r, prngReg c r)
          ∗ ∃ W, owes (c : Thread nD τ) (0 : CellTallies nD τ sig Unit) W)
        ⊢ iprop((StableHlo.held (c : Thread nD τ) (Pipeline.ucRefs τ sig) (W15 m ρ c) ∗ ∃ r, prngReg c r)
          ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c)⟩) (run_all m ρ)

end Cert.KernelIdeal.Hand

end
-- ==== Proof.Spec.lean ====
/-
  The two programs as named functions of the argument arrays.

  Both compute a two-layer graph convolution over a graph of 50000 nodes and 600000 directed edges given as a 2×600000
  table (row 0 the sources, row 1 the destinations), then a time embedding and a final projection:
    deg n      = the number of edges whose destination is n;   dinv n = 1/√(max (deg n) 1) where deg n > 0, else 0;
    norm e     = dinv (src e) · dinv (dst e)       (a negative node number counts from the end: wrapped by + 50000);
    (A h) n    = the sum over the edges e with dst e = n of h (src e) · norm e                     (one hop);
    h1 = relu ([x, A x, A² x, A³ x] · W1 + b1),   h2 = relu ([h1, A h1, A² h1] · W2 + b2);
    t  = (ts − min ts) / (max ts − min ts + ε),   te = t · Wt + bt;
    out = [h2, te] · Wf + bf.
  The hops, the degree, the normalisation and t are the SAME host operations in both programs and are named once here
  (`srcRow … hop`, `tcol`); the two programs differ only in the three dense stages, which the kernel computes in its
  pipelined regions block by block and the reference by whole matrix products: each side's form of them is named
  separately (`…K` the kernel's, `…R` the reference's).
-/
import proofs.«161761_j55783035240724_1_alg».proof.Proof.Gen.KernelIdeal
import proofs.«161761_j55783035240724_1_alg».proof.Proof.Gen.ReferenceIdeal

noncomputable section

namespace Cert.Spec

open Idealize.ShloMosaic Cert.KernelIdeal Cert.KernelIdeal.Gen

variable {F : FTy → Type} [FloatOps F]

/-! ## The graph part, shared by both programs -/

/-- Row 0 of the edge table: each edge's source node. -/
def srcRow (ei : (⟨S2x600000, .i32⟩ : BufTy).Contents (Elt F)) : (⟨S600000, .i32⟩ : BufTy).Contents (Elt F) :=
  shapeCast _ (extractStridedSlice S1x600000 ![0, 0] ei slices_S2x600000_S1x600000_0_0) shapeCasts_S1x600000_S600000

/-- Row 1 of the edge table: each edge's destination node. -/
def dstRow (ei : (⟨S2x600000, .i32⟩ : BufTy).Contents (Elt F)) : (⟨S600000, .i32⟩ : BufTy).Contents (Elt F) :=
  shapeCast _ (extractStridedSlice S1x600000 ![1, 0] ei slices_S2x600000_S1x600000_1_0) shapeCasts_S1x600000_S600000

/-- A node number read as an index: a negative one counts from the end (50000 added). -/
def wrap (v : (⟨S600000, .i32⟩ : BufTy).Contents (Elt F)) : (⟨S600000, .i32⟩ : BufTy).Contents (Elt F) :=
  select (cmpi .slt v (broadcastInDim S600000 ![] bcast_S_S600000 (constantI S_ 32 0#32)))
    (addi v (broadcastInDim S600000 ![] bcast_S_S600000 (constantI S_ 32 50000#32))) v

/-- The in-degree of every node: ones summed into zeros at the edges' destinations. -/
def deg (dst : (⟨S600000, .i32⟩ : BufTy).Contents (Elt F)) : (⟨S50000, .f32⟩ : BufTy).Contents (Elt F) :=
  Host.scatterAdd scatter_S50000_S600000x1_S600000_n_0_0_1
    (broadcastInDim S50000 ![] bcast_S_S50000 (constant S_ .f32 0x00000000#32))
    (broadcastInDim S600000x1 ![0] bcast_S600000_S600000x1_0 dst)
    (broadcastInDim S600000 ![] bcast_S_S600000 (constant S_ .f32 0x3F800000#32))

/-- 1/√(max deg 1) at the nodes of positive degree, 0 at the others. -/
def dinv (dst : (⟨S600000, .i32⟩ : BufTy).Contents (Elt F)) : (⟨S50000, .f32⟩ : BufTy).Contents (Elt F) :=
  select (cmpf (F := F) .ogt (deg dst) (broadcastInDim S50000 ![] bcast_S_S50000 (constant S_ .f32 0x00000000#32)))
    (Host.rsqrt (maximumf (deg dst) (broadcastInDim S50000 ![] bcast_S_S50000 (constant S_ .f32 0x3F800000#32))))
    (broadcastInDim S50000 ![] bcast_S_S50000 (id (constant S_ .f32 0x00000000#32)))

/-- Each edge's weight from a given inverse-root-degree vector: its product at the edge's two ends. -/
def normWith (dv : (⟨S50000, .f32⟩ : BufTy).Contents (Elt F)) (src dst : (⟨S600000, .i32⟩ : BufTy).Contents (Elt F)) :
    (⟨S600000, .f32⟩ : BufTy).Contents (Elt F) :=
  mulf (Host.gather gather_S50000_S600000x1_S600000_n_0_n_n_0_1_1 dv (broadcastInDim S600000x1 ![0] bcast_S600000_S600000x1_0 (wrap src)))
    (Host.gather gather_S50000_S600000x1_S600000_n_0_n_n_0_1_1 dv (broadcastInDim S600000x1 ![0] bcast_S600000_S600000x1_0 (wrap dst)))

/-- Each edge's weight: the product of `dinv` at its two ends. -/
def norm (src dst : (⟨S600000, .i32⟩ : BufTy).Contents (Elt F)) : (⟨S600000, .f32⟩ : BufTy).Contents (Elt F) :=
  normWith (dinv dst) src dst

/-- One hop: every node sums, over the edges arriving at it, the source's feature row times the edge's weight. -/
def hop (src dst : (⟨S600000, .i32⟩ : BufTy).Contents (Elt F)) (nrm : (⟨S600000, .f32⟩ : BufTy).Contents (Elt F))
    (h : (⟨S50000x128, .f32⟩ : BufTy).Contents (Elt F)) : (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (mulf (Host.gather gather_S50000x128_S600000x1_S600000x128_1_0_n_n_0_1_1128 h (broadcastInDim S600000x1 ![0] bcast_S600000_S600000x1_0 (wrap src)))
      (broadcastInDim S600000x128 ![0, 1] bcast_S600000x1_S600000x128_0_1 (broadcastInDim S600000x1 ![0] bcast_S600000_S600000x1_0 nrm)))

/-- The first layer's features: x and its one-, two- and three-hop aggregates side by side. -/
def feats1 (src dst : (⟨S600000, .i32⟩ : BufTy).Contents (Elt F)) (nrm : (⟨S600000, .f32⟩ : BufTy).Contents (Elt F))
    (x : (⟨S50000x128, .f32⟩ : BufTy).Contents (Elt F)) : (⟨S50000x512, .f32⟩ : BufTy).Contents (Elt F) :=
  concatenate S50000x512 1 [⟨S50000x128, x⟩, ⟨S50000x128, hop src dst nrm x⟩, ⟨S50000x128, hop src dst nrm (hop src dst nrm x)⟩,
    ⟨S50000x128, hop src dst nrm (hop src dst nrm (hop src dst nrm x))⟩] concatenates_S50000x128_S50000x128_S50000x128_S50000x128_S50000x512_d1

/-- The second layer's features: h and its one- and two-hop aggregates side by side. -/
def feats2 (src dst : (⟨S600000, .i32⟩ : BufTy).Contents (Elt F)) (nrm : (⟨S600000, .f32⟩ : BufTy).Contents (Elt F))
    (h : (⟨S50000x128, .f32⟩ : BufTy).Contents (Elt F)) : (⟨S50000x384, .f32⟩ : BufTy).Contents (Elt F) :=
  concatenate S50000x384 1 [⟨S50000x128, h⟩, ⟨S50000x128, hop src dst nrm h⟩, ⟨S50000x128, hop src dst nrm (hop src dst nrm h)⟩]
    concatenates_S50000x128_S50000x128_S50000x128_S50000x384_d1

/-- The time column: (ts − min ts) / (max ts − min ts + ε), one entry per node. -/
def tcol (ts : (⟨S50000, .f32⟩ : BufTy).Contents (Elt F)) : (⟨S50000x1, .f32⟩ : BufTy).Contents (Elt F) :=
  Host.divf
    (subf (broadcastInDim S50000x1 ![0] bcast_S50000_S50000x1_0 ts)
      (broadcastInDim S50000x1 ![] bcast_S_S50000x1 (Host.reduce FloatOps.minimumf ts (constant S_ .f32 0x7F800000#32) reducesTo_S50000_S_d0 h_S_)))
    (broadcastInDim S50000x1 ![] bcast_S_S50000x1
      (addf (subf (Host.reduce FloatOps.maximumf ts (constant S_ .f32 0xFF800000#32) reducesTo_S50000_S_d0 h_S_)
          (Host.reduce FloatOps.minimumf ts (constant S_ .f32 0x7F800000#32) reducesTo_S50000_S_d0 h_S_))
        (constant S_ .f32 0x322BCC77#32)))

/-! ## The kernel's forms of what surrounds its regions -/

/-- The kernel's time embedding: the time column and the weight row both spread to 50000×128 and multiplied entry by
    entry, the bias row added. -/
def teK (ts : (⟨S50000, .f32⟩ : BufTy).Contents (Elt F)) (wt : (⟨S1x128, .f32⟩ : BufTy).Contents (Elt F))
    (bt : (⟨S128, .f32⟩ : BufTy).Contents (Elt F)) : (⟨S50000x128, .f32⟩ : BufTy).Contents (Elt F) :=
  addf (mulf (broadcastInDim S50000x128 ![0, 1] bcast_S50000x1_S50000x128_0_1 (tcol ts))
      (broadcastInDim S50000x128 ![0, 1] bcast_S1x128_S50000x128_0_1 wt))
    (broadcastInDim S50000x128 ![0, 1] bcast_S1x128_S50000x128_0_1 (broadcastInDim S1x128 ![1] bcast_S128_S1x128_1 bt))

/-- A bias vector as a 1×128 row. -/
def rowOf (b : (⟨S128, .f32⟩ : BufTy).Contents (Elt F)) : (⟨S1x128, .f32⟩ : BufTy).Contents (Elt F) :=
  shapeCast _ b shapeCasts_S128_S1x128

/-- The upper half of the final weight (rows 0 … 127), its two columns padded with zeros to 128. -/
def wfTop (wf : (⟨S256x2, .f32⟩ : BufTy).Contents (Elt F)) : (⟨S128x128, .f32⟩ : BufTy).Contents (Elt F) :=
  pad S128x128 ![0, 0] ![0, 126] ![0, 0] (extractStridedSlice S128x2 ![0, 0] wf slices_S256x2_S128x2_0_0)
    (sitofp .f32 (constantI S_ 32 0#32)) pads_S128x2_S128x128_000_01260 h_S_

/-- The lower half of the final weight (rows 128 … 255), its two columns padded with zeros to 128. -/
def wfBot (wf : (⟨S256x2, .f32⟩ : BufTy).Contents (Elt F)) : (⟨S128x128, .f32⟩ : BufTy).Contents (Elt F) :=
  pad S128x128 ![0, 0] ![0, 126] ![0, 0] (extractStridedSlice S128x2 ![128, 0] wf slices_S256x2_S128x2_128_0)
    (sitofp .f32 (constantI S_ 32 0#32)) pads_S128x2_S128x128_000_01260 h_S_

/-- The final bias, its two entries padded with zeros to 128, as a row. -/
def bfRow (bf : (⟨S2, .f32⟩ : BufTy).Contents (Elt F)) : (⟨S1x128, .f32⟩ : BufTy).Contents (Elt F) :=
  shapeCast _ (pad S128 ![0] ![126] ![0] bf (sitofp .f32 (constantI S_ 32 0#32)) pads_S2_S128_01260 h_S_) shapeCasts_S128_S1x128

/-- The kernel's result: the first two columns of its last region's 50000×128 output. -/
def outK (full : (⟨S50000x128, .f32⟩ : BufTy).Contents (Elt F)) : (⟨S50000x2, .f32⟩ : BufTy).Contents (Elt F) :=
  extractStridedSlice S50000x2 ![0, 0] full slices_S50000x128_S50000x2_0_0

/-! ## The reference's dense stages -/

/-- The reference's first dense stage: the features times W1, the bias row added, clipped below at zero. -/
def fc1R (z : (⟨S50000x512, .f32⟩ : BufTy).Contents (Elt F)) (w : (⟨S512x128, .f32⟩ : BufTy).Contents (Elt F))
    (b : (⟨S128, .f32⟩ : BufTy).Contents (Elt F)) : (⟨S50000x128, .f32⟩ : BufTy).Contents (Elt F) :=
  maximumf (addf (Host.dotGeneral Cert.ReferenceIdeal.dot_S50000x512_S512x128_S50000x128_1_0_0_1_n_n none z w)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The reference's second dense stage. -/
def fc2R (z : (⟨S50000x384, .f32⟩ : BufTy).Contents (Elt F)) (w : (⟨S384x128, .f32⟩ : BufTy).Contents (Elt F))
    (b : (⟨S128, .f32⟩ : BufTy).Contents (Elt F)) : (⟨S50000x128, .f32⟩ : BufTy).Contents (Elt F) :=
  maximumf (addf (Host.dotGeneral Cert.ReferenceIdeal.dot_S50000x384_S384x128_S50000x128_1_0_0_1_n_n none z w)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The reference's time embedding: the time column times the 1×128 weight as a matrix product, the bias row added. -/
def teR (ts : (⟨S50000, .f32⟩ : BufTy).Contents (Elt F)) (wt : (⟨S1x128, .f32⟩ : BufTy).Contents (Elt F))
    (bt : (⟨S128, .f32⟩ : BufTy).Contents (Elt F)) : (⟨S50000x128, .f32⟩ : BufTy).Contents (Elt F) :=
  addf (Host.dotGeneral Cert.ReferenceIdeal.dot_S50000x1_S1x128_S50000x128_1_0_0_1_n_n none (tcol ts) wt)
    (broadcastInDim S50000x128 ![0, 1] bcast_S1x128_S50000x128_0_1 (broadcastInDim S1x128 ![1] bcast_S128_S1x128_1 bt))

/-- The reference's result: the hidden features and the time embedding side by side, times the final weight, the bias added. -/
def outR (h2 te : (⟨S50000x128, .f32⟩ : BufTy).Contents (Elt F)) (wf : (⟨S256x2, .f32⟩ : BufTy).Contents (Elt F))
    (bf : (⟨S2, .f32⟩ : BufTy).Contents (Elt F)) : (⟨S50000x2, .f32⟩ : BufTy).Contents (Elt F) :=
  addf (Host.dotGeneral Cert.ReferenceIdeal.dot_S50000x256_S256x2_S50000x2_1_0_0_1_n_n none
      (concatenate Cert.ReferenceIdeal.S50000x256 1 [⟨S50000x128, h2⟩, ⟨S50000x128, te⟩] Cert.ReferenceIdeal.Gen.concatenates_S50000x128_S50000x128_S50000x256_d1) wf)
    (broadcastInDim S50000x2 ![0, 1] Cert.ReferenceIdeal.Gen.bcast_S1x2_S50000x2_0_1 (broadcastInDim Cert.ReferenceIdeal.S1x2 ![1] Cert.ReferenceIdeal.Gen.bcast_S2_S1x2_1 bf))

/-- The whole reference as one function of the arguments. -/
def refAll (x : (⟨S50000x128, .f32⟩ : BufTy).Contents (Elt F)) (ei : (⟨S2x600000, .i32⟩ : BufTy).Contents (Elt F))
    (ts : (⟨S50000, .f32⟩ : BufTy).Contents (Elt F)) (w1 : (⟨S512x128, .f32⟩ : BufTy).Contents (Elt F)) (b1 : (⟨S128, .f32⟩ : BufTy).Contents (Elt F))
    (w2 : (⟨S384x128, .f32⟩ : BufTy).Contents (Elt F)) (b2 : (⟨S128, .f32⟩ : BufTy).Contents (Elt F))
    (wt : (⟨S1x128, .f32⟩ : BufTy).Contents (Elt F)) (bt : (⟨S128, .f32⟩ : BufTy).Contents (Elt F))
    (wf : (⟨S256x2, .f32⟩ : BufTy).Contents (Elt F)) (bf : (⟨S2, .f32⟩ : BufTy).Contents (Elt F)) : (⟨S50000x2, .f32⟩ : BufTy).Contents (Elt F) :=
  outR (fc2R (feats2 (srcRow ei) (dstRow ei) (norm (srcRow ei) (dstRow ei))
        (fc1R (feats1 (srcRow ei) (dstRow ei) (norm (srcRow ei) (dstRow ei)) x) w1 b1)) w2 b2)
    (teR ts wt bt) wf bf

end Cert.Spec

end
-- ==== Proof.LibNary3.lean ====
/-
  A host operation over a literal family of THREE references (a concatenation of three operands), read at its result
  buffer with each operand's contents at its own reference — the three-operand companion of the library's statement
  for four —, and the one-pass reading of a line of host operations with that statement among its rules.
-/
import Idealize.ShloMosaic.Lib.StableHlo.Run

noncomputable section

namespace Idealize.ShloMosaic.StableHlo

variable {nD : Nat} {τ : Topo} {sig : RefSig} {Val : EltTy → Type}
variable {x a b y : Ref sig .tc}

/-- An operation of three operands given as the literal family `![x, a, b]`: its result buffer holds its function of the
    three operands' contents, each read at its own reference (so that the operands' own operations can be read in turn),
    in place of the family read under a binder. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for a one-pass rewrite: the result reference is not indexed. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- What a buffer holds after a line of host operations, read in one pass: every operation's result at its own buffer
    is its function of its operands' contents, at any other buffer what was there; a concatenation of three or four
    operands has each operand at its own reference. -/
macro "after_results_cat" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.KI.Chunks.lean ====
/-
  The two long stretches of host operations that run the graph hops, cut into pieces: the edge weights; one piece per
  hop (the source indices wrapped, the feature rows gathered, scaled by the weights, summed into their destinations); and
  the closing concatenation with the bias row. Each piece is read from an ARBITRARY starting content of the buffers: what
  its last buffer holds is the named function of what the buffers it reads held, and every buffer it does not write keeps
  its content. Chained, each whole stretch is one statement over the contents it starts from.
-/
import proofs.«161761_j55783035240724_1_alg».proof.Proof.Gen.KernelIdeal.Launch
import proofs.«161761_j55783035240724_1_alg».proof.Proof.Spec
import proofs.«161761_j55783035240724_1_alg».proof.Proof.LibNary3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.StableHlo

/-! ## The pieces -/

abbrev ckN : List (HloOp τ sig (Elt F)) :=
  [ StableHlo.nullary main_c (constantI S_ 32 0#32),
    StableHlo.unary main_c main_v14 (broadcastInDim S600000 ![] bcast_S_S600000 : (⟨S_, .i32⟩ : BufTy).Contents (Elt F) → (⟨S600000, .i32⟩ : BufTy).Contents (Elt F)),
    StableHlo.binary main_v1 main_v14 main_v15 (cmpi .slt : (⟨S600000, .i32⟩ : BufTy).Contents (Elt F) → (⟨S600000, .i32⟩ : BufTy).Contents (Elt F) → (⟨S600000, .i1⟩ : BufTy).Contents (Elt F)),
    StableHlo.nullary main_c_4 (constantI S_ 32 50000#32),
    StableHlo.unary main_c_4 main_v16 (broadcastInDim S600000 ![] bcast_S_S600000 : (⟨S_, .i32⟩ : BufTy).Contents (Elt F) → (⟨S600000, .i32⟩ : BufTy).Contents (Elt F)),
    StableHlo.binary main_v1 main_v16 main_v17 (addi : (⟨S600000, .i32⟩ : BufTy).Contents (Elt F) → (⟨S600000, .i32⟩ : BufTy).Contents (Elt F) → (⟨S600000, .i32⟩ : BufTy).Contents (Elt F)),
    StableHlo.ternary main_v15 main_v17 main_v1 main_v18 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v18 main_v19 (broadcastInDim S600000x1 ![0] bcast_S600000_S600000x1_0 : (⟨S600000, .i32⟩ : BufTy).Contents (Elt F) → (⟨S600000x1, .i32⟩ : BufTy).Contents (Elt F)),
    StableHlo.binary main_v13 main_v19 main_v20 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.nullary main_c_5 (constantI S_ 32 0#32),
    StableHlo.unary main_c_5 main_v21 (broadcastInDim S600000 ![] bcast_S_S600000 : (⟨S_, .i32⟩ : BufTy).Contents (Elt F) → (⟨S600000, .i32⟩ : BufTy).Contents (Elt F)),
    StableHlo.binary main_v3 main_v21 main_v22 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 50000#32),
    StableHlo.unary main_c_6 main_v23 (broadcastInDim S600000 ![] bcast_S_S600000 : (⟨S_, .i32⟩ : BufTy).Contents (Elt F) → (⟨S600000, .i32⟩ : BufTy).Contents (Elt F)),
    StableHlo.binary main_v3 main_v23 main_v24 (addi : (⟨S600000, .i32⟩ : BufTy).Contents (Elt F) → (⟨S600000, .i32⟩ : BufTy).Contents (Elt F) → (⟨S600000, .i32⟩ : BufTy).Contents (Elt F)),
    StableHlo.ternary main_v22 main_v24 main_v3 main_v25 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v25 main_v26 (broadcastInDim S600000x1 ![0] bcast_S600000_S600000x1_0 : (⟨S600000, .i32⟩ : BufTy).Contents (Elt F) → (⟨S600000x1, .i32⟩ : BufTy).Contents (Elt F)),
    StableHlo.binary main_v13 main_v26 main_v27 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.binary main_v20 main_v27 main_v28 (mulf : (⟨S600000, .f32⟩ : BufTy).Contents (Elt F) → (⟨S600000, .f32⟩ : BufTy).Contents (Elt F) → (⟨S600000, .f32⟩ : BufTy).Contents (Elt F)) ]
abbrev ckN_W : List (Ref sig .tc) := [main_c, main_v14, main_v15, main_c_4, main_v16, main_v17, main_v18, main_v19, main_v20, main_c_5, main_v21, main_v22, main_c_6, main_v23, main_v24, main_v25, main_v26, main_v27, main_v28]
theorem ckN_writes : (ckN : List (HloOp τ sig (Elt F))).Forall fun op => op.writes ⊆ (ckN_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem ckN_keep (V : Valuation τ sig (Elt F)) (r : Ref sig .tc) (h : r ∉ ckN_W) :
    StableHlo.after (ckN (F := F)) V (Proc.devRef .tc r) = V (Proc.devRef .tc r) :=
  StableHlo.after_of_writes_sub ckN V ckN_writes h

abbrev ckH1 : List (HloOp τ sig (Elt F)) :=
  [ StableHlo.nullary main_c_7 (constantI S_ 32 0#32),
    StableHlo.unary main_c_7 main_v29 (broadcastInDim S600000 ![] bcast_S_S600000 : (⟨S_, .i32⟩ : BufTy).Contents (Elt F) → (⟨S600000, .i32⟩ : BufTy).Contents (Elt F)),
    StableHlo.binary main_v1 main_v29 main_v30 (cmpi .slt : (⟨S600000, .i32⟩ : BufTy).Contents (Elt F) → (⟨S600000, .i32⟩ : BufTy).Contents (Elt F) → (⟨S600000, .i1⟩ : BufTy).Contents (Elt F)),
    StableHlo.nullary main_c_8 (constantI S_ 32 50000#32),
    StableHlo.unary main_c_8 main_v31 (broadcastInDim S600000 ![] bcast_S_S600000 : (⟨S_, .i32⟩ : BufTy).Contents (Elt F) → (⟨S600000, .i32⟩ : BufTy).Contents (Elt F)),
    StableHlo.binary main_v1 main_v31 main_v32 (addi : (⟨S600000, .i32⟩ : BufTy).Contents (Elt F) → (⟨S600000, .i32⟩ : BufTy).Contents (Elt F) → (⟨S600000, .i32⟩ : BufTy).Contents (Elt F)),
    StableHlo.ternary main_v30 main_v32 main_v1 main_v33 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v33 main_v34 (broadcastInDim S600000x1 ![0] bcast_S600000_S600000x1_0 : (⟨S600000, .i32⟩ : BufTy).Contents (Elt F) → (⟨S600000x1, .i32⟩ : BufTy).Contents (Elt F)),
    StableHlo.binary main_arg0 main_v34 main_v35 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v28 main_v36 (broadcastInDim S600000x1 ![0] bcast_S600000_S600000x1_0 : (⟨S600000, .f32⟩ : BufTy).Contents (Elt F) → (⟨S600000x1, .f32⟩ : BufTy).Contents (Elt F)),
    StableHlo.unary main_v36 main_v37 (broadcastInDim S600000x128 ![0, 1] bcast_S600000x1_S600000x128_0_1 : (⟨S600000x1, .f32⟩ : BufTy).Contents (Elt F) → (⟨S600000x128, .f32⟩ : BufTy).Contents (Elt F)),
    StableHlo.binary main_v35 main_v37 main_v38 (mulf : (⟨S600000x128, .f32⟩ : BufTy).Contents (Elt F) → (⟨S600000x128, .f32⟩ : BufTy).Contents (Elt F) → (⟨S600000x128, .f32⟩ : BufTy).Contents (Elt F)),
    StableHlo.nullary main_cst_9 (constant S_ .f32 0x00000000#32),
    StableHlo.unary main_cst_9 main_v39 (broadcastInDim S50000x128 ![] bcast_S_S50000x128 : (⟨S_, .f32⟩ : BufTy).Contents (Elt F) → (⟨S50000x128, .f32⟩ : BufTy).Contents (Elt F)),
    StableHlo.unary main_v3 main_v40 (broadcastInDim S600000x1 ![0] bcast_S600000_S600000x1_0 : (⟨S600000, .i32⟩ : BufTy).Contents (Elt F) → (⟨S600000x1, .i32⟩ : BufTy).Contents (Elt F)),
    StableHlo.ternary main_v39 main_v40 main_v38 main_v41 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]
abbrev ckH1_W : List (Ref sig .tc) := [main_c_7, main_v29, main_v30, main_c_8, main_v31, main_v32, main_v33, main_v34, main_v35, main_v36, main_v37, main_v38, main_cst_9, main_v39, main_v40, main_v41]
theorem ckH1_writes : (ckH1 : List (HloOp τ sig (Elt F))).Forall fun op => op.writes ⊆ (ckH1_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem ckH1_keep (V : Valuation τ sig (Elt F)) (r : Ref sig .tc) (h : r ∉ ckH1_W) :
    StableHlo.after (ckH1 (F := F)) V (Proc.devRef .tc r) = V (Proc.devRef .tc r) :=
  StableHlo.after_of_writes_sub ckH1 V ckH1_writes h

abbrev ckH2 : List (HloOp τ sig (Elt F)) :=
  [ StableHlo.nullary main_c_10 (constantI S_ 32 0#32),
    StableHlo.unary main_c_10 main_v42 (broadcastInDim S600000 ![] bcast_S_S600000 : (⟨S_, .i32⟩ : BufTy).Contents (Elt F) → (⟨S600000, .i32⟩ : BufTy).Contents (Elt F)),
    StableHlo.binary main_v1 main_v42 main_v43 (cmpi .slt : (⟨S600000, .i32⟩ : BufTy).Contents (Elt F) → (⟨S600000, .i32⟩ : BufTy).Contents (Elt F) → (⟨S600000, .i1⟩ : BufTy).Contents (Elt F)),
    StableHlo.nullary main_c_11 (constantI S_ 32 50000#32),
    StableHlo.unary main_c_11 main_v44 (broadcastInDim S600000 ![] bcast_S_S600000 : (⟨S_, .i32⟩ : BufTy).Contents (Elt F) → (⟨S600000, .i32⟩ : BufTy).Contents (Elt F)),
    StableHlo.binary main_v1 main_v44 main_v45 (addi : (⟨S600000, .i32⟩ : BufTy).Contents (Elt F) → (⟨S600000, .i32⟩ : BufTy).Contents (Elt F) → (⟨S600000, .i32⟩ : BufTy).Contents (Elt F)),
    StableHlo.ternary main_v43 main_v45 main_v1 main_v46 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v46 main_v47 (broadcastInDim S600000x1 ![0] bcast_S600000_S600000x1_0 : (⟨S600000, .i32⟩ : BufTy).Contents (Elt F) → (⟨S600000x1, .i32⟩ : BufTy).Contents (Elt F)),
    StableHlo.binary main_v41 main_v47 main_v48 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v28 main_v49 (broadcastInDim S600000x1 ![0] bcast_S600000_S600000x1_0 : (⟨S600000, .f32⟩ : BufTy).Contents (Elt F) → (⟨S600000x1, .f32⟩ : BufTy).Contents (Elt F)),
    StableHlo.unary main_v49 main_v50 (broadcastInDim S600000x128 ![0, 1] bcast_S600000x1_S600000x128_0_1 : (⟨S600000x1, .f32⟩ : BufTy).Contents (Elt F) → (⟨S600000x128, .f32⟩ : BufTy).Contents (Elt F)),
    StableHlo.binary main_v48 main_v50 main_v51 (mulf : (⟨S600000x128, .f32⟩ : BufTy).Contents (Elt F) → (⟨S600000x128, .f32⟩ : BufTy).Contents (Elt F) → (⟨S600000x128, .f32⟩ : BufTy).Contents (Elt F)),
    StableHlo.nullary main_cst_12 (constant S_ .f32 0x00000000#32),
    StableHlo.unary main_cst_12 main_v52 (broadcastInDim S50000x128 ![] bcast_S_S50000x128 : (⟨S_, .f32⟩ : BufTy).Contents (Elt F) → (⟨S50000x128, .f32⟩ : BufTy).Contents (Elt F)),
    StableHlo.unary main_v3 main_v53 (broadcastInDim S600000x1 ![0] bcast_S600000_S600000x1_0 : (⟨S600000, .i32⟩ : BufTy).Contents (Elt F) → (⟨S600000x1, .i32⟩ : BufTy).Contents (Elt F)),
    StableHlo.ternary main_v52 main_v53 main_v51 main_v54 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]
abbrev ckH2_W : List (Ref sig .tc) := [main_c_10, main_v42, main_v43, main_c_11, main_v44, main_v45, main_v46, main_v47, main_v48, main_v49, main_v50, main_v51, main_cst_12, main_v52, main_v53, main_v54]
theorem ckH2_writes : (ckH2 : List (HloOp τ sig (Elt F))).Forall fun op => op.writes ⊆ (ckH2_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem ckH2_keep (V : Valuation τ sig (Elt F)) (r : Ref sig .tc) (h : r ∉ ckH2_W) :
    StableHlo.after (ckH2 (F := F)) V (Proc.devRef .tc r) = V (Proc.devRef .tc r) :=
  StableHlo.after_of_writes_sub ckH2 V ckH2_writes h

abbrev ckH3 : List (HloOp τ sig (Elt F)) :=
  [ StableHlo.nullary main_c_13 (constantI S_ 32 0#32),
    StableHlo.unary main_c_13 main_v55 (broadcastInDim S600000 ![] bcast_S_S600000 : (⟨S_, .i32⟩ : BufTy).Contents (Elt F) → (⟨S600000, .i32⟩ : BufTy).Contents (Elt F)),
    StableHlo.binary main_v1 main_v55 main_v56 (cmpi .slt : (⟨S600000, .i32⟩ : BufTy).Contents (Elt F) → (⟨S600000, .i32⟩ : BufTy).Contents (Elt F) → (⟨S600000, .i1⟩ : BufTy).Contents (Elt F)),
    StableHlo.nullary main_c_14 (constantI S_ 32 50000#32),
    StableHlo.unary main_c_14 main_v57 (broadcastInDim S600000 ![] bcast_S_S600000 : (⟨S_, .i32⟩ : BufTy).Contents (Elt F) → (⟨S600000, .i32⟩ : BufTy).Contents (Elt F)),
    StableHlo.binary main_v1 main_v57 main_v58 (addi : (⟨S600000, .i32⟩ : BufTy).Contents (Elt F) → (⟨S600000, .i32⟩ : BufTy).Contents (Elt F) → (⟨S600000, .i32⟩ : BufTy).Contents (Elt F)),
    StableHlo.ternary main_v56 main_v58 main_v1 main_v59 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v59 main_v60 (broadcastInDim S600000x1 ![0] bcast_S600000_S600000x1_0 : (⟨S600000, .i32⟩ : BufTy).Contents (Elt F) → (⟨S600000x1, .i32⟩ : BufTy).Contents (Elt F)),
    StableHlo.binary main_v54 main_v60 main_v61 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v28 main_v62 (broadcastInDim S600000x1 ![0] bcast_S600000_S600000x1_0 : (⟨S600000, .f32⟩ : BufTy).Contents (Elt F) → (⟨S600000x1, .f32⟩ : BufTy).Contents (Elt F)),
    StableHlo.unary main_v62 main_v63 (broadcastInDim S600000x128 ![0, 1] bcast_S600000x1_S600000x128_0_1 : (⟨S600000x1, .f32⟩ : BufTy).Contents (Elt F) → (⟨S600000x128, .f32⟩ : BufTy).Contents (Elt F)),
    StableHlo.binary main_v61 main_v63 main_v64 (mulf : (⟨S600000x128, .f32⟩ : BufTy).Contents (Elt F) → (⟨S600000x128, .f32⟩ : BufTy).Contents (Elt F) → (⟨S600000x128, .f32⟩ : BufTy).Contents (Elt F)),
    StableHlo.nullary main_cst_15 (constant S_ .f32 0x00000000#32),
    StableHlo.unary main_cst_15 main_v65 (broadcastInDim S50000x128 ![] bcast_S_S50000x128 : (⟨S_, .f32⟩ : BufTy).Contents (Elt F) → (⟨S50000x128, .f32⟩ : BufTy).Contents (Elt F)),
    StableHlo.unary main_v3 main_v66 (broadcastInDim S600000x1 ![0] bcast_S600000_S600000x1_0 : (⟨S600000, .i32⟩ : BufTy).Contents (Elt F) → (⟨S600000x1, .i32⟩ : BufTy).Contents (Elt F)),
    StableHlo.ternary main_v65 main_v66 main_v64 main_v67 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]
abbrev ckH3_W : List (Ref sig .tc) := [main_c_13, main_v55, main_v56, main_c_14, main_v57, main_v58, main_v59, main_v60, main_v61, main_v62, main_v63, main_v64, main_cst_15, main_v65, main_v66, main_v67]
theorem ckH3_writes : (ckH3 : List (HloOp τ sig (Elt F))).Forall fun op => op.writes ⊆ (ckH3_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem ckH3_keep (V : Valuation τ sig (Elt F)) (r : Ref sig .tc) (h : r ∉ ckH3_W) :
    StableHlo.after (ckH3 (F := F)) V (Proc.devRef .tc r) = V (Proc.devRef .tc r) :=
  StableHlo.after_of_writes_sub ckH3 V ckH3_writes h

abbrev ckT : List (HloOp τ sig (Elt F)) :=
  [ StableHlo.nary ![main_arg0, main_v41, main_v54, main_v67] main_v68 (fun u => concatenate S50000x512 1 [⟨S50000x128, u 0⟩, ⟨S50000x128, u 1⟩, ⟨S50000x128, u 2⟩, ⟨S50000x128, u 3⟩] concatenates_S50000x128_S50000x128_S50000x128_S50000x128_S50000x512_d1),
    StableHlo.reshape main_arg4 main_v69 rfl shapeCasts_S128_S1x128 ]
abbrev ckT_W : List (Ref sig .tc) := [main_v68, main_v69]
theorem ckT_writes : (ckT : List (HloOp τ sig (Elt F))).Forall fun op => op.writes ⊆ (ckT_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem ckT_keep (V : Valuation τ sig (Elt F)) (r : Ref sig .tc) (h : r ∉ ckT_W) :
    StableHlo.after (ckT (F := F)) V (Proc.devRef .tc r) = V (Proc.devRef .tc r) :=
  StableHlo.after_of_writes_sub ckT V ckT_writes h

abbrev ckH4 : List (HloOp τ sig (Elt F)) :=
  [ StableHlo.nullary main_c_16 (constantI S_ 32 0#32),
    StableHlo.unary main_c_16 main_v71 (broadcastInDim S600000 ![] bcast_S_S600000 : (⟨S_, .i32⟩ : BufTy).Contents (Elt F) → (⟨S600000, .i32⟩ : BufTy).Contents (Elt F)),
    StableHlo.binary main_v1 main_v71 main_v72 (cmpi .slt : (⟨S600000, .i32⟩ : BufTy).Contents (Elt F) → (⟨S600000, .i32⟩ : BufTy).Contents (Elt F) → (⟨S600000, .i1⟩ : BufTy).Contents (Elt F)),
    StableHlo.nullary main_c_17 (constantI S_ 32 50000#32),
    StableHlo.unary main_c_17 main_v73 (broadcastInDim S600000 ![] bcast_S_S600000 : (⟨S_, .i32⟩ : BufTy).Contents (Elt F) → (⟨S600000, .i32⟩ : BufTy).Contents (Elt F)),
    StableHlo.binary main_v1 main_v73 main_v74 (addi : (⟨S600000, .i32⟩ : BufTy).Contents (Elt F) → (⟨S600000, .i32⟩ : BufTy).Contents (Elt F) → (⟨S600000, .i32⟩ : BufTy).Contents (Elt F)),
    StableHlo.ternary main_v72 main_v74 main_v1 main_v75 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v75 main_v76 (broadcastInDim S600000x1 ![0] bcast_S600000_S600000x1_0 : (⟨S600000, .i32⟩ : BufTy).Contents (Elt F) → (⟨S600000x1, .i32⟩ : BufTy).Contents (Elt F)),
    StableHlo.binary main_v70 main_v76 main_v77 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v28 main_v78 (broadcastInDim S600000x1 ![0] bcast_S600000_S600000x1_0 : (⟨S600000, .f32⟩ : BufTy).Contents (Elt F) → (⟨S600000x1, .f32⟩ : BufTy).Contents (Elt F)),
    StableHlo.unary main_v78 main_v79 (broadcastInDim S600000x128 ![0, 1] bcast_S600000x1_S600000x128_0_1 : (⟨S600000x1, .f32⟩ : BufTy).Contents (Elt F) → (⟨S600000x128, .f32⟩ : BufTy).Contents (Elt F)),
    StableHlo.binary main_v77 main_v79 main_v80 (mulf : (⟨S600000x128, .f32⟩ : BufTy).Contents (Elt F) → (⟨S600000x128, .f32⟩ : BufTy).Contents (Elt F) → (⟨S600000x128, .f32⟩ : BufTy).Contents (Elt F)),
    StableHlo.nullary main_cst_18 (constant S_ .f32 0x00000000#32),
    StableHlo.unary main_cst_18 main_v81 (broadcastInDim S50000x128 ![] bcast_S_S50000x128 : (⟨S_, .f32⟩ : BufTy).Contents (Elt F) → (⟨S50000x128, .f32⟩ : BufTy).Contents (Elt F)),
    StableHlo.unary main_v3 main_v82 (broadcastInDim S600000x1 ![0] bcast_S600000_S600000x1_0 : (⟨S600000, .i32⟩ : BufTy).Contents (Elt F) → (⟨S600000x1, .i32⟩ : BufTy).Contents (Elt F)),
    StableHlo.ternary main_v81 main_v82 main_v80 main_v83 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]
abbrev ckH4_W : List (Ref sig .tc) := [main_c_16, main_v71, main_v72, main_c_17, main_v73, main_v74, main_v75, main_v76, main_v77, main_v78, main_v79, main_v80, main_cst_18, main_v81, main_v82, main_v83]
theorem ckH4_writes : (ckH4 : List (HloOp τ sig (Elt F))).Forall fun op => op.writes ⊆ (ckH4_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem ckH4_keep (V : Valuation τ sig (Elt F)) (r : Ref sig .tc) (h : r ∉ ckH4_W) :
    StableHlo.after (ckH4 (F := F)) V (Proc.devRef .tc r) = V (Proc.devRef .tc r) :=
  StableHlo.after_of_writes_sub ckH4 V ckH4_writes h

abbrev ckH5 : List (HloOp τ sig (Elt F)) :=
  [ StableHlo.nullary main_c_19 (constantI S_ 32 0#32),
    StableHlo.unary main_c_19 main_v84 (broadcastInDim S600000 ![] bcast_S_S600000 : (⟨S_, .i32⟩ : BufTy).Contents (Elt F) → (⟨S600000, .i32⟩ : BufTy).Contents (Elt F)),
    StableHlo.binary main_v1 main_v84 main_v85 (cmpi .slt : (⟨S600000, .i32⟩ : BufTy).Contents (Elt F) → (⟨S600000, .i32⟩ : BufTy).Contents (Elt F) → (⟨S600000, .i1⟩ : BufTy).Contents (Elt F)),
    StableHlo.nullary main_c_20 (constantI S_ 32 50000#32),
    StableHlo.unary main_c_20 main_v86 (broadcastInDim S600000 ![] bcast_S_S600000 : (⟨S_, .i32⟩ : BufTy).Contents (Elt F) → (⟨S600000, .i32⟩ : BufTy).Contents (Elt F)),
    StableHlo.binary main_v1 main_v86 main_v87 (addi : (⟨S600000, .i32⟩ : BufTy).Contents (Elt F) → (⟨S600000, .i32⟩ : BufTy).Contents (Elt F) → (⟨S600000, .i32⟩ : BufTy).Contents (Elt F)),
    StableHlo.ternary main_v85 main_v87 main_v1 main_v88 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v88 main_v89 (broadcastInDim S600000x1 ![0] bcast_S600000_S600000x1_0 : (⟨S600000, .i32⟩ : BufTy).Contents (Elt F) → (⟨S600000x1, .i32⟩ : BufTy).Contents (Elt F)),
    StableHlo.binary main_v83 main_v89 main_v90 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v28 main_v91 (broadcastInDim S600000x1 ![0] bcast_S600000_S600000x1_0 : (⟨S600000, .f32⟩ : BufTy).Contents (Elt F) → (⟨S600000x1, .f32⟩ : BufTy).Contents (Elt F)),
    StableHlo.unary main_v91 main_v92 (broadcastInDim S600000x128 ![0, 1] bcast_S600000x1_S600000x128_0_1 : (⟨S600000x1, .f32⟩ : BufTy).Contents (Elt F) → (⟨S600000x128, .f32⟩ : BufTy).Contents (Elt F)),
    StableHlo.binary main_v90 main_v92 main_v93 (mulf : (⟨S600000x128, .f32⟩ : BufTy).Contents (Elt F) → (⟨S600000x128, .f32⟩ : BufTy).Contents (Elt F) → (⟨S600000x128, .f32⟩ : BufTy).Contents (Elt F)),
    StableHlo.nullary main_cst_21 (constant S_ .f32 0x00000000#32),
    StableHlo.unary main_cst_21 main_v94 (broadcastInDim S50000x128 ![] bcast_S_S50000x128 : (⟨S_, .f32⟩ : BufTy).Contents (Elt F) → (⟨S50000x128, .f32⟩ : BufTy).Contents (Elt F)),
    StableHlo.unary main_v3 main_v95 (broadcastInDim S600000x1 ![0] bcast_S600000_S600000x1_0 : (⟨S600000, .i32⟩ : BufTy).Contents (Elt F) → (⟨S600000x1, .i32⟩ : BufTy).Contents (Elt F)),
    StableHlo.ternary main_v94 main_v95 main_v93 main_v96 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]
abbrev ckH5_W : List (Ref sig .tc) := [main_c_19, main_v84, main_v85, main_c_20, main_v86, main_v87, main_v88, main_v89, main_v90, main_v91, main_v92, main_v93, main_cst_21, main_v94, main_v95, main_v96]
theorem ckH5_writes : (ckH5 : List (HloOp τ sig (Elt F))).Forall fun op => op.writes ⊆ (ckH5_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem ckH5_keep (V : Valuation τ sig (Elt F)) (r : Ref sig .tc) (h : r ∉ ckH5_W) :
    StableHlo.after (ckH5 (F := F)) V (Proc.devRef .tc r) = V (Proc.devRef .tc r) :=
  StableHlo.after_of_writes_sub ckH5 V ckH5_writes h

abbrev ckT2 : List (HloOp τ sig (Elt F)) :=
  [ StableHlo.nary ![main_v70, main_v83, main_v96] main_v97 (fun u => concatenate S50000x384 1 [⟨S50000x128, u 0⟩, ⟨S50000x128, u 1⟩, ⟨S50000x128, u 2⟩] concatenates_S50000x128_S50000x128_S50000x128_S50000x384_d1),
    StableHlo.reshape main_arg6 main_v98 rfl shapeCasts_S128_S1x128 ]
abbrev ckT2_W : List (Ref sig .tc) := [main_v97, main_v98]
theorem ckT2_writes : (ckT2 : List (HloOp τ sig (Elt F))).Forall fun op => op.writes ⊆ (ckT2_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem ckT2_keep (V : Valuation τ sig (Elt F)) (r : Ref sig .tc) (h : r ∉ ckT2_W) :
    StableHlo.after (ckT2 (F := F)) V (Proc.devRef .tc r) = V (Proc.devRef .tc r) :=
  StableHlo.after_of_writes_sub ckT2 V ckT2_writes h

set_option maxHeartbeats 40000000 in
/-- The first long stretch is its five pieces in a row. -/
theorem hostOps0_2_split : (hostOps0_2 : List (HloOp τ sig (Elt F))) = ckN ++ (ckH1 ++ (ckH2 ++ (ckH3 ++ ckT))) := rfl
set_option maxHeartbeats 40000000 in
/-- The second is its three. -/
theorem hostOps1_split : (hostOps1 : List (HloOp τ sig (Elt F))) = ckH4 ++ (ckH5 ++ ckT2) := rfl

/-! ## What each piece computes -/

variable (V : Valuation τ sig (Elt F))

set_option maxHeartbeats 2000000 in
/-- The edge weights from the inverse-root-degree vector and the two rows of the edge table. -/
theorem ckN_v28 : StableHlo.after (ckN (F := F)) V (Proc.devRef .tc main_v28)
    = Cert.Spec.normWith (V (Proc.devRef .tc main_v13)) (V (Proc.devRef .tc main_v1)) (V (Proc.devRef .tc main_v3)) := by
  after_results_cat
  rfl

set_option maxHeartbeats 2000000 in
/-- One hop of the features held in `main_arg0`. -/
theorem ckH1_v41 : StableHlo.after (ckH1 (F := F)) V (Proc.devRef .tc main_v41)
    = Cert.Spec.hop (V (Proc.devRef .tc main_v1)) (V (Proc.devRef .tc main_v3)) (V (Proc.devRef .tc main_v28)) (V (Proc.devRef .tc main_arg0)) := by
  after_results_cat
  rfl

set_option maxHeartbeats 2000000 in
/-- One hop of the features held in `main_v41`. -/
theorem ckH2_v54 : StableHlo.after (ckH2 (F := F)) V (Proc.devRef .tc main_v54)
    = Cert.Spec.hop (V (Proc.devRef .tc main_v1)) (V (Proc.devRef .tc main_v3)) (V (Proc.devRef .tc main_v28)) (V (Proc.devRef .tc main_v41)) := by
  after_results_cat
  rfl

set_option maxHeartbeats 2000000 in
/-- One hop of the features held in `main_v54`. -/
theorem ckH3_v67 : StableHlo.after (ckH3 (F := F)) V (Proc.devRef .tc main_v67)
    = Cert.Spec.hop (V (Proc.devRef .tc main_v1)) (V (Proc.devRef .tc main_v3)) (V (Proc.devRef .tc main_v28)) (V (Proc.devRef .tc main_v54)) := by
  after_results_cat
  rfl

set_option maxHeartbeats 2000000 in
/-- One hop of the features held in `main_v70`. -/
theorem ckH4_v83 : StableHlo.after (ckH4 (F := F)) V (Proc.devRef .tc main_v83)
    = Cert.Spec.hop (V (Proc.devRef .tc main_v1)) (V (Proc.devRef .tc main_v3)) (V (Proc.devRef .tc main_v28)) (V (Proc.devRef .tc main_v70)) := by
  after_results_cat
  rfl

set_option maxHeartbeats 2000000 in
/-- One hop of the features held in `main_v83`. -/
theorem ckH5_v96 : StableHlo.after (ckH5 (F := F)) V (Proc.devRef .tc main_v96)
    = Cert.Spec.hop (V (Proc.devRef .tc main_v1)) (V (Proc.devRef .tc main_v3)) (V (Proc.devRef .tc main_v28)) (V (Proc.devRef .tc main_v83)) := by
  after_results_cat
  rfl

set_option maxHeartbeats 2000000 in
/-- The first layer's features side by side. -/
theorem ckT_v68 : StableHlo.after (ckT (F := F)) V (Proc.devRef .tc main_v68)
    = concatenate S50000x512 1 [⟨S50000x128, V (Proc.devRef .tc main_arg0)⟩, ⟨S50000x128, V (Proc.devRef .tc main_v41)⟩, ⟨S50000x128, V (Proc.devRef .tc main_v54)⟩,
        ⟨S50000x128, V (Proc.devRef .tc main_v67)⟩] concatenates_S50000x128_S50000x128_S50000x128_S50000x128_S50000x512_d1 := by
  after_results_cat
  rfl

set_option maxHeartbeats 2000000 in
/-- The first bias as a row. -/
theorem ckT_v69 : StableHlo.after (ckT (F := F)) V (Proc.devRef .tc main_v69) = Cert.Spec.rowOf (V (Proc.devRef .tc main_arg4)) := by
  after_results_cat
  rfl

set_option maxHeartbeats 2000000 in
/-- The second layer's features side by side. -/
theorem ckT2_v97 : StableHlo.after (ckT2 (F := F)) V (Proc.devRef .tc main_v97)
    = concatenate S50000x384 1 [⟨S50000x128, V (Proc.devRef .tc main_v70)⟩, ⟨S50000x128, V (Proc.devRef .tc main_v83)⟩, ⟨S50000x128, V (Proc.devRef .tc main_v96)⟩]
        concatenates_S50000x128_S50000x128_S50000x128_S50000x384_d1 := by
  after_results_cat
  rfl

set_option maxHeartbeats 2000000 in
/-- The second bias as a row. -/
theorem ckT2_v98 : StableHlo.after (ckT2 (F := F)) V (Proc.devRef .tc main_v98) = Cert.Spec.rowOf (V (Proc.devRef .tc main_arg6)) := by
  after_results_cat
  rfl

/-! ## The two stretches whole -/

/-- The first long stretch from any contents: the first layer's features, the bias row, and the two rows of the edge
    table and the edge weights left for the next stretch. -/
theorem hostOps0_2_reads :
    StableHlo.after (hostOps0_2 (F := F)) V (Proc.devRef .tc main_v68)
        = Cert.Spec.feats1 (V (Proc.devRef .tc main_v1)) (V (Proc.devRef .tc main_v3)) (Cert.Spec.normWith (V (Proc.devRef .tc main_v13)) (V (Proc.devRef .tc main_v1)) (V (Proc.devRef .tc main_v3))) (V (Proc.devRef .tc main_arg0))
      ∧ StableHlo.after (hostOps0_2 (F := F)) V (Proc.devRef .tc main_v69) = Cert.Spec.rowOf (V (Proc.devRef .tc main_arg4))
      ∧ StableHlo.after (hostOps0_2 (F := F)) V (Proc.devRef .tc main_v1) = V (Proc.devRef .tc main_v1)
      ∧ StableHlo.after (hostOps0_2 (F := F)) V (Proc.devRef .tc main_v3) = V (Proc.devRef .tc main_v3)
      ∧ StableHlo.after (hostOps0_2 (F := F)) V (Proc.devRef .tc main_v28) = Cert.Spec.normWith (V (Proc.devRef .tc main_v13)) (V (Proc.devRef .tc main_v1)) (V (Proc.devRef .tc main_v3)) := by
  rw [hostOps0_2_split, after_append, after_append, after_append, after_append]
  -- the weights
  have n1 := ckN_keep V main_v1 (by decide)
  have n3 := ckN_keep V main_v3 (by decide)
  have n0 := ckN_keep V main_arg0 (by decide)
  have n4 := ckN_keep V main_arg4 (by decide)
  have n28 := ckN_v28 V
  generalize StableHlo.after (ckN (F := F)) V = VN at *
  -- the first hop
  have a41 := ckH1_v41 VN
  rw [n1, n3, n28, n0] at a41
  have a1 := (ckH1_keep VN main_v1 (by decide)).trans n1
  have a3 := (ckH1_keep VN main_v3 (by decide)).trans n3
  have a0 := (ckH1_keep VN main_arg0 (by decide)).trans n0
  have a4 := (ckH1_keep VN main_arg4 (by decide)).trans n4
  have a28 := (ckH1_keep VN main_v28 (by decide)).trans n28
  generalize StableHlo.after (ckH1 (F := F)) VN = V1 at *
  -- the second
  have b54 := ckH2_v54 V1
  rw [a1, a3, a28, a41] at b54
  have b1 := (ckH2_keep V1 main_v1 (by decide)).trans a1
  have b3 := (ckH2_keep V1 main_v3 (by decide)).trans a3
  have b0 := (ckH2_keep V1 main_arg0 (by decide)).trans a0
  have b4 := (ckH2_keep V1 main_arg4 (by decide)).trans a4
  have b28 := (ckH2_keep V1 main_v28 (by decide)).trans a28
  have b41 := (ckH2_keep V1 main_v41 (by decide)).trans a41
  generalize StableHlo.after (ckH2 (F := F)) V1 = V2 at *
  -- the third
  have c67 := ckH3_v67 V2
  rw [b1, b3, b28, b54] at c67
  have c1 := (ckH3_keep V2 main_v1 (by decide)).trans b1
  have c3 := (ckH3_keep V2 main_v3 (by decide)).trans b3
  have c0 := (ckH3_keep V2 main_arg0 (by decide)).trans b0
  have c4 := (ckH3_keep V2 main_arg4 (by decide)).trans b4
  have c28 := (ckH3_keep V2 main_v28 (by decide)).trans b28
  have c41 := (ckH3_keep V2 main_v41 (by decide)).trans b41
  have c54 := (ckH3_keep V2 main_v54 (by decide)).trans b54
  generalize StableHlo.after (ckH3 (F := F)) V2 = V3 at *
  -- side by side
  refine ⟨(ckT_v68 V3).trans ?_, (ckT_v69 V3).trans (by rw [c4]), (ckT_keep V3 main_v1 (by decide)).trans c1,
    (ckT_keep V3 main_v3 (by decide)).trans c3, (ckT_keep V3 main_v28 (by decide)).trans c28⟩
  rw [c0, c41, c54, c67]
  rfl

/-- The second long stretch from any contents: the second layer's features and the bias row. -/
theorem hostOps1_reads :
    StableHlo.after (hostOps1 (F := F)) V (Proc.devRef .tc main_v97)
        = Cert.Spec.feats2 (V (Proc.devRef .tc main_v1)) (V (Proc.devRef .tc main_v3)) (V (Proc.devRef .tc main_v28)) (V (Proc.devRef .tc main_v70))
      ∧ StableHlo.after (hostOps1 (F := F)) V (Proc.devRef .tc main_v98) = Cert.Spec.rowOf (V (Proc.devRef .tc main_arg6)) := by
  rw [hostOps1_split, after_append, after_append]
  have a83 := ckH4_v83 V
  have a1 := ckH4_keep V main_v1 (by decide)
  have a3 := ckH4_keep V main_v3 (by decide)
  have a28 := ckH4_keep V main_v28 (by decide)
  have a70 := ckH4_keep V main_v70 (by decide)
  have a6 := ckH4_keep V main_arg6 (by decide)
  generalize StableHlo.after (ckH4 (F := F)) V = V1 at *
  have b96 := ckH5_v96 V1
  rw [a1, a3, a28, a83] at b96
  have b70 := (ckH5_keep V1 main_v70 (by decide)).trans a70
  have b83 := (ckH5_keep V1 main_v83 (by decide)).trans a83
  have b6 := (ckH5_keep V1 main_arg6 (by decide)).trans a6
  generalize StableHlo.after (ckH5 (F := F)) V1 = V2 at *
  refine ⟨(ckT2_v97 V2).trans ?_, (ckT2_v98 V2).trans (by rw [b6])⟩
  rw [b70, b83, b96]
  rfl

end Cert.KernelIdeal.Hand

end
-- ==== Proof.KI.Read.lean ====
/-
  What the program's buffers hold at the boundaries where its regions are entered and left, as the named functions of
  the argument arrays. Before region 0 the host side computes, from the edge table, the source and destination rows, the
  edge weights and the first layer's features; between regions 0 and 1 the second layer's features from region 0's
  output; before region 2 the time embedding and the padded halves of the final weight and bias; after region 2 it
  keeps the first two columns. The long stretches are read through their pieces; the short ones in one pass.
-/
import proofs.«161761_j55783035240724_1_alg».proof.Proof.Gen.KernelIdeal.Launch
import proofs.«161761_j55783035240724_1_alg».proof.Proof.Gen.KernelIdeal.Skeleton
import proofs.«161761_j55783035240724_1_alg».proof.Proof.Gen.KernelIdeal.Points
import proofs.«161761_j55783035240724_1_alg».proof.Proof.KI.Run
import proofs.«161761_j55783035240724_1_alg».proof.Proof.KI.Chunks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.StableHlo in
section
variable (m : (ℓ : Loc nD τ sig) → Buf (Elt F) ℓ) (ρ : Dev nD → PrngReg) (c : Dev nD)

/-! ## Before region 0 -/

set_option maxHeartbeats 2000000 in
/-- The edges' source row. -/
theorem W2_v1 : W2 m ρ c (Proc.devRef .tc main_v1) = Cert.Spec.srcRow (m ((c : Thread nD τ).loc main_arg1)) := by
  show StableHlo.after hostOps0_1 (StableHlo.after hostOps0 (W0 m ρ c)) _ = _
  after_results_cat
  rfl

set_option maxHeartbeats 2000000 in
/-- The edges' destination row. -/
theorem W2_v3 : W2 m ρ c (Proc.devRef .tc main_v3) = Cert.Spec.dstRow (m ((c : Thread nD τ).loc main_arg1)) := by
  show StableHlo.after hostOps0_1 (StableHlo.after hostOps0 (W0 m ρ c)) _ = _
  after_results_cat
  rfl

set_option maxHeartbeats 4000000 in
/-- The inverse root of the degree (zero where the degree is zero). -/
theorem W2_v13 : W2 m ρ c (Proc.devRef .tc main_v13) = Cert.Spec.dinv (Cert.Spec.dstRow (m ((c : Thread nD τ).loc main_arg1))) := by
  show StableHlo.after hostOps0_1 (StableHlo.after hostOps0 (W0 m ρ c)) _ = _
  after_results_cat
  rfl

/-- An argument array is as launched after the first two stretches. -/
theorem W2_arg (r : Ref sig .tc) (h0 : r ∉ hostOps0_W) (h1 : r ∉ hostOps0_1_W) :
    W2 m ρ c (Proc.devRef .tc r) = m ((c : Thread nD τ).loc r) :=
  (W2_of m ρ c r h1).trans <| (W1_of m ρ c r h0).trans rfl

/-- The first layer's features: x and its one-, two- and three-hop aggregates. -/
theorem W3_v68 : W3 m ρ c (Proc.devRef .tc main_v68)
    = Cert.Spec.feats1 (Cert.Spec.srcRow (m ((c : Thread nD τ).loc main_arg1))) (Cert.Spec.dstRow (m ((c : Thread nD τ).loc main_arg1)))
        (Cert.Spec.norm (Cert.Spec.srcRow (m ((c : Thread nD τ).loc main_arg1))) (Cert.Spec.dstRow (m ((c : Thread nD τ).loc main_arg1)))) (m ((c : Thread nD τ).loc main_arg0)) := by
  refine ((hostOps0_2_reads (W2 m ρ c)).1).trans ?_
  rw [W2_v1, W2_v3, W2_v13, W2_arg m ρ c main_arg0 (by decide) (by decide)]
  rfl

/-- The first bias as a row. -/
theorem W3_v69 : W3 m ρ c (Proc.devRef .tc main_v69) = Cert.Spec.rowOf (m ((c : Thread nD τ).loc main_arg4)) := by
  refine ((hostOps0_2_reads (W2 m ρ c)).2.1).trans ?_
  rw [W2_arg m ρ c main_arg4 (by decide) (by decide)]

/-- The source row, the destination row and the weights, as region 0 finds them. -/
theorem W3_v1 : W3 m ρ c (Proc.devRef .tc main_v1) = Cert.Spec.srcRow (m ((c : Thread nD τ).loc main_arg1)) :=
  ((hostOps0_2_reads (W2 m ρ c)).2.2.1).trans (W2_v1 m ρ c)
theorem W3_v3 : W3 m ρ c (Proc.devRef .tc main_v3) = Cert.Spec.dstRow (m ((c : Thread nD τ).loc main_arg1)) :=
  ((hostOps0_2_reads (W2 m ρ c)).2.2.2.1).trans (W2_v3 m ρ c)
theorem W3_v28 : W3 m ρ c (Proc.devRef .tc main_v28)
    = Cert.Spec.norm (Cert.Spec.srcRow (m ((c : Thread nD τ).loc main_arg1))) (Cert.Spec.dstRow (m ((c : Thread nD τ).loc main_arg1))) := by
  refine ((hostOps0_2_reads (W2 m ρ c)).2.2.2.2).trans ?_
  rw [W2_v1, W2_v3, W2_v13]
  rfl

/-- An argument array reaches region 0 as launched. -/
theorem W3_arg (r : Ref sig .tc) (h0 : r ∉ hostOps0_W) (h1 : r ∉ hostOps0_1_W) (h2 : r ∉ hostOps0_2_W) :
    W3 m ρ c (Proc.devRef .tc r) = m ((c : Thread nD τ).loc r) :=
  (W3_of m ρ c r h2).trans (W2_arg m ρ c r h0 h1)

/-! ## Between region 0 and region 1 -/

/-- What region 0 does not stage it leaves alone; an argument reaches its exit as launched. -/
theorem W4_arg (r : Ref sig .tc) (h0 : r ∉ hostOps0_W) (h1 : r ∉ hostOps0_1_W) (h2 : r ∉ hostOps0_2_W)
    (h3 : ∀ w, Pipeline.arrRef spec0 w ≠ r) : W4 m ρ c (Proc.devRef .tc r) = m ((c : Thread nD τ).loc r) :=
  (W4_of_ne m ρ c r h3).trans (W3_arg m ρ c r h0 h1 h2)

/-- The second layer's features: region 0's output and its one- and two-hop aggregates, the hops over the source row,
    destination row and weights as region 0 left them. -/
theorem W5_v97 : W5 m ρ c (Proc.devRef .tc main_v97)
    = Cert.Spec.feats2 (W4 m ρ c (Proc.devRef .tc main_v1)) (W4 m ρ c (Proc.devRef .tc main_v3)) (W4 m ρ c (Proc.devRef .tc main_v28))
        (W4 m ρ c (Proc.devRef .tc main_v70)) :=
  (hostOps1_reads (W4 m ρ c)).1

/-- The second bias as a row. -/
theorem W5_v98 : W5 m ρ c (Proc.devRef .tc main_v98) = Cert.Spec.rowOf (W4 m ρ c (Proc.devRef .tc main_arg6)) :=
  (hostOps1_reads (W4 m ρ c)).2

/-- An argument reaches region 1's exit as launched. -/
theorem W6_arg (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) :
    W6 m ρ c (Proc.devRef .tc r) = m ((c : Thread nD τ).loc r) :=
  (W6_of_ne m ρ c r h5).trans <| (W5_of m ρ c r h4).trans (W4_arg m ρ c r h0 h1 h2 h3)

/-! ## Between region 1 and region 2 -/

set_option maxHeartbeats 4000000 in
/-- The time embedding. -/
theorem W13_v114 : W13 m ρ c (Proc.devRef .tc main_v114)
    = Cert.Spec.teK (W6 m ρ c (Proc.devRef .tc main_arg2)) (W6 m ρ c (Proc.devRef .tc main_arg7)) (W6 m ρ c (Proc.devRef .tc main_arg8)) := by
  show StableHlo.after hostOps2_6 (StableHlo.after hostOps2_5 (StableHlo.after hostOps2_4 (StableHlo.after hostOps2_3
    (StableHlo.after hostOps2_2 (StableHlo.after hostOps2_1 (StableHlo.after hostOps2 (W6 m ρ c))))))) _ = _
  after_results_cat
  rfl

set_option maxHeartbeats 2000000 in
/-- The upper half of the final weight, padded. -/
theorem W13_v116 : W13 m ρ c (Proc.devRef .tc main_v116) = Cert.Spec.wfTop (W6 m ρ c (Proc.devRef .tc main_arg9)) := by
  show StableHlo.after hostOps2_6 (StableHlo.after hostOps2_5 (StableHlo.after hostOps2_4 (StableHlo.after hostOps2_3
    (StableHlo.after hostOps2_2 (StableHlo.after hostOps2_1 (StableHlo.after hostOps2 (W6 m ρ c))))))) _ = _
  after_results_cat
  rfl

set_option maxHeartbeats 2000000 in
/-- The lower half of the final weight, padded. -/
theorem W13_v118 : W13 m ρ c (Proc.devRef .tc main_v118) = Cert.Spec.wfBot (W6 m ρ c (Proc.devRef .tc main_arg9)) := by
  show StableHlo.after hostOps2_6 (StableHlo.after hostOps2_5 (StableHlo.after hostOps2_4 (StableHlo.after hostOps2_3
    (StableHlo.after hostOps2_2 (StableHlo.after hostOps2_1 (StableHlo.after hostOps2 (W6 m ρ c))))))) _ = _
  after_results_cat
  rfl

set_option maxHeartbeats 2000000 in
/-- The final bias, padded, as a row. -/
theorem W13_v120 : W13 m ρ c (Proc.devRef .tc main_v120) = Cert.Spec.bfRow (W6 m ρ c (Proc.devRef .tc main_arg10)) := by
  show StableHlo.after hostOps2_6 (StableHlo.after hostOps2_5 (StableHlo.after hostOps2_4 (StableHlo.after hostOps2_3
    (StableHlo.after hostOps2_2 (StableHlo.after hostOps2_1 (StableHlo.after hostOps2 (W6 m ρ c))))))) _ = _
  after_results_cat
  rfl

/-- Region 1's output reaches region 2 as region 1 left it. -/
theorem W13_v99 : W13 m ρ c (Proc.devRef .tc main_v99) = W6 m ρ c (Proc.devRef .tc main_v99) :=
  (W13_of m ρ c main_v99 (by decide)).trans <| (W12_of m ρ c main_v99 (by decide)).trans <| (W11_of m ρ c main_v99 (by decide)).trans <|
  (W10_of m ρ c main_v99 (by decide)).trans <| (W9_of m ρ c main_v99 (by decide)).trans <| (W8_of m ρ c main_v99 (by decide)).trans <|
  (W7_of m ρ c main_v99 (by decide))

/-! ## After region 2 -/

set_option maxHeartbeats 2000000 in
/-- The result: the first two columns of region 2's output. -/
theorem W15_v122 : W15 m ρ c (Proc.devRef .tc main_v122) = Cert.Spec.outK (W14 m ρ c (Proc.devRef .tc main_v121)) := by
  show StableHlo.after hostOps3 (W14 m ρ c) _ = _
  after_results_cat
  rfl

end

end Cert.KernelIdeal.Hand

end
-- ==== Proof.KI.Value0.lean ====
/-
  The two dense stages' output arrays after their regions, each as ONE function of the arrays the region was entered
  with, at the ideal values (the extended reals).

  A dense stage is relu (z·w + b): z is 50000×K (K = 512 in the first stage, 384 in the second), w is K×128, b a bias of
  128 entries held as a 1×128 row. The region computes it row block by row block — point t of its grid of 25 takes rows
  2000 t … 2000 t + 1999 of z, the whole of w and the bias row, and writes rows 2000 t … 2000 t + 1999 of the output.
  Entry (n, j) of the result is
      max (∑ k, z[n,k]·w[k,j] + b[j]) 0
  on both sides: in the block's arithmetic the format changes and same-shape casts are the identity, the product into
  the zero accumulator is the sum over the contraction coordinate, the bias row spread down the rows reads its entry j
  and the maximum is against the zero splat; in the reference the whole-matrix product is the same sum and the bias is
  spread the same way. The blocks tile the output (row n is in block n / 2000), so the array ends holding that function.
-/
import proofs.«161761_j55783035240724_1_alg».proof.Proof.Spec
import proofs.«161761_j55783035240724_1_alg».proof.Proof.KI.Region0
import proofs.«161761_j55783035240724_1_alg».proof.Proof.KI.Region1
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.ShloMosaic.Pipeline (Dat Cfg Window BodyObligation cellOf)
open Idealize.ShloMosaic.ValueIdx
open Cert.KernelIdeal Cert.KernelIdeal.Gen

/-! ## A plain matrix product's sum, re-indexed by the contraction coordinate -/

/-- For the plain dimension numbers of [R,K]·[K,C] (contract axis 1 of the left with axis 0 of the right, no batch
    axis) the left operand's index at entry (p, q) and contraction coordinate k is (p, k), the right operand's (k, q):
    the contraction's sum is the sum over k : Fin K of x[p,k]·w[k,q]. -/
theorem fc_plain_sum {R K C : Nat} (x : (⟨2, ![R, K]⟩ : Shape).Idx → EReal) (w : (⟨2, ![K, C]⟩ : Shape).Idx → EReal)
    (p : Fin R) (q : Fin C) :
    ∑ k : (DotDims.plain R K C).contr.Idx, x ((DotDims.plain R K C).lhsIdx (ix2 p q) k) * w ((DotDims.plain R K C).rhsIdx (ix2 p q) k)
      = ∑ k : Fin K, x (ix2 p k) * w (ix2 k q) := by
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx (ix2 p q) ((contrEquiv1 (DotDims.plain R K C) K rfl rfl).symm k) = ix2 p k :=
    funext fun a => Fin.ext (by
      match a with
      | ⟨0, _⟩ =>
        show ((DotDims.plain R K C).lhsIdx (ix2 p q) _ (0 : Fin 2)).val = p.val
        unfold DotDims.lhsIdx
        rw [dif_neg (show ¬(0 : Fin 2) ∈ (DotDims.plain R K C).lhsBatch from List.not_mem_nil),
          dif_pos (show (0 : Fin 2) ∈ (DotDims.plain R K C).lhsNonContracting from List.mem_singleton.mpr rfl)]
        rfl
      | ⟨1, _⟩ =>
        show ((DotDims.plain R K C).lhsIdx (ix2 p q) _ (1 : Fin 2)).val = k.val
        rw [(DotDims.plain R K C).lhsIdx_val_of_single rfl]; exact hk)
  have er : (DotDims.plain R K C).rhsIdx (ix2 p q) ((contrEquiv1 (DotDims.plain R K C) K rfl rfl).symm k) = ix2 k q :=
    funext fun a => Fin.ext (by
      match a with
      | ⟨0, _⟩ =>
        show ((DotDims.plain R K C).rhsIdx (ix2 p q) _ (0 : Fin 2)).val = k.val
        rw [(DotDims.plain R K C).rhsIdx_val_of_single rfl]; exact hk
      | ⟨1, _⟩ =>
        show ((DotDims.plain R K C).rhsIdx (ix2 p q) _ (1 : Fin 2)).val = q.val
        unfold DotDims.rhsIdx
        rw [dif_neg (show ¬(1 : Fin 2) ∈ (DotDims.plain R K C).rhsBatch from List.not_mem_nil),
          dif_pos (show (1 : Fin 2) ∈ (DotDims.plain R K C).rhsNonContracting from List.mem_singleton.mpr rfl)]
        rfl)
  rw [el, er]

/-! ## The dense stage at one entry -/

/-- Entry (n, j) of relu (z·w + b): the product sum of row n of z with column j of w, the bias entry added, clipped
    below at zero. -/
def fcAt {R K : Nat} (z : (⟨2, ![R, K]⟩ : Shape).Idx → EReal) (w : (⟨2, ![K, 128]⟩ : Shape).Idx → EReal)
    (b : (⟨1, ![128]⟩ : Shape).Idx → EReal) (n : Fin R) (j : Fin 128) : EReal :=
  max ((∑ k : Fin K, z (ix2 n k) * w (ix2 k j)) + b (ix1 j)) (Ideal.ofBits .f32 0x00000000#32)

/-- What a dense stage's 50000×128 output array holds, entry by entry. -/
def fcG {K : Nat} (Z : (⟨2, ![50000, K]⟩ : Shape).Idx → EReal) (W : (⟨2, ![K, 128]⟩ : Shape).Idx → EReal)
    (b : (⟨1, ![128]⟩ : Shape).Idx → EReal) : (⟨2, ![50000, 128]⟩ : Shape).Idx → EReal :=
  fun i => fcAt (R := 50000) Z W b (i 0) (i 1)

/-! ## The kernel's side: a block's arithmetic at an entry -/

/-- A block's arithmetic at entry (p, q), for any contraction length K: the product into the zero accumulator is the
    sum over the contraction coordinate, the 1×128 bias row spread down the rows reads its entry q, the maximum is
    against the zero splat. -/
theorem fc_body_apply {R K : Nat} {φ₁ φ₂ : FTy} (x0 : FVec Ideal ⟨2, ![R, K]⟩ φ₁) (x1 : FVec Ideal ⟨2, ![K, 128]⟩ φ₂)
    (x2 : FVec Ideal ⟨2, ![1, 128]⟩ .f32) (hbc : (⟨2, ![1, 128]⟩ : Shape).Broadcasts ⟨2, ![R, 128]⟩) (p : Fin R) (q : Fin 128) :
    maximumf (addf (matmul (DotDims.plain R K 128) none x0 x1 (constant ⟨2, ![R, 128]⟩ .f32 0x00000000#32)) (broadcastTo ⟨2, ![R, 128]⟩ x2 hbc))
        (broadcast ⟨2, ![R, 128]⟩ (Scalar.ofBits .f32 0x00000000#32)) (ix2 p q)
      = max ((∑ k : Fin K, x0 (ix2 p k) * x1 (ix2 k q)) + x2 (ix2 (0 : Fin 1) q)) (Ideal.ofBits .f32 0x00000000#32) := by
  rw [maximumf_apply, addf_apply]
  simp only [matmul]
  rw [Ideal.matmul_constant_zero_apply, fc_plain_sum x0 x1 p q]
  rw [broadcastTo_apply x2 hbc (ix2 p q) (ix2 (0 : Fin 1) q) (fun a => by match a with | ⟨0, _⟩ => rfl | ⟨1, _⟩ => rfl)]
  rfl

/-- The first stage's block (K = 512): its dimension numbers are the plain ones, the narrowing of the operands to
    bf16 and the same-shape casts are the identity. -/
theorem k0_pay1_apply (x0 : Vec Ideal S2000x512 .f32) (x1 : Vec Ideal S512x128 .f32) (x2 : Vec Ideal S1x128 .f32)
    (p : Fin 2000) (q : Fin 128) :
    k0_pay1 x0 x1 x2 (ix2 p q) = max ((∑ k : Fin 512, x0 (ix2 p k) * x1 (ix2 k q)) + x2 (ix2 (0 : Fin 1) q)) (Ideal.ofBits .f32 0x00000000#32) := by
  unfold k0_pay1
  simp only [shapeCast_self]
  exact fc_body_apply (truncf .bf16 x0 bitsLt_bf16_f32) (truncf .bf16 x1 bitsLt_bf16_f32) x2 _ p q

/-- The second stage's block (K = 384), likewise. -/
theorem k1_pay1_apply (x0 : Vec Ideal S2000x384 .f32) (x1 : Vec Ideal S384x128 .f32) (x2 : Vec Ideal S1x128 .f32)
    (p : Fin 2000) (q : Fin 128) :
    k1_pay1 x0 x1 x2 (ix2 p q) = max ((∑ k : Fin 384, x0 (ix2 p k) * x1 (ix2 k q)) + x2 (ix2 (0 : Fin 1) q)) (Ideal.ofBits .f32 0x00000000#32) := by
  unfold k1_pay1
  simp only [shapeCast_self]
  exact fc_body_apply (truncf .bf16 x0 bitsLt_bf16_f32) (truncf .bf16 x1 bitsLt_bf16_f32) x2 _ p q

/-- A block's entry and the array's: when row p of the block is row n of the features and the block's weight and bias
    are the arrays', the block's arithmetic at (p, q) is the dense stage at (n, q). -/
theorem fc_blk_entry_eq {R K : Nat} (x0 : (⟨2, ![R, K]⟩ : Shape).Idx → EReal) (x1 : (⟨2, ![K, 128]⟩ : Shape).Idx → EReal)
    (x2 : (⟨2, ![1, 128]⟩ : Shape).Idx → EReal) (Z : (⟨2, ![50000, K]⟩ : Shape).Idx → EReal) (W : (⟨2, ![K, 128]⟩ : Shape).Idx → EReal)
    (b : (⟨1, ![128]⟩ : Shape).Idx → EReal) (p : Fin R) (q : Fin 128) (n : Fin 50000)
    (h0 : ∀ k : Fin K, x0 (ix2 p k) = Z (ix2 n k)) (h1 : ∀ k : Fin K, x1 (ix2 k q) = W (ix2 k q))
    (h2 : x2 (ix2 (0 : Fin 1) q) = b (ix1 q)) :
    max ((∑ k : Fin K, x0 (ix2 p k) * x1 (ix2 k q)) + x2 (ix2 (0 : Fin 1) q)) (Ideal.ofBits .f32 0x00000000#32) = fcG Z W b (ix2 n q) := by
  show _ = max ((∑ k : Fin K, Z (ix2 n k) * W (ix2 k q)) + b (ix1 q)) (Ideal.ofBits .f32 0x00000000#32)
  rw [h2]
  exact congrArg (fun s => max (s + b (ix1 q)) (Ideal.ofBits .f32 0x00000000#32)) (Finset.sum_congr rfl fun k _ => by rw [h0 k, h1 k])

/-! ## The reference's side: the whole-matrix stage at an entry -/

/-- A bias vector as a 1×128 row reads, at (0, q), the vector's entry q. -/
theorem rowOf_apply (b : (⟨1, ![128]⟩ : Shape).Idx → EReal) (q : Fin 128) :
    Cert.Spec.rowOf (F := Ideal) b (ix2 (0 : Fin 1) q) = b (ix1 q) := by
  unfold Cert.Spec.rowOf
  exact shapeCast_apply b shapeCasts_S128_S1x128 (ix2 (0 : Fin 1) q) (ix1 q) (by
    rw [Shape.rowMajor_val_one, Shape.rowMajor_val_two]; show q.val = 0 * 128 + q.val; omega)

/-- The bias spread to 50000×128 through a 1×128 row reads, at (n, j), the vector's entry j. -/
theorem fc_bias_apply (b : (⟨1, ![128]⟩ : Shape).Idx → EReal) (n : Fin 50000) (j : Fin 128) :
    broadcastInDim S50000x128 ![0, 1] bcast_S1x128_S50000x128_0_1 (broadcastInDim S1x128 ![1] bcast_S128_S1x128_1 b) (ix2 n j) = b (ix1 j) := by
  rw [broadcastInDim_apply _ bcast_S1x128_S50000x128_0_1 _ (ix2 n j) (ix2 (0 : Fin 1) j) (fun a => by match a with | ⟨0, _⟩ => rfl | ⟨1, _⟩ => rfl)]
  rw [broadcastInDim_apply _ bcast_S128_S1x128_1 b (ix2 (0 : Fin 1) j) (ix1 j) (fun a => by match a with | ⟨0, _⟩ => rfl)]

/-- The reference's first dense stage is fcG: the whole-matrix product at (n, j) is the sum over k. -/
theorem fc1R_eq (z : (⟨2, ![50000, 512]⟩ : Shape).Idx → EReal) (w : (⟨2, ![512, 128]⟩ : Shape).Idx → EReal)
    (b : (⟨1, ![128]⟩ : Shape).Idx → EReal) : Cert.Spec.fc1R (F := Ideal) z w b = fcG z w b := by
  funext i
  obtain ⟨n, j, rfl⟩ : ∃ (n : Fin 50000) (j : Fin 128), i = ix2 n j := ⟨i 0, i 1, eq_ix2 i⟩
  show _ = max ((∑ k : Fin 512, z (ix2 n k) * w (ix2 k j)) + b (ix1 j)) (Ideal.ofBits .f32 0x00000000#32)
  unfold Cert.Spec.fc1R
  rw [maximumf_apply, addf_apply, fc_bias_apply]
  simp only [Host.dotGeneral]
  rw [Ideal.dotGeneral_apply]
  exact congrArg (fun s => max (s + b (ix1 j)) (Ideal.ofBits .f32 0x00000000#32)) (fc_plain_sum z w n j)

/-- The reference's second dense stage is fcG. -/
theorem fc2R_eq (z : (⟨2, ![50000, 384]⟩ : Shape).Idx → EReal) (w : (⟨2, ![384, 128]⟩ : Shape).Idx → EReal)
    (b : (⟨1, ![128]⟩ : Shape).Idx → EReal) : Cert.Spec.fc2R (F := Ideal) z w b = fcG z w b := by
  funext i
  obtain ⟨n, j, rfl⟩ : ∃ (n : Fin 50000) (j : Fin 128), i = ix2 n j := ⟨i 0, i 1, eq_ix2 i⟩
  show _ = max ((∑ k : Fin 384, z (ix2 n k) * w (ix2 k j)) + b (ix1 j)) (Ideal.ofBits .f32 0x00000000#32)
  unfold Cert.Spec.fc2R
  rw [maximumf_apply, addf_apply, fc_bias_apply]
  simp only [Host.dotGeneral]
  rw [Ideal.dotGeneral_apply]
  exact congrArg (fun s => max (s + b (ix1 j)) (Ideal.ofBits .f32 0x00000000#32)) (fc_plain_sum z w n j)

/-! ## From blocks to the array -/

/-- A whole-buffer access starts at zero on both axes. -/
theorem fc_zero_off : (![0, 0] : Fin 2 → Nat) = fun _ => 0 := funext fun a => by fin_cases a <;> rfl

variable (V : (c : Dev nD) → (b : Ref sig .tc) → Buf (Elt Ideal) ((c : Thread nD τ).loc b))

/-! ### Region 0: the first dense stage (K = 512) -/

/-- The index maps over the grid: block t of the features and of the output is row block t; the weight and the bias
    row are one block each. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t (rows 2000 t … 2000 t + 1999) of the dense stage of the arrays the region
    was entered with: row p of the features' block is row 2000 t + p of the features, the weight's and the bias row's
    blocks are the whole arrays. -/
theorem flushed0_eq (c : Dev nD) (b : (⟨1, ![128]⟩ : Shape).Idx → EReal)
    (hb : ∀ q : Fin 128, (V c main_v69 : S1x128.Idx → EReal) (ix2 (0 : Fin 1) q) = b (ix1 q)) (t : Fin cfg0.N) :
    (dat0 (F := Ideal) V c).flushed 3 t
      = ((cfg0.win 3).blk t).view.read (Elt Ideal) (fcG (K := 512) (V c main_v68) (V c main_arg3) b) := by
  show (cfg0.win 3).cut (grid0.coords t) ((dat0 V c).after 3 t) = _
  rw [after0_3]
  unfold out0_3
  rw [View.canon_unit_zero fc_zero_off]
  simp only [View.ld_unit_zero (S := S2000x512) fc_zero_off, View.ld_unit_zero (S := S512x128) fc_zero_off, View.ld_unit_zero (S := S1x128) fc_zero_off]
  obtain ⟨e00, e01, e10, e11, e20, e21, e30, e31⟩ := idx_facts0 t
  have ht : t.val < 25 := lt_of_lt_of_eq t.isLt N_0
  refine funext fun (y : S2000x128.Idx) => ?_
  obtain ⟨p, q, rfl⟩ : ∃ (p : Fin 2000) (q : Fin 128), y = ix2 p q := ⟨y 0, y 1, eq_ix2 y⟩
  have hp : p.val < 2000 := p.isLt
  have hn : 2000 * t.val + p.val < 50000 := by omega
  refine (k0_pay1_apply _ _ _ p q).trans ?_
  show _ = fcG (K := 512) (V c main_v68) (V c main_arg3) b (((cfg0.win 3).blk t).view.emb (ix2 p q))
  have hemb : ((cfg0.win 3).blk t).view.emb (ix2 p q) = ix2 (⟨2000 * t.val + p.val, hn⟩ : Fin 50000) q := by
    funext a; apply Fin.ext
    match a with
    | ⟨0, _⟩ => show win0_3.index t (0 : Fin 2) * 2000 + 1 * p.val = 2000 * t.val + p.val; rw [e30]; omega
    | ⟨1, _⟩ => show win0_3.index t (1 : Fin 2) * 128 + 1 * q.val = q.val; rw [e31]; omega
  rw [hemb]
  refine fc_blk_entry_eq _ _ _ _ _ b p q ⟨2000 * t.val + p.val, hn⟩ (fun k => ?_) (fun k => ?_) ?_
  · show (V c main_v68 : S50000x512.Idx → EReal) (((cfg0.win 0).blk t).view.emb (ix2 p k)) = _
    refine congrArg _ (funext fun a => Fin.ext ?_)
    match a with
    | ⟨0, _⟩ => show win0_0.index t (0 : Fin 2) * 2000 + 1 * p.val = 2000 * t.val + p.val; rw [e00]; omega
    | ⟨1, _⟩ => show win0_0.index t (1 : Fin 2) * 512 + 1 * k.val = k.val; rw [e01]; omega
  · show (V c main_arg3 : S512x128.Idx → EReal) (((cfg0.win 1).blk t).view.emb (ix2 k q)) = _
    refine congrArg _ (funext fun a => Fin.ext ?_)
    match a with
    | ⟨0, _⟩ => show win0_1.index t (0 : Fin 2) * 512 + 1 * k.val = k.val; rw [e10]; omega
    | ⟨1, _⟩ => show win0_1.index t (1 : Fin 2) * 128 + 1 * q.val = q.val; rw [e11]; omega
  · rw [← hb q]
    show (V c main_v69 : S1x128.Idx → EReal) (((cfg0.win 2).blk t).view.emb (ix2 (0 : Fin 1) q)) = _
    refine congrArg _ (funext fun a => Fin.ext ?_)
    match a with
    | ⟨0, _⟩ => show win0_2.index t (0 : Fin 2) * 1 + 1 * 0 = 0; rw [e20]
    | ⟨1, _⟩ => show win0_2.index t (1 : Fin 2) * 128 + 1 * q.val = q.val; rw [e21]; omega

/-- An index of the output array is in point t's block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v70).slice (win0_3.rect t)).set ↔ _
  rw [View.set_slice_whole, Rect.mem_set_unit]
  exact Iff.rfl

/-- The blocks tile the output: row n is in the block of point n / 2000. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hlt : (i 0).val / 2000 < cfg0.N := by rw [show cfg0.N = grid0.N from rfl, N_0]; omega
  obtain ⟨e00, e01, e10, e11, e20, e21, e30, e31⟩ := idx_facts0 ⟨(i 0).val / 2000, hlt⟩
  refine ⟨⟨(i 0).val / 2000, hlt⟩, flush0_3 _, ?_⟩
  rw [mem_blk0]
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    rw [e30]; show (i 0).val / 2000 * 2000 ≤ (i 0).val ∧ (i 0).val < (i 0).val / 2000 * 2000 + 2000; omega
  | ⟨1, _⟩ =>
    show win0_3.index ⟨(i 0).val / 2000, hlt⟩ (1 : Fin 2) * 128 ≤ (i 1).val ∧ (i 1).val < win0_3.index ⟨(i 0).val / 2000, hlt⟩ (1 : Fin 2) * 128 + 128
    rw [e31]; omega

/-- Region 0's output array after the region: the first dense stage of the features, the weight and the bias the
    region was entered with — the reference's whole-matrix form of it. -/
theorem region0_value (c : Dev nD) (b : (⟨S128, .f32⟩ : BufTy).Contents (Elt Ideal)) (hb : V c main_v69 = Cert.Spec.rowOf b) :
    (dat0 (F := Ideal) V c).arrAt 3 cfg0.N = Cert.Spec.fc1R (V c main_v68) (V c main_arg3) b :=
  ((dat0 V c).arrAt_eq_of_cover 3 (fcG (K := 512) (V c main_v68) (V c main_arg3) b)
      (fun t _ => flushed0_eq V c b (fun q => by rw [hb]; exact rowOf_apply b q) t) cover0).trans
    (fc1R_eq (V c main_v68) (V c main_arg3) b).symm

/-! ### Region 1: the second dense stage (K = 384) -/

/-- The index maps over the grid: block t of the features and of the output is row block t; the weight and the bias
    row are one block each. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t (rows 2000 t … 2000 t + 1999) of the dense stage of the arrays the region
    was entered with: row p of the features' block is row 2000 t + p of the features, the weight's and the bias row's
    blocks are the whole arrays. -/
theorem flushed1_eq (c : Dev nD) (b : (⟨1, ![128]⟩ : Shape).Idx → EReal)
    (hb : ∀ q : Fin 128, (V c main_v98 : S1x128.Idx → EReal) (ix2 (0 : Fin 1) q) = b (ix1 q)) (t : Fin cfg1.N) :
    (dat1 (F := Ideal) V c).flushed 3 t
      = ((cfg1.win 3).blk t).view.read (Elt Ideal) (fcG (K := 384) (V c main_v97) (V c main_arg5) b) := by
  show (cfg1.win 3).cut (grid1.coords t) ((dat1 V c).after 3 t) = _
  rw [after1_3]
  unfold out1_3
  rw [View.canon_unit_zero fc_zero_off]
  simp only [View.ld_unit_zero (S := S2000x384) fc_zero_off, View.ld_unit_zero (S := S384x128) fc_zero_off, View.ld_unit_zero (S := S1x128) fc_zero_off]
  obtain ⟨e00, e01, e10, e11, e20, e21, e30, e31⟩ := idx_facts1 t
  have ht : t.val < 25 := lt_of_lt_of_eq t.isLt N_1
  refine funext fun (y : S2000x128.Idx) => ?_
  obtain ⟨p, q, rfl⟩ : ∃ (p : Fin 2000) (q : Fin 128), y = ix2 p q := ⟨y 0, y 1, eq_ix2 y⟩
  have hp : p.val < 2000 := p.isLt
  have hn : 2000 * t.val + p.val < 50000 := by omega
  refine (k1_pay1_apply _ _ _ p q).trans ?_
  show _ = fcG (K := 384) (V c main_v97) (V c main_arg5) b (((cfg1.win 3).blk t).view.emb (ix2 p q))
  have hemb : ((cfg1.win 3).blk t).view.emb (ix2 p q) = ix2 (⟨2000 * t.val + p.val, hn⟩ : Fin 50000) q := by
    funext a; apply Fin.ext
    match a with
    | ⟨0, _⟩ => show win1_3.index t (0 : Fin 2) * 2000 + 1 * p.val = 2000 * t.val + p.val; rw [e30]; omega
    | ⟨1, _⟩ => show win1_3.index t (1 : Fin 2) * 128 + 1 * q.val = q.val; rw [e31]; omega
  rw [hemb]
  refine fc_blk_entry_eq _ _ _ _ _ b p q ⟨2000 * t.val + p.val, hn⟩ (fun k => ?_) (fun k => ?_) ?_
  · show (V c main_v97 : S50000x384.Idx → EReal) (((cfg1.win 0).blk t).view.emb (ix2 p k)) = _
    refine congrArg _ (funext fun a => Fin.ext ?_)
    match a with
    | ⟨0, _⟩ => show win1_0.index t (0 : Fin 2) * 2000 + 1 * p.val = 2000 * t.val + p.val; rw [e00]; omega
    | ⟨1, _⟩ => show win1_0.index t (1 : Fin 2) * 384 + 1 * k.val = k.val; rw [e01]; omega
  · show (V c main_arg5 : S384x128.Idx → EReal) (((cfg1.win 1).blk t).view.emb (ix2 k q)) = _
    refine congrArg _ (funext fun a => Fin.ext ?_)
    match a with
    | ⟨0, _⟩ => show win1_1.index t (0 : Fin 2) * 384 + 1 * k.val = k.val; rw [e10]; omega
    | ⟨1, _⟩ => show win1_1.index t (1 : Fin 2) * 128 + 1 * q.val = q.val; rw [e11]; omega
  · rw [← hb q]
    show (V c main_v98 : S1x128.Idx → EReal) (((cfg1.win 2).blk t).view.emb (ix2 (0 : Fin 1) q)) = _
    refine congrArg _ (funext fun a => Fin.ext ?_)
    match a with
    | ⟨0, _⟩ => show win1_2.index t (0 : Fin 2) * 1 + 1 * 0 = 0; rw [e20]
    | ⟨1, _⟩ => show win1_2.index t (1 : Fin 2) * 128 + 1 * q.val = q.val; rw [e21]; omega

/-- An index of the output array is in point t's block iff each coordinate is in the block's range on its axis. -/
theorem mem_blk1 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v99).slice (win1_3.rect t)).set ↔ _
  rw [View.set_slice_whole, Rect.mem_set_unit]
  exact Iff.rfl

/-- The blocks tile the output: row n is in the block of point n / 2000. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hlt : (i 0).val / 2000 < cfg1.N := by rw [show cfg1.N = grid1.N from rfl, N_1]; omega
  obtain ⟨e00, e01, e10, e11, e20, e21, e30, e31⟩ := idx_facts1 ⟨(i 0).val / 2000, hlt⟩
  refine ⟨⟨(i 0).val / 2000, hlt⟩, flush1_3 _, ?_⟩
  rw [mem_blk1]
  intro a
  match a with
  | ⟨0, _⟩ =>
    show win1_3.index ⟨(i 0).val / 2000, hlt⟩ (0 : Fin 2) * 2000 ≤ (i 0).val ∧ (i 0).val < win1_3.index ⟨(i 0).val / 2000, hlt⟩ (0 : Fin 2) * 2000 + 2000
    rw [e30]; show (i 0).val / 2000 * 2000 ≤ (i 0).val ∧ (i 0).val < (i 0).val / 2000 * 2000 + 2000; omega
  | ⟨1, _⟩ =>
    show win1_3.index ⟨(i 0).val / 2000, hlt⟩ (1 : Fin 2) * 128 ≤ (i 1).val ∧ (i 1).val < win1_3.index ⟨(i 0).val / 2000, hlt⟩ (1 : Fin 2) * 128 + 128
    rw [e31]; omega

/-- Region 1's output array after the region: the second dense stage of the features, the weight and the bias the
    region was entered with — the reference's whole-matrix form of it. -/
theorem region1_value (c : Dev nD) (b : (⟨S128, .f32⟩ : BufTy).Contents (Elt Ideal)) (hb : V c main_v98 = Cert.Spec.rowOf b) :
    (dat1 (F := Ideal) V c).arrAt 3 cfg1.N = Cert.Spec.fc2R (V c main_v97) (V c main_arg5) b :=
  ((dat1 V c).arrAt_eq_of_cover 3 (fcG (K := 384) (V c main_v97) (V c main_arg5) b)
      (fun t _ => flushed1_eq V c b (fun q => by rw [hb]; exact rowOf_apply b q) t) cover1).trans
    (fc2R_eq (V c main_v97) (V c main_arg5) b).symm

end Cert.KernelIdeal.Hand

end
-- ==== Proof.KI.Value2.lean ====
/-
  Region 2 of the program, read as values at the ideal instance (floats are the extended reals).

  Each of the grid's ten points takes 5000 rows of the hidden features h and of the time embedding te, the two 128 × 128
  matrices P1, P2 and the 1 × 128 bias row, all whole, and writes 5000 rows of the 50000 × 128 output: entry (n, j) is
    Σ_{k<128} h[n,k]·P1[k,j] + Σ_{k<128} te[n,k]·P2[k,j] + brow[0,j]
  (the narrowing to bf16 before each product is the identity on extended reals; each product accumulates into zero).
  Entry (n, j) depends on row n of h and te alone, so the ten blocks are the restrictions of ONE function `out2` of the
  whole arrays, and since the blocks fill the 50000 rows the output array after the region is that function (`final2`).

  When P1, P2 are the upper and lower halves of the 256 × 2 final weight, each padded with zero columns to 128, and the bias
  row is the 2-entry bias padded with zeros to 128, the output's columns 0 and 1 are the reference's final projection
  [h, te]·Wf + bf: inside the unpadded box the pads read the weight and the bias themselves, and the reference's sum over
  the 256 columns of the concatenation [h, te] splits into the sum over its first 128 columns and the sum over its last
  128 — addition on the extended reals is a commutative monoid, and nothing else is used, so no entry need be finite.
-/
import proofs.«161761_j55783035240724_1_alg».proof.Proof.Spec
import proofs.«161761_j55783035240724_1_alg».proof.Proof.KI.Region2
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

namespace Cert.KernelIdeal.Hand

open Idealize.ShloMosaic Idealize.ShloMosaic.TcCoe Idealize.ShloMosaic.Tactic
open Idealize.ShloMosaic.ValueIdx
open Idealize.ShloMosaic.Pipeline (Dat Cfg Window)
open Cert.KernelIdeal Cert.KernelIdeal.Gen
open scoped BigOperators

/-! The lemmas under the closing theorem live in a namespace of their own. -/
namespace R2

/-! ## The dense algebra -/

/-- A sum over `m + n` indices whose first `m` terms are `a` and whose last `n` terms are `b` is the two sums added:
    addition in a commutative monoid, nothing else. -/
theorem sum_append {M : Type*} [AddCommMonoid M] {m n : ℕ} (c : Fin (m + n) → M) (a : Fin m → M) (b : Fin n → M)
    (hl : ∀ k, c (Fin.castAdd n k) = a k) (hr : ∀ k, c (Fin.natAdd m k) = b k) :
    ∑ k, c k = ∑ k, a k + ∑ k, b k := by
  rw [Fin.sum_univ_add]
  exact congrArg₂ (· + ·) (Finset.sum_congr rfl fun k _ => hl k) (Finset.sum_congr rfl fun k _ => hr k)

/-! ## The body's arithmetic at an index -/

/-- A block of 5000 rows times a 128 × 128 matrix, accumulated into zero, at (r, j): the sum over the 128 contracted
    columns of the products. -/
theorem matmul_at (A : FVec Ideal S5000x128 .bf16) (B : FVec Ideal S128x128 .bf16) (r : Fin 5000) (j : Fin 128) :
    matmul dot_S5000x128_S128x128_S5000x128_1_0_0_1_n_n none A B (constant (F := Ideal) S5000x128 .f32 0x00000000#32) (ix2 r j)
      = ∑ k : Fin 128, A (ix2 r k) * B (ix2 k j) :=
  (congrFun (matmul_zero_eq_dotGeneral (DotDims.plain 5000 128 128) none A B) (ix2 r j)).trans
    (StackMember.dotGeneral_plain_apply none A B r j)

/-- The body's payload at (r, j): row r of the first block against column j of the first matrix, plus row r of the second
    block against column j of the second matrix, plus entry j of the bias row. -/
theorem pay_apply (x0 x1 : Vec Ideal S5000x128 .f32) (x2 x3 : Vec Ideal S128x128 .f32) (x4 : Vec Ideal S1x128 .f32)
    (r : Fin 5000) (j : Fin 128) :
    k2_pay1 x0 x1 x2 x3 x4 (ix2 r j)
      = (∑ k : Fin 128, x0 (ix2 r k) * x2 (ix2 k j)) + (∑ k : Fin 128, x1 (ix2 r k) * x3 (ix2 k j)) + x4 (ix2 (0 : Fin 1) j) := by
  unfold k2_pay1
  simp only [shapeCast_self]
  exact congrArg₂ (· + ·)
    (congrArg₂ (· + ·) (matmul_at (truncf .bf16 x0 bitsLt_bf16_f32) (truncf .bf16 x2 bitsLt_bf16_f32) r j)
      (matmul_at (truncf .bf16 x1 bitsLt_bf16_f32) (truncf .bf16 x3 bitsLt_bf16_f32) r j))
    (broadcastTo_1b_ab_apply x4 broadcasts_S1x128_S5000x128 r j)

/-! ## The padded weights, the padded bias and the column cut, at an index -/

/-- Inside its first two columns the upper padded weight is the weight's rows 0 … 127. -/
theorem wfTop_apply (wf : (⟨S256x2, .f32⟩ : BufTy).Contents (Elt Ideal)) (k : Fin 128) (j : Fin 128) (j' : Fin 2)
    (hj : j.val = j'.val) (k' : Fin 256) (hk : k'.val = k.val) :
    Cert.Spec.wfTop wf (ix2 k j) = wf (ix2 k' j') := by
  unfold Cert.Spec.wfTop
  refine (pad_apply_of_inside ![0, 0] ![0, 126] ![0, 0] _ _ pads_S128x2_S128x128_000_01260 h_S_ (ix2 k j) (ix2 k j') ?_).trans ?_
  · intro a
    match a with
    | ⟨0, _⟩ => show k.val = 0 + k.val * (0 + 1); omega
    | ⟨1, _⟩ => show j.val = 0 + j'.val * (0 + 1); omega
  · exact slice2_axis0_apply 0 wf slices_S256x2_S128x2_0_0 k j' k' (by omega)

/-- Inside its first two columns the lower padded weight is the weight's rows 128 … 255. -/
theorem wfBot_apply (wf : (⟨S256x2, .f32⟩ : BufTy).Contents (Elt Ideal)) (k : Fin 128) (j : Fin 128) (j' : Fin 2)
    (hj : j.val = j'.val) (k' : Fin 256) (hk : k'.val = 128 + k.val) :
    Cert.Spec.wfBot wf (ix2 k j) = wf (ix2 k' j') := by
  unfold Cert.Spec.wfBot
  refine (pad_apply_of_inside ![0, 0] ![0, 126] ![0, 0] _ _ pads_S128x2_S128x128_000_01260 h_S_ (ix2 k j) (ix2 k j') ?_).trans ?_
  · intro a
    match a with
    | ⟨0, _⟩ => show k.val = 0 + k.val * (0 + 1); omega
    | ⟨1, _⟩ => show j.val = 0 + j'.val * (0 + 1); omega
  · exact slice2_axis0_apply 128 wf slices_S256x2_S128x2_128_0 k j' k' hk

/-- Inside its first two entries the padded bias row is the bias. -/
theorem bfRow_apply (bf : (⟨S2, .f32⟩ : BufTy).Contents (Elt Ideal)) (j : Fin 128) (j' : Fin 2) (hj : j.val = j'.val) :
    Cert.Spec.bfRow bf (ix2 (0 : Fin 1) j) = bf (ix1 j') := by
  unfold Cert.Spec.bfRow
  refine (shapeCast_a_1a_apply _ shapeCasts_S128_S1x128 (0 : Fin 1) j).trans ?_
  refine pad_apply_of_inside ![0] ![126] ![0] bf _ pads_S2_S128_01260 h_S_ (ix1 j) (ix1 j') ?_
  intro a
  match a with
  | ⟨0, _⟩ => show j.val = 0 + j'.val * (0 + 1); omega

/-- The kernel's result at (n, j) is the full output at (n, j). -/
theorem outK_apply (full : (⟨S50000x128, .f32⟩ : BufTy).Contents (Elt Ideal)) (n : Fin 50000) (j : Fin 2) (j' : Fin 128)
    (hj : j'.val = j.val) : Cert.Spec.outK full (ix2 n j) = full (ix2 n j') := by
  unfold Cert.Spec.outK
  exact slice2_axis1_apply 0 full slices_S50000x128_S50000x2_0_0 n j j' (by omega)

/-! ## The reference's final projection at an index -/

/-- The reference's result at (n, j): row n of the hidden features against rows 0 … 127 of column j of the weight, plus
    row n of the time embedding against rows 128 … 255 of it, plus entry j of the bias — the sum over the 256 columns
    of the concatenation split at column 128. -/
theorem outR_apply (h te : (⟨S50000x128, .f32⟩ : BufTy).Contents (Elt Ideal)) (wf : (⟨S256x2, .f32⟩ : BufTy).Contents (Elt Ideal))
    (bf : (⟨S2, .f32⟩ : BufTy).Contents (Elt Ideal)) (n : Fin 50000) (j : Fin 2) :
    Cert.Spec.outR h te wf bf (ix2 n j)
      = (∑ k : Fin 128, h (ix2 n k) * wf (ix2 (n0 := 256) (Fin.castAdd 128 k) j))
        + (∑ k : Fin 128, te (ix2 n k) * wf (ix2 (n0 := 256) (Fin.natAdd 128 k) j)) + bf (ix1 j) := by
  unfold Cert.Spec.outR
  refine congrArg₂ (· + ·) ?_ ?_
  · refine (StackMember.dotGeneral_plain_apply none _ wf n j).trans ?_
    refine sum_append (m := 128) (n := 128) _ _ _ (fun k => ?_) (fun k => ?_)
    · refine congrArg (· * wf (ix2 (n0 := 256) (Fin.castAdd 128 k) j)) ?_
      refine concatenate_pair_apply_left 1 h te _ (ix2 (n1 := 256) n (Fin.castAdd 128 k)) rfl (ix2 n k) ?_
      intro b
      match b with
      | ⟨0, _⟩ => rfl
      | ⟨1, _⟩ => rfl
    · refine congrArg (· * wf (ix2 (n0 := 256) (Fin.natAdd 128 k) j)) ?_
      refine concatenate_pair_apply_right 1 h te _ (ix2 (n1 := 256) n (Fin.natAdd 128 k)) rfl rfl (ix2 n k) ?_ ?_
      · intro b hb
        match b with
        | ⟨0, _⟩ => rfl
        | ⟨1, _⟩ => exact absurd rfl hb
      · show k.val + 128 = 128 + k.val
        omega
  · refine (broadcastInDim_oneRow_apply _ _ n j).trans ?_
    refine broadcastInDim_apply ![1] _ bf (ix2 (0 : Fin 1) j) (ix1 j) ?_
    intro a
    match a with
    | ⟨0, _⟩ => rfl

/-! ## The region's output array as one function of the arrays it is entered with -/

/-- Entry (n, j) of the region's 50000 × 128 output: row n of the hidden features against column j of the first matrix,
    plus row n of the time embedding against column j of the second, plus entry j of the bias row. Row n alone of the
    two row-blocked arrays enters it, so each block of 5000 rows is computed from the same 5000 rows of them. -/
def out2 (h te : Vec Ideal S50000x128 .f32) (P1 P2 : Vec Ideal S128x128 .f32) (brow : Vec Ideal S1x128 .f32) :
    Vec Ideal S50000x128 .f32 :=
  fun i => (∑ k : Fin 128, h (ix2 (i 0) k) * P1 (ix2 k (i 1))) + (∑ k : Fin 128, te (ix2 (i 0) k) * P2 (ix2 k (i 1)))
    + brow (ix2 (0 : Fin 1) (i 1))

theorem out2_apply (h te : Vec Ideal S50000x128 .f32) (P1 P2 : Vec Ideal S128x128 .f32) (brow : Vec Ideal S1x128 .f32)
    (n : Fin 50000) (j : Fin 128) :
    out2 h te P1 P2 brow (ix2 n j)
      = (∑ k : Fin 128, h (ix2 n k) * P1 (ix2 k j)) + (∑ k : Fin 128, te (ix2 n k) * P2 (ix2 k j)) + brow (ix2 (0 : Fin 1) j) := rfl

/-- The payload on two blocks whose row (y 0) is row (i 0) of the two arrays, at column (y 1) = (i 1), is `out2` of the
    arrays at i. -/
theorem pay_eq_out2 (x0 x1 : Vec Ideal S5000x128 .f32) (P1 P2 : Vec Ideal S128x128 .f32) (brow : Vec Ideal S1x128 .f32)
    (h te : Vec Ideal S50000x128 .f32) (y : S5000x128.Idx) (i : S50000x128.Idx)
    (h0 : ∀ k : Fin 128, x0 (ix2 (y 0) k) = h (ix2 (i 0) k))
    (h1 : ∀ k : Fin 128, x1 (ix2 (y 0) k) = te (ix2 (i 0) k))
    (hj : (i 1).val = (y 1).val) :
    k2_pay1 x0 x1 P1 P2 brow y = out2 h te P1 P2 brow i := by
  obtain ⟨r, j, rfl⟩ : ∃ (r : Fin 5000) (j : Fin 128), y = ix2 r j := ⟨y 0, y 1, eq_ix2 y⟩
  obtain ⟨n, j', rfl⟩ : ∃ (n : Fin 50000) (j' : Fin 128), i = ix2 n j' := ⟨i 0, i 1, eq_ix2 i⟩
  obtain rfl : j' = j := Fin.ext hj
  refine (pay_apply x0 x1 P1 P2 brow r j').trans ((out2_apply h te P1 P2 brow n j').trans ?_).symm
  have e0 : ∀ k : Fin 128, x0 (ix2 r k) = h (ix2 n k) := h0
  have e1 : ∀ k : Fin 128, x1 (ix2 r k) = te (ix2 n k) := h1
  simp only [e0, e1]

/-! ## The windows' blocks as pieces of their arrays -/

theorem hz : (![0, 0] : Fin 2 → Nat) = fun _ => 0 := funext fun a => by fin_cases a <;> rfl

/-- The index maps over the grid's ten points: at point t the three row-blocked windows (the two inputs and the output)
    sit at block (t, 0), the three whole-array windows at block (0, 0). -/
theorem idx_facts2 : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

variable (V : (c : Dev nD) → (b : Ref sig .tc) → Buf (Elt Ideal) ((c : Thread nD τ).loc b))

/-- Block t of the hidden features is their rows 5000 t … 5000 t + 4999. -/
theorem iblk2_0_apply (c : Dev nD) (t : Fin cfg2.N) (y : S5000x128.Idx) (i : S50000x128.Idx)
    (h0 : (i 0).val = t.val * 5000 + (y 0).val) (h1 : (i 1).val = (y 1).val) :
    (iblk2 (F := Ideal) V c 0 t : Vec Ideal S5000x128 .f32) y = (V c main_v99 : Vec Ideal S50000x128 .f32) i := by
  obtain ⟨-, -, e0, e1, -⟩ := idx_facts2 t
  unfold iblk2
  rw [View.read_apply]
  show V c main_v99 _ = V c main_v99 _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- Block t of the time embedding is its rows 5000 t … 5000 t + 4999. -/
theorem iblk2_1_apply (c : Dev nD) (t : Fin cfg2.N) (y : S5000x128.Idx) (i : S50000x128.Idx)
    (h0 : (i 0).val = t.val * 5000 + (y 0).val) (h1 : (i 1).val = (y 1).val) :
    (iblk2 (F := Ideal) V c 1 t : Vec Ideal S5000x128 .f32) y = (V c main_v114 : Vec Ideal S50000x128 .f32) i := by
  obtain ⟨-, -, -, -, e0, e1, -⟩ := idx_facts2 t
  unfold iblk2
  rw [View.read_apply]
  show V c main_v114 _ = V c main_v114 _
  congr 1
  funext a
  apply Fin.ext
  match a with
  | ⟨0, _⟩ => show win2_1.index t (0 : Fin 2) * 5000 + 1 * (y 0).val = (i 0).val; rw [e0, h0]; omega
  | ⟨1, _⟩ => show win2_1.index t (1 : Fin 2) * 128 + 1 * (y 1).val = (i 1).val; rw [e1, h1]; omega

/-- The first matrix's one block is the whole matrix, at every point. -/
theorem iblk2_2_eq (c : Dev nD) (t : Fin cfg2.N) :
    (iblk2 (F := Ideal) V c 2 t : Vec Ideal S128x128 .f32) = (V c main_v116 : Vec Ideal S128x128 .f32) := by
  obtain ⟨-, -, -, -, -, -, e0, e1, -⟩ := idx_facts2 t
  funext y
  unfold iblk2
  rw [View.read_apply]
  show V c main_v116 _ = V c main_v116 y
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- The second matrix's one block is the whole matrix, at every point. -/
theorem iblk2_3_eq (c : Dev nD) (t : Fin cfg2.N) :
    (iblk2 (F := Ideal) V c 3 t : Vec Ideal S128x128 .f32) = (V c main_v118 : Vec Ideal S128x128 .f32) := by
  obtain ⟨-, -, -, -, -, -, -, -, e0, e1, -⟩ := idx_facts2 t
  funext y
  unfold iblk2
  rw [View.read_apply]
  show V c main_v118 _ = V c main_v118 y
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- The bias row's one block is the whole row, at every point. -/
theorem iblk2_4_eq (c : Dev nD) (t : Fin cfg2.N) :
    (iblk2 (F := Ideal) V c 4 t : Vec Ideal S1x128 .f32) = (V c main_v120 : Vec Ideal S1x128 .f32) := by
  obtain ⟨-, -, -, -, -, -, -, -, -, -, e0, e1⟩ := idx_facts2 t
  funext y
  unfold iblk2
  rw [View.read_apply]
  show V c main_v120 _ = V c main_v120 y
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-! ## From the blocks to the array -/

/-- The region's output array as the function of the arrays the region is entered with. -/
abbrev G2 (c : Dev nD) : Vec Ideal S50000x128 .f32 :=
  out2 (V c main_v99) (V c main_v114) (V c main_v116) (V c main_v118) (V c main_v120)

/-- What point t writes back is block t — rows 5000 t … 5000 t + 4999 — of that function. -/
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 (F := Ideal) V c).after 5 t) = _
  rw [after2_5]
  unfold out2_5
  rw [View.canon_unit_zero hz]
  simp only [View.ld_unit_zero (S := S5000x128) hz, View.ld_unit_zero (S := S128x128) hz, View.ld_unit_zero (S := S1x128) hz]
  rw [iblk2_2_eq, iblk2_3_eq, iblk2_4_eq]
  obtain ⟨e0, e1, -⟩ := idx_facts2 t
  funext y
  refine pay_eq_out2 (iblk2 (F := Ideal) V c 0 t) (iblk2 (F := Ideal) V c 1 t) (V c main_v116) (V c main_v118) (V c main_v120)
    (V c main_v99) (V c main_v114) ((win2 5).xinj (grid2.coords t) y) (((cfg2.win 5).blk t).view.emb y)
    (fun k => ?_) (fun k => ?_) ?_
  · refine iblk2_0_apply V c t _ _ ?_ rfl
    show win2_5.index t (0 : Fin 2) * 5000 + 1 * (y 0).val = t.val * 5000 + (y 0).val
    rw [e0]; omega
  · refine iblk2_1_apply V c t _ _ ?_ rfl
    show win2_5.index t (0 : Fin 2) * 5000 + 1 * (y 0).val = t.val * 5000 + (y 0).val
    rw [e0]; omega
  · show win2_5.index t (1 : Fin 2) * 128 + 1 * (y 1).val = (y 1).val
    rw [e1]; omega

/-- An index of the output array is in point t's block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v121).slice (win2_5.rect t)).set ↔ _
  rw [View.set_slice_whole, Rect.mem_set_unit]
  exact Iff.rfl

/-- The ten blocks of 5000 rows fill the 50000 rows: row n is in the block of point n / 5000. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  have hlt : (i 0).val / 5000 < cfg2.N := by rw [hN]; omega
  obtain ⟨e0, e1, -⟩ := idx_facts2 ⟨(i 0).val / 5000, hlt⟩
  refine ⟨⟨(i 0).val / 5000, hlt⟩, flush2_5 _, ?_⟩
  rw [mem_blk2]
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win2_5.index ⟨(i 0).val / 5000, hlt⟩ (1 : Fin 2) * 128 ≤ (i 1).val ∧ (i 1).val < win2_5.index ⟨(i 0).val / 5000, hlt⟩ (1 : Fin 2) * 128 + 128
    rw [e1]
    omega

/-- The output array after the region: `G2`. -/
theorem final2 (c : Dev nD) : (dat2 (F := Ideal) V c).arrAt 5 cfg2.N = G2 V c :=
  (dat2 (F := Ideal) V c).arrAt_eq_of_cover 5 (G2 V c) (fun t _ => flushed2_eq V c t) cover2

/-! ## The first two columns of the output are the reference's final projection -/

/-- `out2` depends on the two matrices and the bias row as functions only. -/
theorem out2_congr {h te : Vec Ideal S50000x128 .f32} {P1 P1' P2 P2' : Vec Ideal S128x128 .f32} {b b' : Vec Ideal S1x128 .f32}
    (e1 : P1 = P1') (e2 : P2 = P2') (e3 : b = b') : out2 h te P1 P2 b = out2 h te P1' P2' b' := by
  subst e1 e2 e3; rfl

/-- With the two matrices the halves of the final weight padded to 128 columns and the bias row the padded bias, `out2` at
    (n, j), j < 2, is the reference's result there: the padded matrices and bias are read inside the unpadded box, and the
    reference's sum over the 256 columns of the concatenation is the sum over its first 128 columns (the hidden
    features') plus the sum over its last 128 (the time embedding's). -/
theorem out2_eq_outR (h te : Vec Ideal S50000x128 .f32) (wf : (⟨S256x2, .f32⟩ : BufTy).Contents (Elt Ideal))
    (bf : (⟨S2, .f32⟩ : BufTy).Contents (Elt Ideal)) (n : Fin 50000) (j : Fin 2) (j' : Fin 128) (hj : j'.val = j.val) :
    out2 h te (Cert.Spec.wfTop wf) (Cert.Spec.wfBot wf) (Cert.Spec.bfRow bf) (ix2 n j') = Cert.Spec.outR h te wf bf (ix2 n j) := by
  refine (out2_apply h te (Cert.Spec.wfTop wf) (Cert.Spec.wfBot wf) (Cert.Spec.bfRow bf) n j').trans ?_
  refine Eq.trans ?_ (outR_apply h te wf bf n j).symm
  refine congrArg₂ (· + ·) (congrArg₂ (· + ·) (Finset.sum_congr rfl fun k _ => ?_) (Finset.sum_congr rfl fun k _ => ?_)) ?_
  · exact congrArg (h (ix2 n k) * ·) (wfTop_apply wf k j' j hj (Fin.castAdd 128 k) rfl)
  · exact congrArg (te (ix2 n k) * ·) (wfBot_apply wf k j' j hj (Fin.natAdd 128 k) rfl)
  · exact bfRow_apply bf j' j hj

end R2

open R2

variable (V : (c : Dev nD) → (b : Ref sig .tc) → Buf (Elt Ideal) ((c : Thread nD τ).loc b))

/-- Columns 0 and 1 of region 2's output array are the reference's final projection of the hidden features and the time
    embedding the region is entered with, when its two matrices and bias row are the padded halves of the final weight
    and the padded bias. -/
theorem region2_value (c : Dev nD)
    (wf : (⟨S256x2, .f32⟩ : BufTy).Contents (Elt Ideal)) (bf : (⟨S2, .f32⟩ : BufTy).Contents (Elt Ideal))
    (hw1 : V c main_v116 = Cert.Spec.wfTop wf) (hw2 : V c main_v118 = Cert.Spec.wfBot wf) (hb : V c main_v120 = Cert.Spec.bfRow bf) :
    Cert.Spec.outK ((dat2 (F := Ideal) V c).arrAt 5 cfg2.N) = Cert.Spec.outR (V c main_v99) (V c main_v114) wf bf := by
  rw [final2]
  have e : G2 V c = out2 (V c main_v99) (V c main_v114) (Cert.Spec.wfTop wf) (Cert.Spec.wfBot wf) (Cert.Spec.bfRow bf) :=
    out2_congr hw1 hw2 hb
  rw [e]
  funext i
  obtain ⟨n, j, rfl⟩ : ∃ (n : Fin 50000) (j : Fin 2), i = ix2 n j := ⟨i 0, i 1, eq_ix2 i⟩
  have hj : j.val < 128 := by have := j.isLt; omega
  exact (outK_apply _ n j ⟨j.val, hj⟩ rfl).trans (out2_eq_outR (V c main_v99) (V c main_v114) wf bf n j ⟨j.val, hj⟩ rfl)

end Cert.KernelIdeal.Hand

end
-- ==== Proof.TeEq.lean ====
/-
  The time embedding, two ways. The kernel's program spreads the time column t (50000×1) and the weight row w (1×128) to
  50000×128 and multiplies entry by entry: (n, j) ↦ t n · w j. The reference multiplies the two as matrices, contracting
  the one shared index of length 1: (n, j) ↦ the sum over k < 1 of t (n, k) · w (k, j), a sum of one term. Both then add
  the same bias row. No finiteness is used.
-/
import proofs.«161761_j55783035240724_1_alg».proof.Proof.Spec
import Idealize.ShloMosaic.Lib.StackMember
import Idealize.ShloMosaic.Lib.ValueIdx
import Idealize.ShloMosaic.Lib.Pipeline.Value

noncomputable section

namespace Cert.Spec

open Idealize.ShloMosaic Idealize.ShloMosaic.ValueIdx Cert.KernelIdeal Cert.KernelIdeal.Gen

/-- A column spread along the rows times a row spread down the columns is, entry by entry, their matrix product over the
    one contracted index. -/
theorem outer_eq_dot (t : FVec Ideal S50000x1 .f32) (w : FVec Ideal S1x128 .f32) :
    mulf (broadcastInDim S50000x128 ![0, 1] bcast_S50000x1_S50000x128_0_1 t) (broadcastInDim S50000x128 ![0, 1] bcast_S1x128_S50000x128_0_1 w)
      = Host.dotGeneral Cert.ReferenceIdeal.dot_S50000x1_S1x128_S50000x128_1_0_0_1_n_n none t w := by
  funext i
  obtain ⟨n, j, rfl⟩ : ∃ (n : Fin 50000) (j : Fin 128), i = ix2 n j := ⟨i 0, i 1, eq_ix2 i⟩
  refine Eq.trans ?_ (StackMember.dotGeneral_plain_apply (m := 50000) (n := 128) (k := 1) none t w n j).symm
  rw [Fin.sum_univ_one]
  show broadcastInDim S50000x128 ![0, 1] bcast_S50000x1_S50000x128_0_1 t (ix2 n j)
      * broadcastInDim S50000x128 ![0, 1] bcast_S1x128_S50000x128_0_1 w (ix2 n j) = _
  rw [broadcastInDim_apply ![0, 1] bcast_S50000x1_S50000x128_0_1 t (ix2 n j) (ix2 n (0 : Fin 1))
        (fun a => by match a with | ⟨0, _⟩ => rfl | ⟨1, _⟩ => rfl),
      broadcastInDim_apply ![0, 1] bcast_S1x128_S50000x128_0_1 w (ix2 n j) (ix2 (0 : Fin 1) j)
        (fun a => by match a with | ⟨0, _⟩ => rfl | ⟨1, _⟩ => rfl)]

/-- The two programs' time embeddings are one function. -/
theorem teK_eq_teR (ts : FVec Ideal S50000 .f32) (wt : FVec Ideal S1x128 .f32) (bt : FVec Ideal S128 .f32) :
    teK (F := Ideal) ts wt bt = teR ts wt bt := by
  unfold teK teR
  rw [outer_eq_dot]

end Cert.Spec

end
-- ==== Proof.KI.Value.lean ====
/-
  The kernel's result as the named function of its arguments, at the ideal values: region 0's output array is the first
  dense stage of the first layer's features; the second layer's features are built from it; region 1's output is the
  second dense stage; region 2's output, cut to its first two columns, is the final projection of that and of the time
  embedding — and the time embedding's two forms are one function. Each step is one of the regions' closed forms or one
  of the host stretches read at a buffer.
-/
import proofs.«161761_j55783035240724_1_alg».proof.Proof.Gen.KernelIdeal.Launch
import proofs.«161761_j55783035240724_1_alg».proof.Proof.Gen.KernelIdeal.Skeleton
import proofs.«161761_j55783035240724_1_alg».proof.Proof.Gen.KernelIdeal.Points
import proofs.«161761_j55783035240724_1_alg».proof.Proof.KI.Read
import proofs.«161761_j55783035240724_1_alg».proof.Proof.KI.Value0
import proofs.«161761_j55783035240724_1_alg».proof.Proof.KI.Value2
import proofs.«161761_j55783035240724_1_alg».proof.Proof.TeEq
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt Ideal) ℓ) (ρ : Dev nD → PrngReg) (c : Dev nD)

/-- Region 0 leaves the first dense stage of the first layer's features. -/
theorem W4_v70 : W4 (F := Ideal) m ρ c (Proc.devRef .tc main_v70) = (Cert.Spec.fc1R (Cert.Spec.feats1 (Cert.Spec.srcRow (m ((c : Thread nD τ).loc main_arg1))) (Cert.Spec.dstRow (m ((c : Thread nD τ).loc main_arg1))) (Cert.Spec.norm (Cert.Spec.srcRow (m ((c : Thread nD τ).loc main_arg1))) (Cert.Spec.dstRow (m ((c : Thread nD τ).loc main_arg1)))) (m ((c : Thread nD τ).loc main_arg0))) (m ((c : Thread nD τ).loc main_arg3)) (m ((c : Thread nD τ).loc main_arg4))) := by
  refine (W4_arr m ρ c 3).trans ?_
  refine (region0_value (V3 m ρ) c _ (W3_v69 m ρ c)).trans ?_
  show Cert.Spec.fc1R (W3 m ρ c (Proc.devRef .tc main_v68)) (W3 m ρ c (Proc.devRef .tc main_arg3)) _ = _
  rw [W3_v68, W3_arg m ρ c main_arg3 (by decide) (by decide) (by decide)]

/-- The second layer's features, as region 1 finds them. -/
theorem W5_v97' : W5 (F := Ideal) m ρ c (Proc.devRef .tc main_v97) = Cert.Spec.feats2 (Cert.Spec.srcRow (m ((c : Thread nD τ).loc main_arg1))) (Cert.Spec.dstRow (m ((c : Thread nD τ).loc main_arg1))) (Cert.Spec.norm (Cert.Spec.srcRow (m ((c : Thread nD τ).loc main_arg1))) (Cert.Spec.dstRow (m ((c : Thread nD τ).loc main_arg1)))) (Cert.Spec.fc1R (Cert.Spec.feats1 (Cert.Spec.srcRow (m ((c : Thread nD τ).loc main_arg1))) (Cert.Spec.dstRow (m ((c : Thread nD τ).loc main_arg1))) (Cert.Spec.norm (Cert.Spec.srcRow (m ((c : Thread nD τ).loc main_arg1))) (Cert.Spec.dstRow (m ((c : Thread nD τ).loc main_arg1)))) (m ((c : Thread nD τ).loc main_arg0))) (m ((c : Thread nD τ).loc main_arg3)) (m ((c : Thread nD τ).loc main_arg4))) := by
  refine (W5_v97 m ρ c).trans ?_
  rw [(W4_of_ne m ρ c main_v1 (by decide)).trans (W3_v1 m ρ c), (W4_of_ne m ρ c main_v3 (by decide)).trans (W3_v3 m ρ c),
    (W4_of_ne m ρ c main_v28 (by decide)).trans (W3_v28 m ρ c), W4_v70]

/-- Region 1 leaves the second dense stage of them. -/
theorem W6_v99 : W6 (F := Ideal) m ρ c (Proc.devRef .tc main_v99) = (Cert.Spec.fc2R (Cert.Spec.feats2 (Cert.Spec.srcRow (m ((c : Thread nD τ).loc main_arg1))) (Cert.Spec.dstRow (m ((c : Thread nD τ).loc main_arg1))) (Cert.Spec.norm (Cert.Spec.srcRow (m ((c : Thread nD τ).loc main_arg1))) (Cert.Spec.dstRow (m ((c : Thread nD τ).loc main_arg1)))) (Cert.Spec.fc1R (Cert.Spec.feats1 (Cert.Spec.srcRow (m ((c : Thread nD τ).loc main_arg1))) (Cert.Spec.dstRow (m ((c : Thread nD τ).loc main_arg1))) (Cert.Spec.norm (Cert.Spec.srcRow (m ((c : Thread nD τ).loc main_arg1))) (Cert.Spec.dstRow (m ((c : Thread nD τ).loc main_arg1)))) (m ((c : Thread nD τ).loc main_arg0))) (m ((c : Thread nD τ).loc main_arg3)) (m ((c : Thread nD τ).loc main_arg4)))) (m ((c : Thread nD τ).loc main_arg5)) (m ((c : Thread nD τ).loc main_arg6))) := by
  refine (W6_arr m ρ c 3).trans ?_
  refine (region1_value (V5 m ρ) c (m ((c : Thread nD τ).loc main_arg6)) ((W5_v98 m ρ c).trans (by rw [W4_arg m ρ c main_arg6 (by decide) (by decide) (by decide) (by decide)]))).trans ?_
  show Cert.Spec.fc2R (W5 m ρ c (Proc.devRef .tc main_v97)) (W5 m ρ c (Proc.devRef .tc main_arg5)) _ = _
  rw [W5_v97', (W5_of m ρ c main_arg5 (by decide)).trans (W4_arg m ρ c main_arg5 (by decide) (by decide) (by decide) (by decide))]

/-- THE KERNEL'S VALUE: its result buffer at the end of the run holds the reference's function of the arguments. -/
theorem kernel_value : W15 (F := Ideal) m ρ c (Proc.devRef .tc main_v122)
    = Cert.Spec.refAll (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10)) := by
  refine (W15_v122 m ρ c).trans ?_
  rw [show W14 m ρ c (Proc.devRef .tc main_v121) = (dat2 (V13 m ρ) c).arrAt 5 cfg2.N from W14_arr m ρ c 5]
  refine (region2_value (V13 m ρ) c (m ((c : Thread nD τ).loc main_arg9)) (m ((c : Thread nD τ).loc main_arg10))
    ((W13_v116 m ρ c).trans (by rw [W6_arg m ρ c main_arg9 (by decide) (by decide) (by decide) (by decide) (by decide) (by decide)]))
    ((W13_v118 m ρ c).trans (by rw [W6_arg m ρ c main_arg9 (by decide) (by decide) (by decide) (by decide) (by decide) (by decide)]))
    ((W13_v120 m ρ c).trans (by rw [W6_arg m ρ c main_arg10 (by decide) (by decide) (by decide) (by decide) (by decide) (by decide)]))).trans ?_
  show Cert.Spec.outR (W13 m ρ c (Proc.devRef .tc main_v99)) (W13 m ρ c (Proc.devRef .tc main_v114)) _ _ = _
  rw [W13_v99, W6_v99, W13_v114, W6_arg m ρ c main_arg2 (by decide) (by decide) (by decide) (by decide) (by decide) (by decide), W6_arg m ρ c main_arg7 (by decide) (by decide) (by decide) (by decide) (by decide) (by decide),
    W6_arg m ρ c main_arg8 (by decide) (by decide) (by decide) (by decide) (by decide) (by decide), Cert.Spec.teK_eq_teR]
  rfl

/-- THE KERNEL'S RUN at the ideal values: every weakly fair execution terminates, nothing faults, the result buffer holds
    the reference's function of the arguments and the argument arrays are unchanged. -/
theorem run_kernel : θ_run defs (onTc (τ := τ) (main (F := Ideal))) ⟨m, fun _ => 0, ρ⟩ (fun r => ∀ c : Dev nD,
      r.2.mem ((c.tc : Thread nD τ).loc main_v122)
        = Cert.Spec.refAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v122 (by decide))).trans (kernel_value m ρ c),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c)⟩) (run_all m ρ)

end Cert.KernelIdeal.Hand

end
-- ==== Proof.RefChunks.lean ====
/-
  The reference program's 195 host operations cut into thirteen pieces in order — the rows of the edge table with the degree
  and its inverse root; the edge weights; three hops; the first dense stage; the degree and weights once more; two hops;
  the second dense stage; the time embedding; the final projection — with, for each piece, the buffers it writes and that
  every other buffer keeps its content.
-/
import proofs.«161761_j55783035240724_1_alg».proof.Proof.Gen.ReferenceIdeal
import proofs.«161761_j55783035240724_1_alg».proof.Proof.LibNary3
import Idealize.ShloMosaic.Lib.StableHlo.Run
import Idealize.ShloMosaic.Lib.Pipeline.Frame

set_option maxRecDepth 16384

noncomputable section

namespace Cert.ReferenceIdeal.RefHand

open Cert.ReferenceIdeal Cert.ReferenceIdeal.Gen Idealize.ShloMosaic Idealize.ShloMosaic.TcCoe Idealize.SL.Sem Idealize.ShloMosaic.StableHlo

variable {F : FTy → Type} [FloatOps F]

abbrev rA0 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_cst (constant S_ .f32 0x3F800000#32),
    unary main_cst main_v4 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S600000x1 ![0] bcast_S600000_S600000x1_0 : (⟨S600000, .i32⟩ : BufTy).Contents (Elt F) → (⟨S600000x1, .i32⟩ : BufTy).Contents (Elt F)),
    ternary main_v5 main_v6 main_v4 main_v7 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v9) (TRef.of (T := ⟨S50000, .f32⟩) main_v12) (TRef.of (T := ⟨S50000, .f32⟩) main_call0_v1) (TRef.of (T := ⟨S50000, .f32⟩) main_v13) select ]
abbrev rA0_W : List (Ref sig .tc) := [main_v0, main_v1, main_v2, main_v3, main_cst, main_v4, main_cst_0, main_v5, main_v6, main_v7, main_cst_1, main_v8, main_v9, main_cst_2, main_v10, main_v11, main_v12, main_cst_3, main_call0_v0, main_call0_v1, main_v13]
theorem rA0_writes : (rA0 : List (HloOp τ sig (Elt F))).Forall fun op => op.writes ⊆ (rA0_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem rA0_keep (V : Valuation τ sig (Elt F)) (r : Ref sig .tc) (h : r ∉ rA0_W) :
    after (rA0 (F := F)) V (Proc.devRef .tc r) = V (Proc.devRef .tc r) :=
  after_of_writes_sub rA0 V rA0_writes h

abbrev rN1 : List (HloOp τ sig (Elt F)) :=
  [ nullary main_c (constantI S_ 32 0#32),
    unary main_c main_v14 (broadcastInDim S600000 ![] bcast_S_S600000 : (⟨S_, .i32⟩ : BufTy).Contents (Elt F) → (⟨S600000, .i32⟩ : BufTy).Contents (Elt F)),
    binary main_v1 main_v14 main_v15 (cmpi .slt : (⟨S600000, .i32⟩ : BufTy).Contents (Elt F) → (⟨S600000, .i32⟩ : BufTy).Contents (Elt F) → (⟨S600000, .i1⟩ : BufTy).Contents (Elt F)),
    nullary main_c_4 (constantI S_ 32 50000#32),
    unary main_c_4 main_v16 (broadcastInDim S600000 ![] bcast_S_S600000 : (⟨S_, .i32⟩ : BufTy).Contents (Elt F) → (⟨S600000, .i32⟩ : BufTy).Contents (Elt F)),
    binary main_v1 main_v16 main_v17 (addi : (⟨S600000, .i32⟩ : BufTy).Contents (Elt F) → (⟨S600000, .i32⟩ : BufTy).Contents (Elt F) → (⟨S600000, .i32⟩ : BufTy).Contents (Elt F)),
    ternary main_v15 main_v17 main_v1 main_v18 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v18 main_v19 (broadcastInDim S600000x1 ![0] bcast_S600000_S600000x1_0 : (⟨S600000, .i32⟩ : BufTy).Contents (Elt F) → (⟨S600000x1, .i32⟩ : BufTy).Contents (Elt F)),
    binary main_v13 main_v19 main_v20 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_5 (constantI S_ 32 0#32),
    unary main_c_5 main_v21 (broadcastInDim S600000 ![] bcast_S_S600000 : (⟨S_, .i32⟩ : BufTy).Contents (Elt F) → (⟨S600000, .i32⟩ : BufTy).Contents (Elt F)),
    binary main_v3 main_v21 main_v22 (cmpi .slt : (⟨S600000, .i32⟩ : BufTy).Contents (Elt F) → (⟨S600000, .i32⟩ : BufTy).Contents (Elt F) → (⟨S600000, .i1⟩ : BufTy).Contents (Elt F)),
    nullary main_c_6 (constantI S_ 32 50000#32),
    unary main_c_6 main_v23 (broadcastInDim S600000 ![] bcast_S_S600000 : (⟨S_, .i32⟩ : BufTy).Contents (Elt F) → (⟨S600000, .i32⟩ : BufTy).Contents (Elt F)),
    binary main_v3 main_v23 main_v24 (addi : (⟨S600000, .i32⟩ : BufTy).Contents (Elt F) → (⟨S600000, .i32⟩ : BufTy).Contents (Elt F) → (⟨S600000, .i32⟩ : BufTy).Contents (Elt F)),
    ternary main_v22 main_v24 main_v3 main_v25 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v25 main_v26 (broadcastInDim S600000x1 ![0] bcast_S600000_S600000x1_0 : (⟨S600000, .i32⟩ : BufTy).Contents (Elt F) → (⟨S600000x1, .i32⟩ : BufTy).Contents (Elt F)),
    binary main_v13 main_v26 main_v27 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v20 main_v27 main_v28 (mulf : (⟨S600000, .f32⟩ : BufTy).Contents (Elt F) → (⟨S600000, .f32⟩ : BufTy).Contents (Elt F) → (⟨S600000, .f32⟩ : BufTy).Contents (Elt F)) ]
abbrev rN1_W : List (Ref sig .tc) := [main_c, main_v14, main_v15, main_c_4, main_v16, main_v17, main_v18, main_v19, main_v20, main_c_5, main_v21, main_v22, main_c_6, main_v23, main_v24, main_v25, main_v26, main_v27, main_v28]
theorem rN1_writes : (rN1 : List (HloOp τ sig (Elt F))).Forall fun op => op.writes ⊆ (rN1_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem rN1_keep (V : Valuation τ sig (Elt F)) (r : Ref sig .tc) (h : r ∉ rN1_W) :
    after (rN1 (F := F)) V (Proc.devRef .tc r) = V (Proc.devRef .tc r) :=
  after_of_writes_sub rN1 V rN1_writes h

abbrev rH1 : List (HloOp τ sig (Elt F)) :=
  [ nullary main_c_7 (constantI S_ 32 0#32),
    unary main_c_7 main_v29 (broadcastInDim S600000 ![] bcast_S_S600000 : (⟨S_, .i32⟩ : BufTy).Contents (Elt F) → (⟨S600000, .i32⟩ : BufTy).Contents (Elt F)),
    binary main_v1 main_v29 main_v30 (cmpi .slt : (⟨S600000, .i32⟩ : BufTy).Contents (Elt F) → (⟨S600000, .i32⟩ : BufTy).Contents (Elt F) → (⟨S600000, .i1⟩ : BufTy).Contents (Elt F)),
    nullary main_c_8 (constantI S_ 32 50000#32),
    unary main_c_8 main_v31 (broadcastInDim S600000 ![] bcast_S_S600000 : (⟨S_, .i32⟩ : BufTy).Contents (Elt F) → (⟨S600000, .i32⟩ : BufTy).Contents (Elt F)),
    binary main_v1 main_v31 main_v32 (addi : (⟨S600000, .i32⟩ : BufTy).Contents (Elt F) → (⟨S600000, .i32⟩ : BufTy).Contents (Elt F) → (⟨S600000, .i32⟩ : BufTy).Contents (Elt F)),
    ternary main_v30 main_v32 main_v1 main_v33 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v33 main_v34 (broadcastInDim S600000x1 ![0] bcast_S600000_S600000x1_0 : (⟨S600000, .i32⟩ : BufTy).Contents (Elt F) → (⟨S600000x1, .i32⟩ : BufTy).Contents (Elt F)),
    binary main_arg0 main_v34 main_v35 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v28 main_v36 (broadcastInDim S600000x1 ![0] bcast_S600000_S600000x1_0 : (⟨S600000, .f32⟩ : BufTy).Contents (Elt F) → (⟨S600000x1, .f32⟩ : BufTy).Contents (Elt F)),
    unary main_v36 main_v37 (broadcastInDim S600000x128 ![0, 1] bcast_S600000x1_S600000x128_0_1 : (⟨S600000x1, .f32⟩ : BufTy).Contents (Elt F) → (⟨S600000x128, .f32⟩ : BufTy).Contents (Elt F)),
    binary main_v35 main_v37 main_v38 (mulf : (⟨S600000x128, .f32⟩ : BufTy).Contents (Elt F) → (⟨S600000x128, .f32⟩ : BufTy).Contents (Elt F) → (⟨S600000x128, .f32⟩ : BufTy).Contents (Elt F)),
    nullary main_cst_9 (constant S_ .f32 0x00000000#32),
    unary main_cst_9 main_v39 (broadcastInDim S50000x128 ![] bcast_S_S50000x128 : (⟨S_, .f32⟩ : BufTy).Contents (Elt F) → (⟨S50000x128, .f32⟩ : BufTy).Contents (Elt F)),
    unary main_v3 main_v40 (broadcastInDim S600000x1 ![0] bcast_S600000_S600000x1_0 : (⟨S600000, .i32⟩ : BufTy).Contents (Elt F) → (⟨S600000x1, .i32⟩ : BufTy).Contents (Elt F)),
    ternary main_v39 main_v40 main_v38 main_v41 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]
abbrev rH1_W : List (Ref sig .tc) := [main_c_7, main_v29, main_v30, main_c_8, main_v31, main_v32, main_v33, main_v34, main_v35, main_v36, main_v37, main_v38, main_cst_9, main_v39, main_v40, main_v41]
theorem rH1_writes : (rH1 : List (HloOp τ sig (Elt F))).Forall fun op => op.writes ⊆ (rH1_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem rH1_keep (V : Valuation τ sig (Elt F)) (r : Ref sig .tc) (h : r ∉ rH1_W) :
    after (rH1 (F := F)) V (Proc.devRef .tc r) = V (Proc.devRef .tc r) :=
  after_of_writes_sub rH1 V rH1_writes h

abbrev rH2 : List (HloOp τ sig (Elt F)) :=
  [ nullary main_c_10 (constantI S_ 32 0#32),
    unary main_c_10 main_v42 (broadcastInDim S600000 ![] bcast_S_S600000 : (⟨S_, .i32⟩ : BufTy).Contents (Elt F) → (⟨S600000, .i32⟩ : BufTy).Contents (Elt F)),
    binary main_v1 main_v42 main_v43 (cmpi .slt : (⟨S600000, .i32⟩ : BufTy).Contents (Elt F) → (⟨S600000, .i32⟩ : BufTy).Contents (Elt F) → (⟨S600000, .i1⟩ : BufTy).Contents (Elt F)),
    nullary main_c_11 (constantI S_ 32 50000#32),
    unary main_c_11 main_v44 (broadcastInDim S600000 ![] bcast_S_S600000 : (⟨S_, .i32⟩ : BufTy).Contents (Elt F) → (⟨S600000, .i32⟩ : BufTy).Contents (Elt F)),
    binary main_v1 main_v44 main_v45 (addi : (⟨S600000, .i32⟩ : BufTy).Contents (Elt F) → (⟨S600000, .i32⟩ : BufTy).Contents (Elt F) → (⟨S600000, .i32⟩ : BufTy).Contents (Elt F)),
    ternary main_v43 main_v45 main_v1 main_v46 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v46 main_v47 (broadcastInDim S600000x1 ![0] bcast_S600000_S600000x1_0 : (⟨S600000, .i32⟩ : BufTy).Contents (Elt F) → (⟨S600000x1, .i32⟩ : BufTy).Contents (Elt F)),
    binary main_v41 main_v47 main_v48 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v28 main_v49 (broadcastInDim S600000x1 ![0] bcast_S600000_S600000x1_0 : (⟨S600000, .f32⟩ : BufTy).Contents (Elt F) → (⟨S600000x1, .f32⟩ : BufTy).Contents (Elt F)),
    unary main_v49 main_v50 (broadcastInDim S600000x128 ![0, 1] bcast_S600000x1_S600000x128_0_1 : (⟨S600000x1, .f32⟩ : BufTy).Contents (Elt F) → (⟨S600000x128, .f32⟩ : BufTy).Contents (Elt F)),
    binary main_v48 main_v50 main_v51 (mulf : (⟨S600000x128, .f32⟩ : BufTy).Contents (Elt F) → (⟨S600000x128, .f32⟩ : BufTy).Contents (Elt F) → (⟨S600000x128, .f32⟩ : BufTy).Contents (Elt F)),
    nullary main_cst_12 (constant S_ .f32 0x00000000#32),
    unary main_cst_12 main_v52 (broadcastInDim S50000x128 ![] bcast_S_S50000x128 : (⟨S_, .f32⟩ : BufTy).Contents (Elt F) → (⟨S50000x128, .f32⟩ : BufTy).Contents (Elt F)),
    unary main_v3 main_v53 (broadcastInDim S600000x1 ![0] bcast_S600000_S600000x1_0 : (⟨S600000, .i32⟩ : BufTy).Contents (Elt F) → (⟨S600000x1, .i32⟩ : BufTy).Contents (Elt F)),
    ternary main_v52 main_v53 main_v51 main_v54 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]
abbrev rH2_W : List (Ref sig .tc) := [main_c_10, main_v42, main_v43, main_c_11, main_v44, main_v45, main_v46, main_v47, main_v48, main_v49, main_v50, main_v51, main_cst_12, main_v52, main_v53, main_v54]
theorem rH2_writes : (rH2 : List (HloOp τ sig (Elt F))).Forall fun op => op.writes ⊆ (rH2_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem rH2_keep (V : Valuation τ sig (Elt F)) (r : Ref sig .tc) (h : r ∉ rH2_W) :
    after (rH2 (F := F)) V (Proc.devRef .tc r) = V (Proc.devRef .tc r) :=
  after_of_writes_sub rH2 V rH2_writes h

abbrev rH3 : List (HloOp τ sig (Elt F)) :=
  [ nullary main_c_13 (constantI S_ 32 0#32),
    unary main_c_13 main_v55 (broadcastInDim S600000 ![] bcast_S_S600000 : (⟨S_, .i32⟩ : BufTy).Contents (Elt F) → (⟨S600000, .i32⟩ : BufTy).Contents (Elt F)),
    binary main_v1 main_v55 main_v56 (cmpi .slt : (⟨S600000, .i32⟩ : BufTy).Contents (Elt F) → (⟨S600000, .i32⟩ : BufTy).Contents (Elt F) → (⟨S600000, .i1⟩ : BufTy).Contents (Elt F)),
    nullary main_c_14 (constantI S_ 32 50000#32),
    unary main_c_14 main_v57 (broadcastInDim S600000 ![] bcast_S_S600000 : (⟨S_, .i32⟩ : BufTy).Contents (Elt F) → (⟨S600000, .i32⟩ : BufTy).Contents (Elt F)),
    binary main_v1 main_v57 main_v58 (addi : (⟨S600000, .i32⟩ : BufTy).Contents (Elt F) → (⟨S600000, .i32⟩ : BufTy).Contents (Elt F) → (⟨S600000, .i32⟩ : BufTy).Contents (Elt F)),
    ternary main_v56 main_v58 main_v1 main_v59 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v59 main_v60 (broadcastInDim S600000x1 ![0] bcast_S600000_S600000x1_0 : (⟨S600000, .i32⟩ : BufTy).Contents (Elt F) → (⟨S600000x1, .i32⟩ : BufTy).Contents (Elt F)),
    binary main_v54 main_v60 main_v61 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v28 main_v62 (broadcastInDim S600000x1 ![0] bcast_S600000_S600000x1_0 : (⟨S600000, .f32⟩ : BufTy).Contents (Elt F) → (⟨S600000x1, .f32⟩ : BufTy).Contents (Elt F)),
    unary main_v62 main_v63 (broadcastInDim S600000x128 ![0, 1] bcast_S600000x1_S600000x128_0_1 : (⟨S600000x1, .f32⟩ : BufTy).Contents (Elt F) → (⟨S600000x128, .f32⟩ : BufTy).Contents (Elt F)),
    binary main_v61 main_v63 main_v64 (mulf : (⟨S600000x128, .f32⟩ : BufTy).Contents (Elt F) → (⟨S600000x128, .f32⟩ : BufTy).Contents (Elt F) → (⟨S600000x128, .f32⟩ : BufTy).Contents (Elt F)),
    nullary main_cst_15 (constant S_ .f32 0x00000000#32),
    unary main_cst_15 main_v65 (broadcastInDim S50000x128 ![] bcast_S_S50000x128 : (⟨S_, .f32⟩ : BufTy).Contents (Elt F) → (⟨S50000x128, .f32⟩ : BufTy).Contents (Elt F)),
    unary main_v3 main_v66 (broadcastInDim S600000x1 ![0] bcast_S600000_S600000x1_0 : (⟨S600000, .i32⟩ : BufTy).Contents (Elt F) → (⟨S600000x1, .i32⟩ : BufTy).Contents (Elt F)),
    ternary main_v65 main_v66 main_v64 main_v67 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]
abbrev rH3_W : List (Ref sig .tc) := [main_c_13, main_v55, main_v56, main_c_14, main_v57, main_v58, main_v59, main_v60, main_v61, main_v62, main_v63, main_v64, main_cst_15, main_v65, main_v66, main_v67]
theorem rH3_writes : (rH3 : List (HloOp τ sig (Elt F))).Forall fun op => op.writes ⊆ (rH3_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem rH3_keep (V : Valuation τ sig (Elt F)) (r : Ref sig .tc) (h : r ∉ rH3_W) :
    after (rH3 (F := F)) V (Proc.devRef .tc r) = V (Proc.devRef .tc r) :=
  after_of_writes_sub rH3 V rH3_writes h

abbrev rD1 : List (HloOp τ sig (Elt F)) :=
  [ nary ![main_arg0, main_v41, main_v54, main_v67] main_v68 (fun u => concatenate S50000x512 1 [⟨S50000x128, u 0⟩, ⟨S50000x128, u 1⟩, ⟨S50000x128, u 2⟩, ⟨S50000x128, u 3⟩] concatenates_S50000x128_S50000x128_S50000x128_S50000x128_S50000x512_d1),
    binary main_v68 main_arg3 main_v69 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    unary main_arg4 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v69 main_v71 main_v72 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v72) (TRef.of (T := ⟨S50000x128, .f32⟩) main_call1_v0) (TRef.of (T := ⟨S50000x128, .f32⟩) main_v73) maximumf ]
abbrev rD1_W : List (Ref sig .tc) := [main_v68, main_v69, main_v70, main_v71, main_v72, main_call1_cst, main_call1_v0, main_v73]
theorem rD1_writes : (rD1 : List (HloOp τ sig (Elt F))).Forall fun op => op.writes ⊆ (rD1_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem rD1_keep (V : Valuation τ sig (Elt F)) (r : Ref sig .tc) (h : r ∉ rD1_W) :
    after (rD1 (F := F)) V (Proc.devRef .tc r) = V (Proc.devRef .tc r) :=
  after_of_writes_sub rD1 V rD1_writes h

abbrev rA1 : List (HloOp τ sig (Elt F)) :=
  [ nullary main_cst_16 (constant S_ .f32 0x3F800000#32),
    unary main_cst_16 main_v74 (broadcastInDim S600000 ![] bcast_S_S600000 : (⟨S_, .f32⟩ : BufTy).Contents (Elt F) → (⟨S600000, .f32⟩ : BufTy).Contents (Elt F)),
    nullary main_cst_17 (constant S_ .f32 0x00000000#32),
    unary main_cst_17 main_v75 (broadcastInDim S50000 ![] bcast_S_S50000 : (⟨S_, .f32⟩ : BufTy).Contents (Elt F) → (⟨S50000, .f32⟩ : BufTy).Contents (Elt F)),
    unary main_v3 main_v76 (broadcastInDim S600000x1 ![0] bcast_S600000_S600000x1_0 : (⟨S600000, .i32⟩ : BufTy).Contents (Elt F) → (⟨S600000x1, .i32⟩ : BufTy).Contents (Elt F)),
    ternary main_v75 main_v76 main_v74 main_v77 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_18 (constant S_ .f32 0x00000000#32),
    unary main_cst_18 main_v78 (broadcastInDim S50000 ![] bcast_S_S50000 : (⟨S_, .f32⟩ : BufTy).Contents (Elt F) → (⟨S50000, .f32⟩ : BufTy).Contents (Elt F)),
    binary main_v77 main_v78 main_v79 (cmpf .ogt : (⟨S50000, .f32⟩ : BufTy).Contents (Elt F) → (⟨S50000, .f32⟩ : BufTy).Contents (Elt F) → (⟨S50000, .i1⟩ : BufTy).Contents (Elt F)),
    nullary main_cst_19 (constant S_ .f32 0x3F800000#32),
    unary main_cst_19 main_v80 (broadcastInDim S50000 ![] bcast_S_S50000 : (⟨S_, .f32⟩ : BufTy).Contents (Elt F) → (⟨S50000, .f32⟩ : BufTy).Contents (Elt F)),
    binary main_v77 main_v80 main_v81 (maximumf : (⟨S50000, .f32⟩ : BufTy).Contents (Elt F) → (⟨S50000, .f32⟩ : BufTy).Contents (Elt F) → (⟨S50000, .f32⟩ : BufTy).Contents (Elt F)),
    unary main_v81 main_v82 (Host.rsqrt : (⟨S50000, .f32⟩ : BufTy).Contents (Elt F) → (⟨S50000, .f32⟩ : BufTy).Contents (Elt F)),
    nullary main_cst_20 (constant S_ .f32 0x00000000#32),
    TRef.unary (TRef.of (T := ⟨S_, .f32⟩) main_cst_20) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v79) (TRef.of (T := ⟨S50000, .f32⟩) main_v82) (TRef.of (T := ⟨S50000, .f32⟩) main_call2_v1) (TRef.of (T := ⟨S50000, .f32⟩) main_v83) select ]
abbrev rA1_W : List (Ref sig .tc) := [main_cst_16, main_v74, main_cst_17, main_v75, main_v76, main_v77, main_cst_18, main_v78, main_v79, main_cst_19, main_v80, main_v81, main_v82, main_cst_20, main_call2_v0, main_call2_v1, main_v83]
theorem rA1_writes : (rA1 : List (HloOp τ sig (Elt F))).Forall fun op => op.writes ⊆ (rA1_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem rA1_keep (V : Valuation τ sig (Elt F)) (r : Ref sig .tc) (h : r ∉ rA1_W) :
    after (rA1 (F := F)) V (Proc.devRef .tc r) = V (Proc.devRef .tc r) :=
  after_of_writes_sub rA1 V rA1_writes h

abbrev rN2 : List (HloOp τ sig (Elt F)) :=
  [ nullary main_c_21 (constantI S_ 32 0#32),
    unary main_c_21 main_v84 (broadcastInDim S600000 ![] bcast_S_S600000 : (⟨S_, .i32⟩ : BufTy).Contents (Elt F) → (⟨S600000, .i32⟩ : BufTy).Contents (Elt F)),
    binary main_v1 main_v84 main_v85 (cmpi .slt : (⟨S600000, .i32⟩ : BufTy).Contents (Elt F) → (⟨S600000, .i32⟩ : BufTy).Contents (Elt F) → (⟨S600000, .i1⟩ : BufTy).Contents (Elt F)),
    nullary main_c_22 (constantI S_ 32 50000#32),
    unary main_c_22 main_v86 (broadcastInDim S600000 ![] bcast_S_S600000 : (⟨S_, .i32⟩ : BufTy).Contents (Elt F) → (⟨S600000, .i32⟩ : BufTy).Contents (Elt F)),
    binary main_v1 main_v86 main_v87 (addi : (⟨S600000, .i32⟩ : BufTy).Contents (Elt F) → (⟨S600000, .i32⟩ : BufTy).Contents (Elt F) → (⟨S600000, .i32⟩ : BufTy).Contents (Elt F)),
    ternary main_v85 main_v87 main_v1 main_v88 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v88 main_v89 (broadcastInDim S600000x1 ![0] bcast_S600000_S600000x1_0 : (⟨S600000, .i32⟩ : BufTy).Contents (Elt F) → (⟨S600000x1, .i32⟩ : BufTy).Contents (Elt F)),
    binary main_v83 main_v89 main_v90 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_23 (constantI S_ 32 0#32),
    unary main_c_23 main_v91 (broadcastInDim S600000 ![] bcast_S_S600000 : (⟨S_, .i32⟩ : BufTy).Contents (Elt F) → (⟨S600000, .i32⟩ : BufTy).Contents (Elt F)),
    binary main_v3 main_v91 main_v92 (cmpi .slt : (⟨S600000, .i32⟩ : BufTy).Contents (Elt F) → (⟨S600000, .i32⟩ : BufTy).Contents (Elt F) → (⟨S600000, .i1⟩ : BufTy).Contents (Elt F)),
    nullary main_c_24 (constantI S_ 32 50000#32),
    unary main_c_24 main_v93 (broadcastInDim S600000 ![] bcast_S_S600000 : (⟨S_, .i32⟩ : BufTy).Contents (Elt F) → (⟨S600000, .i32⟩ : BufTy).Contents (Elt F)),
    binary main_v3 main_v93 main_v94 (addi : (⟨S600000, .i32⟩ : BufTy).Contents (Elt F) → (⟨S600000, .i32⟩ : BufTy).Contents (Elt F) → (⟨S600000, .i32⟩ : BufTy).Contents (Elt F)),
    ternary main_v92 main_v94 main_v3 main_v95 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v95 main_v96 (broadcastInDim S600000x1 ![0] bcast_S600000_S600000x1_0 : (⟨S600000, .i32⟩ : BufTy).Contents (Elt F) → (⟨S600000x1, .i32⟩ : BufTy).Contents (Elt F)),
    binary main_v83 main_v96 main_v97 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v90 main_v97 main_v98 (mulf : (⟨S600000, .f32⟩ : BufTy).Contents (Elt F) → (⟨S600000, .f32⟩ : BufTy).Contents (Elt F) → (⟨S600000, .f32⟩ : BufTy).Contents (Elt F)) ]
abbrev rN2_W : List (Ref sig .tc) := [main_c_21, main_v84, main_v85, main_c_22, main_v86, main_v87, main_v88, main_v89, main_v90, main_c_23, main_v91, main_v92, main_c_24, main_v93, main_v94, main_v95, main_v96, main_v97, main_v98]
theorem rN2_writes : (rN2 : List (HloOp τ sig (Elt F))).Forall fun op => op.writes ⊆ (rN2_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem rN2_keep (V : Valuation τ sig (Elt F)) (r : Ref sig .tc) (h : r ∉ rN2_W) :
    after (rN2 (F := F)) V (Proc.devRef .tc r) = V (Proc.devRef .tc r) :=
  after_of_writes_sub rN2 V rN2_writes h

abbrev rH4 : List (HloOp τ sig (Elt F)) :=
  [ nullary main_c_25 (constantI S_ 32 0#32),
    unary main_c_25 main_v99 (broadcastInDim S600000 ![] bcast_S_S600000 : (⟨S_, .i32⟩ : BufTy).Contents (Elt F) → (⟨S600000, .i32⟩ : BufTy).Contents (Elt F)),
    binary main_v1 main_v99 main_v100 (cmpi .slt : (⟨S600000, .i32⟩ : BufTy).Contents (Elt F) → (⟨S600000, .i32⟩ : BufTy).Contents (Elt F) → (⟨S600000, .i1⟩ : BufTy).Contents (Elt F)),
    nullary main_c_26 (constantI S_ 32 50000#32),
    unary main_c_26 main_v101 (broadcastInDim S600000 ![] bcast_S_S600000 : (⟨S_, .i32⟩ : BufTy).Contents (Elt F) → (⟨S600000, .i32⟩ : BufTy).Contents (Elt F)),
    binary main_v1 main_v101 main_v102 (addi : (⟨S600000, .i32⟩ : BufTy).Contents (Elt F) → (⟨S600000, .i32⟩ : BufTy).Contents (Elt F) → (⟨S600000, .i32⟩ : BufTy).Contents (Elt F)),
    ternary main_v100 main_v102 main_v1 main_v103 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v103 main_v104 (broadcastInDim S600000x1 ![0] bcast_S600000_S600000x1_0 : (⟨S600000, .i32⟩ : BufTy).Contents (Elt F) → (⟨S600000x1, .i32⟩ : BufTy).Contents (Elt F)),
    binary main_v73 main_v104 main_v105 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v98 main_v106 (broadcastInDim S600000x1 ![0] bcast_S600000_S600000x1_0 : (⟨S600000, .f32⟩ : BufTy).Contents (Elt F) → (⟨S600000x1, .f32⟩ : BufTy).Contents (Elt F)),
    unary main_v106 main_v107 (broadcastInDim S600000x128 ![0, 1] bcast_S600000x1_S600000x128_0_1 : (⟨S600000x1, .f32⟩ : BufTy).Contents (Elt F) → (⟨S600000x128, .f32⟩ : BufTy).Contents (Elt F)),
    binary main_v105 main_v107 main_v108 (mulf : (⟨S600000x128, .f32⟩ : BufTy).Contents (Elt F) → (⟨S600000x128, .f32⟩ : BufTy).Contents (Elt F) → (⟨S600000x128, .f32⟩ : BufTy).Contents (Elt F)),
    nullary main_cst_27 (constant S_ .f32 0x00000000#32),
    unary main_cst_27 main_v109 (broadcastInDim S50000x128 ![] bcast_S_S50000x128 : (⟨S_, .f32⟩ : BufTy).Contents (Elt F) → (⟨S50000x128, .f32⟩ : BufTy).Contents (Elt F)),
    unary main_v3 main_v110 (broadcastInDim S600000x1 ![0] bcast_S600000_S600000x1_0 : (⟨S600000, .i32⟩ : BufTy).Contents (Elt F) → (⟨S600000x1, .i32⟩ : BufTy).Contents (Elt F)),
    ternary main_v109 main_v110 main_v108 main_v111 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]
abbrev rH4_W : List (Ref sig .tc) := [main_c_25, main_v99, main_v100, main_c_26, main_v101, main_v102, main_v103, main_v104, main_v105, main_v106, main_v107, main_v108, main_cst_27, main_v109, main_v110, main_v111]
theorem rH4_writes : (rH4 : List (HloOp τ sig (Elt F))).Forall fun op => op.writes ⊆ (rH4_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem rH4_keep (V : Valuation τ sig (Elt F)) (r : Ref sig .tc) (h : r ∉ rH4_W) :
    after (rH4 (F := F)) V (Proc.devRef .tc r) = V (Proc.devRef .tc r) :=
  after_of_writes_sub rH4 V rH4_writes h

abbrev rH5 : List (HloOp τ sig (Elt F)) :=
  [ nullary main_c_28 (constantI S_ 32 0#32),
    unary main_c_28 main_v112 (broadcastInDim S600000 ![] bcast_S_S600000 : (⟨S_, .i32⟩ : BufTy).Contents (Elt F) → (⟨S600000, .i32⟩ : BufTy).Contents (Elt F)),
    binary main_v1 main_v112 main_v113 (cmpi .slt : (⟨S600000, .i32⟩ : BufTy).Contents (Elt F) → (⟨S600000, .i32⟩ : BufTy).Contents (Elt F) → (⟨S600000, .i1⟩ : BufTy).Contents (Elt F)),
    nullary main_c_29 (constantI S_ 32 50000#32),
    unary main_c_29 main_v114 (broadcastInDim S600000 ![] bcast_S_S600000 : (⟨S_, .i32⟩ : BufTy).Contents (Elt F) → (⟨S600000, .i32⟩ : BufTy).Contents (Elt F)),
    binary main_v1 main_v114 main_v115 (addi : (⟨S600000, .i32⟩ : BufTy).Contents (Elt F) → (⟨S600000, .i32⟩ : BufTy).Contents (Elt F) → (⟨S600000, .i32⟩ : BufTy).Contents (Elt F)),
    ternary main_v113 main_v115 main_v1 main_v116 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v116 main_v117 (broadcastInDim S600000x1 ![0] bcast_S600000_S600000x1_0 : (⟨S600000, .i32⟩ : BufTy).Contents (Elt F) → (⟨S600000x1, .i32⟩ : BufTy).Contents (Elt F)),
    binary main_v111 main_v117 main_v118 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v98 main_v119 (broadcastInDim S600000x1 ![0] bcast_S600000_S600000x1_0 : (⟨S600000, .f32⟩ : BufTy).Contents (Elt F) → (⟨S600000x1, .f32⟩ : BufTy).Contents (Elt F)),
    unary main_v119 main_v120 (broadcastInDim S600000x128 ![0, 1] bcast_S600000x1_S600000x128_0_1 : (⟨S600000x1, .f32⟩ : BufTy).Contents (Elt F) → (⟨S600000x128, .f32⟩ : BufTy).Contents (Elt F)),
    binary main_v118 main_v120 main_v121 (mulf : (⟨S600000x128, .f32⟩ : BufTy).Contents (Elt F) → (⟨S600000x128, .f32⟩ : BufTy).Contents (Elt F) → (⟨S600000x128, .f32⟩ : BufTy).Contents (Elt F)),
    nullary main_cst_30 (constant S_ .f32 0x00000000#32),
    unary main_cst_30 main_v122 (broadcastInDim S50000x128 ![] bcast_S_S50000x128 : (⟨S_, .f32⟩ : BufTy).Contents (Elt F) → (⟨S50000x128, .f32⟩ : BufTy).Contents (Elt F)),
    unary main_v3 main_v123 (broadcastInDim S600000x1 ![0] bcast_S600000_S600000x1_0 : (⟨S600000, .i32⟩ : BufTy).Contents (Elt F) → (⟨S600000x1, .i32⟩ : BufTy).Contents (Elt F)),
    ternary main_v122 main_v123 main_v121 main_v124 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]
abbrev rH5_W : List (Ref sig .tc) := [main_c_28, main_v112, main_v113, main_c_29, main_v114, main_v115, main_v116, main_v117, main_v118, main_v119, main_v120, main_v121, main_cst_30, main_v122, main_v123, main_v124]
theorem rH5_writes : (rH5 : List (HloOp τ sig (Elt F))).Forall fun op => op.writes ⊆ (rH5_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem rH5_keep (V : Valuation τ sig (Elt F)) (r : Ref sig .tc) (h : r ∉ rH5_W) :
    after (rH5 (F := F)) V (Proc.devRef .tc r) = V (Proc.devRef .tc r) :=
  after_of_writes_sub rH5 V rH5_writes h

abbrev rD2 : List (HloOp τ sig (Elt F)) :=
  [ nary ![main_v73, main_v111, main_v124] main_v125 (fun u => concatenate S50000x384 1 [⟨S50000x128, u 0⟩, ⟨S50000x128, u 1⟩, ⟨S50000x128, u 2⟩] concatenates_S50000x128_S50000x128_S50000x128_S50000x384_d1),
    binary main_v125 main_arg5 main_v126 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    unary main_arg6 main_v127 (broadcastInDim S1x128 ![1] bcast_S128_S1x128_1 : (⟨S128, .f32⟩ : BufTy).Contents (Elt F) → (⟨S1x128, .f32⟩ : BufTy).Contents (Elt F)),
    unary main_v127 main_v128 (broadcastInDim S50000x128 ![0, 1] bcast_S1x128_S50000x128_0_1 : (⟨S1x128, .f32⟩ : BufTy).Contents (Elt F) → (⟨S50000x128, .f32⟩ : BufTy).Contents (Elt F)),
    binary main_v126 main_v128 main_v129 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v129) (TRef.of (T := ⟨S50000x128, .f32⟩) main_call3_v0) (TRef.of (T := ⟨S50000x128, .f32⟩) main_v130) maximumf ]
abbrev rD2_W : List (Ref sig .tc) := [main_v125, main_v126, main_v127, main_v128, main_v129, main_call3_cst, main_call3_v0, main_v130]
theorem rD2_writes : (rD2 : List (HloOp τ sig (Elt F))).Forall fun op => op.writes ⊆ (rD2_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem rD2_keep (V : Valuation τ sig (Elt F)) (r : Ref sig .tc) (h : r ∉ rD2_W) :
    after (rD2 (F := F)) V (Proc.devRef .tc r) = V (Proc.devRef .tc r) :=
  after_of_writes_sub rD2 V rD2_writes h

abbrev rTE : List (HloOp τ sig (Elt F)) :=
  [ unary main_arg2 main_v131 (broadcastInDim S50000x1 ![0] bcast_S50000_S50000x1_0 : (⟨S50000, .f32⟩ : BufTy).Contents (Elt F) → (⟨S50000x1, .f32⟩ : BufTy).Contents (Elt F)),
    nullary main_cst_31 (constant S_ .f32 0x7F800000#32),
    binary main_arg2 main_cst_31 main_v132 ((fun x v => Host.reduce FloatOps.minimumf x v reducesTo_S50000_S_d0 h_S_) : (⟨S50000, .f32⟩ : BufTy).Contents (Elt F) → (⟨S_, .f32⟩ : BufTy).Contents (Elt F) → (⟨S_, .f32⟩ : BufTy).Contents (Elt F)),
    unary main_v132 main_v133 (broadcastInDim S50000x1 ![] bcast_S_S50000x1 : (⟨S_, .f32⟩ : BufTy).Contents (Elt F) → (⟨S50000x1, .f32⟩ : BufTy).Contents (Elt F)),
    binary main_v131 main_v133 main_v134 (subf : (⟨S50000x1, .f32⟩ : BufTy).Contents (Elt F) → (⟨S50000x1, .f32⟩ : BufTy).Contents (Elt F) → (⟨S50000x1, .f32⟩ : BufTy).Contents (Elt F)),
    nullary main_cst_32 (constant S_ .f32 0xFF800000#32),
    binary main_arg2 main_cst_32 main_v135 ((fun x v => Host.reduce FloatOps.maximumf x v reducesTo_S50000_S_d0 h_S_) : (⟨S50000, .f32⟩ : BufTy).Contents (Elt F) → (⟨S_, .f32⟩ : BufTy).Contents (Elt F) → (⟨S_, .f32⟩ : BufTy).Contents (Elt F)),
    nullary main_cst_33 (constant S_ .f32 0x7F800000#32),
    binary main_arg2 main_cst_33 main_v136 ((fun x v => Host.reduce FloatOps.minimumf x v reducesTo_S50000_S_d0 h_S_) : (⟨S50000, .f32⟩ : BufTy).Contents (Elt F) → (⟨S_, .f32⟩ : BufTy).Contents (Elt F) → (⟨S_, .f32⟩ : BufTy).Contents (Elt F)),
    binary main_v135 main_v136 main_v137 (subf : (⟨S_, .f32⟩ : BufTy).Contents (Elt F) → (⟨S_, .f32⟩ : BufTy).Contents (Elt F) → (⟨S_, .f32⟩ : BufTy).Contents (Elt F)),
    nullary main_cst_34 (constant S_ .f32 0x322BCC77#32),
    binary main_v137 main_cst_34 main_v138 (addf : (⟨S_, .f32⟩ : BufTy).Contents (Elt F) → (⟨S_, .f32⟩ : BufTy).Contents (Elt F) → (⟨S_, .f32⟩ : BufTy).Contents (Elt F)),
    unary main_v138 main_v139 (broadcastInDim S50000x1 ![] bcast_S_S50000x1 : (⟨S_, .f32⟩ : BufTy).Contents (Elt F) → (⟨S50000x1, .f32⟩ : BufTy).Contents (Elt F)),
    binary main_v134 main_v139 main_v140 (Host.divf : (⟨S50000x1, .f32⟩ : BufTy).Contents (Elt F) → (⟨S50000x1, .f32⟩ : BufTy).Contents (Elt F) → (⟨S50000x1, .f32⟩ : BufTy).Contents (Elt F)),
    binary main_v140 main_arg7 main_v141 ((fun l r => Host.dotGeneral dot_S50000x1_S1x128_S50000x128_1_0_0_1_n_n none l r) : (⟨S50000x1, .f32⟩ : BufTy).Contents (Elt F) → (⟨S1x128, .f32⟩ : BufTy).Contents (Elt F) → (⟨S50000x128, .f32⟩ : BufTy).Contents (Elt F)),
    unary main_arg8 main_v142 (broadcastInDim S1x128 ![1] bcast_S128_S1x128_1 : (⟨S128, .f32⟩ : BufTy).Contents (Elt F) → (⟨S1x128, .f32⟩ : BufTy).Contents (Elt F)),
    unary main_v142 main_v143 (broadcastInDim S50000x128 ![0, 1] bcast_S1x128_S50000x128_0_1 : (⟨S1x128, .f32⟩ : BufTy).Contents (Elt F) → (⟨S50000x128, .f32⟩ : BufTy).Contents (Elt F)),
    binary main_v141 main_v143 main_v144 (addf : (⟨S50000x128, .f32⟩ : BufTy).Contents (Elt F) → (⟨S50000x128, .f32⟩ : BufTy).Contents (Elt F) → (⟨S50000x128, .f32⟩ : BufTy).Contents (Elt F)) ]
abbrev rTE_W : List (Ref sig .tc) := [main_v131, main_cst_31, main_v132, main_v133, main_v134, main_cst_32, main_v135, main_cst_33, main_v136, main_v137, main_cst_34, main_v138, main_v139, main_v140, main_v141, main_v142, main_v143, main_v144]
theorem rTE_writes : (rTE : List (HloOp τ sig (Elt F))).Forall fun op => op.writes ⊆ (rTE_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem rTE_keep (V : Valuation τ sig (Elt F)) (r : Ref sig .tc) (h : r ∉ rTE_W) :
    after (rTE (F := F)) V (Proc.devRef .tc r) = V (Proc.devRef .tc r) :=
  after_of_writes_sub rTE V rTE_writes h

abbrev rOUT : List (HloOp τ sig (Elt F)) :=
  [ binary main_v130 main_v144 main_v145 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v145 main_arg9 main_v146 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    unary main_arg10 main_v147 (broadcastInDim S1x2 ![1] bcast_S2_S1x2_1 : (⟨S2, .f32⟩ : BufTy).Contents (Elt F) → (⟨S1x2, .f32⟩ : BufTy).Contents (Elt F)),
    unary main_v147 main_v148 (broadcastInDim S50000x2 ![0, 1] bcast_S1x2_S50000x2_0_1 : (⟨S1x2, .f32⟩ : BufTy).Contents (Elt F) → (⟨S50000x2, .f32⟩ : BufTy).Contents (Elt F)),
    binary main_v146 main_v148 main_v149 (addf : (⟨S50000x2, .f32⟩ : BufTy).Contents (Elt F) → (⟨S50000x2, .f32⟩ : BufTy).Contents (Elt F) → (⟨S50000x2, .f32⟩ : BufTy).Contents (Elt F)) ]
abbrev rOUT_W : List (Ref sig .tc) := [main_v145, main_v146, main_v147, main_v148, main_v149]
theorem rOUT_writes : (rOUT : List (HloOp τ sig (Elt F))).Forall fun op => op.writes ⊆ (rOUT_W.map (Proc.devRef (τ := τ) .tc)).toFinset := by
  simp only [List.Forall]
  exact ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer the piece does not write keeps its content. -/
theorem rOUT_keep (V : Valuation τ sig (Elt F)) (r : Ref sig .tc) (h : r ∉ rOUT_W) :
    after (rOUT (F := F)) V (Proc.devRef .tc r) = V (Proc.devRef .tc r) :=
  after_of_writes_sub rOUT V rOUT_writes h

/-- The program's operations, in order: the thirteen pieces in a row. -/
abbrev ops : List (HloOp τ sig (Elt F)) :=
  rA0 ++ (rN1 ++ (rH1 ++ (rH2 ++ (rH3 ++ (rD1 ++ (rA1 ++ (rN2 ++ (rH4 ++ (rH5 ++ (rD2 ++ (rTE ++ (rOUT))))))))))))

end Cert.ReferenceIdeal.RefHand

end
-- ==== Proof.RefChunksSub.lean ====
/-
  Every operation of the reference touches TensorCore references only, piece by piece and for the whole line; and the
  printed program is that line.
-/
import proofs.«161761_j55783035240724_1_alg».proof.Proof.RefChunks

set_option maxRecDepth 16384

noncomputable section

namespace Cert.ReferenceIdeal.RefHand

open Cert.ReferenceIdeal Cert.ReferenceIdeal.Gen Idealize.ShloMosaic Idealize.ShloMosaic.TcCoe Idealize.SL.Sem Idealize.ShloMosaic.StableHlo

variable {F : FTy → Type} [FloatOps F]

theorem rA0_sub : (rA0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

theorem rN1_sub : (rN1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem rH1_sub : (rH1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem rH2_sub : (rH2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem rH3_sub : (rH3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem rD1_sub : (rD1 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub ..⟩

theorem rA1_sub : (rA1 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

theorem rN2_sub : (rN2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem rH4_sub : (rH4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem rH5_sub : (rH5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem rD2_sub : (rD2 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub ..⟩

theorem rTE_sub : (rTE : List (HloOp τ sig (Elt F))).Forall fun op => op.bufs ⊆ tcRefs τ sig :=
  ⟨unary_bufs_sub .., nullary_bufs_sub .., binary_bufs_sub .., unary_bufs_sub .., binary_bufs_sub .., nullary_bufs_sub .., binary_bufs_sub .., nullary_bufs_sub .., binary_bufs_sub .., binary_bufs_sub .., nullary_bufs_sub .., binary_bufs_sub .., unary_bufs_sub .., binary_bufs_sub .., binary_bufs_sub .., unary_bufs_sub .., unary_bufs_sub .., binary_bufs_sub ..⟩

theorem rOUT_sub : (rOUT : List (HloOp τ sig (Elt F))).Forall fun op => op.bufs ⊆ tcRefs τ sig :=
  ⟨binary_bufs_sub .., binary_bufs_sub .., unary_bufs_sub .., unary_bufs_sub .., binary_bufs_sub ..⟩

/-- The whole line touches TensorCore references only. -/
theorem ops_sub : (ops : List (HloOp τ sig (Elt F))).Forall fun op => op.bufs ⊆ tcRefs τ sig := by
  simp only [ops, List.forall_append]
  exact ⟨rA0_sub, rN1_sub, rH1_sub, rH2_sub, rH3_sub, rD1_sub, rA1_sub, rN2_sub, rH4_sub, rH5_sub, rD2_sub, rTE_sub, rOUT_sub⟩

set_option maxHeartbeats 4000000 in
/-- The printed reference is the line of its operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefHand

end
-- ==== Proof.RefPiecesA.lean ====
/-
  The first six pieces of the reference program's host operations, each read from an ARBITRARY starting content of the
  buffers: what its last buffer holds is the named function of what the buffers it reads held — the two rows of the
  edge table and the inverse root of the degree; the edge weights; three hops; the first dense stage of the four feature
  blocks side by side.
-/
import proofs.«161761_j55783035240724_1_alg».proof.Proof.RefChunks
import proofs.«161761_j55783035240724_1_alg».proof.Proof.Spec
import proofs.«161761_j55783035240724_1_alg».proof.Proof.LibNary3
import Idealize.ShloMosaic.Lib.StableHlo.Run
import Idealize.ShloMosaic.Lib.Pipeline.Frame

set_option maxRecDepth 16384

noncomputable section

namespace Cert.ReferenceIdeal.RefHand

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

/-! ## What each piece computes, from the contents of the buffers it reads -/

set_option maxHeartbeats 2000000 in
/-- Row 0 of the edge table. -/
theorem rA0_v1 : after (rA0 (F := F)) V (Proc.devRef .tc main_v1) = Cert.Spec.srcRow (V (Proc.devRef .tc main_arg1)) := by
  after_results_cat
  rfl

set_option maxHeartbeats 2000000 in
/-- Row 1 of the edge table. -/
theorem rA0_v3 : after (rA0 (F := F)) V (Proc.devRef .tc main_v3) = Cert.Spec.dstRow (V (Proc.devRef .tc main_arg1)) := by
  after_results_cat
  rfl

set_option maxHeartbeats 2000000 in
/-- The inverse root of the degree, from the destinations. -/
theorem rA0_v13 : after (rA0 (F := F)) V (Proc.devRef .tc main_v13) = Cert.Spec.dinv (Cert.Spec.dstRow (V (Proc.devRef .tc main_arg1))) := by
  after_results_cat
  rfl

set_option maxHeartbeats 2000000 in
/-- The edge weights from an inverse-root-degree vector. -/
theorem rN1_v28 : after (rN1 (F := F)) V (Proc.devRef .tc main_v28)
    = Cert.Spec.normWith (V (Proc.devRef .tc main_v13)) (V (Proc.devRef .tc main_v1)) (V (Proc.devRef .tc main_v3)) := by
  after_results_cat
  rfl

set_option maxHeartbeats 2000000 in
/-- One hop of the features held in main_arg0. -/
theorem rH1_v41 : after (rH1 (F := F)) V (Proc.devRef .tc main_v41)
    = Cert.Spec.hop (V (Proc.devRef .tc main_v1)) (V (Proc.devRef .tc main_v3)) (V (Proc.devRef .tc main_v28)) (V (Proc.devRef .tc main_arg0)) := by
  after_results_cat
  rfl

set_option maxHeartbeats 2000000 in
/-- One hop of the features held in main_v41. -/
theorem rH2_v54 : after (rH2 (F := F)) V (Proc.devRef .tc main_v54)
    = Cert.Spec.hop (V (Proc.devRef .tc main_v1)) (V (Proc.devRef .tc main_v3)) (V (Proc.devRef .tc main_v28)) (V (Proc.devRef .tc main_v41)) := by
  after_results_cat
  rfl

set_option maxHeartbeats 2000000 in
/-- One hop of the features held in main_v54. -/
theorem rH3_v67 : after (rH3 (F := F)) V (Proc.devRef .tc main_v67)
    = Cert.Spec.hop (V (Proc.devRef .tc main_v1)) (V (Proc.devRef .tc main_v3)) (V (Proc.devRef .tc main_v28)) (V (Proc.devRef .tc main_v54)) := by
  after_results_cat
  rfl

set_option maxHeartbeats 2000000 in
/-- The first dense stage of the four feature blocks side by side. -/
theorem rD1_v73 : after (rD1 (F := F)) V (Proc.devRef .tc main_v73)
    = Cert.Spec.fc1R (concatenate S50000x512 1 [⟨S50000x128, V (Proc.devRef .tc main_arg0)⟩, ⟨S50000x128, V (Proc.devRef .tc main_v41)⟩,
        ⟨S50000x128, V (Proc.devRef .tc main_v54)⟩, ⟨S50000x128, V (Proc.devRef .tc main_v67)⟩]
        concatenates_S50000x128_S50000x128_S50000x128_S50000x128_S50000x512_d1) (V (Proc.devRef .tc main_arg3)) (V (Proc.devRef .tc main_arg4)) := by
  after_results_cat
  rfl

end Cert.ReferenceIdeal.RefHand

end
-- ==== Proof.RefPiecesB.lean ====
/-
  The second half of the reference program's operations, piece by piece: what each piece's last buffer holds, as the named
  function of what the buffers the piece reads held before it, from ARBITRARY starting contents of the buffers. The pieces:
  the degree and its inverse root recomputed from the destination row; the edge weights from that vector and the two
  rows of the edge table; two hops of the hidden features; the second dense stage on the features and their two hops side
  by side; the time embedding; the final projection of the hidden features and the time embedding side by side. Each is
  read in one pass over the piece's operations and then is the named function by unfolding: the two programs' shape and
  dimension records have equal fields.
-/
import proofs.«161761_j55783035240724_1_alg».proof.Proof.RefChunks
import proofs.«161761_j55783035240724_1_alg».proof.Proof.Spec
import proofs.«161761_j55783035240724_1_alg».proof.Proof.LibNary3
import Idealize.ShloMosaic.Lib.StableHlo.Run

set_option maxRecDepth 16384

noncomputable section

namespace Cert.ReferenceIdeal.RefHand

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

set_option maxHeartbeats 2000000 in
/-- The inverse root of the degree, recomputed from the destination row. -/
theorem rA1_v83 : StableHlo.after (rA1 (F := F)) V (Proc.devRef .tc main_v83) = Cert.Spec.dinv (V (Proc.devRef .tc main_v3)) := by
  after_results_cat
  rfl

set_option maxHeartbeats 2000000 in
/-- The edge weights from the inverse-root-degree vector and the two rows of the edge table. -/
theorem rN2_v98 : StableHlo.after (rN2 (F := F)) V (Proc.devRef .tc main_v98)
    = Cert.Spec.normWith (V (Proc.devRef .tc main_v83)) (V (Proc.devRef .tc main_v1)) (V (Proc.devRef .tc main_v3)) := by
  after_results_cat
  rfl

set_option maxHeartbeats 2000000 in
/-- One hop of the hidden features. -/
theorem rH4_v111 : StableHlo.after (rH4 (F := F)) V (Proc.devRef .tc main_v111)
    = Cert.Spec.hop (V (Proc.devRef .tc main_v1)) (V (Proc.devRef .tc main_v3)) (V (Proc.devRef .tc main_v98)) (V (Proc.devRef .tc main_v73)) := by
  after_results_cat
  rfl

set_option maxHeartbeats 2000000 in
/-- One hop of that hop. -/
theorem rH5_v124 : StableHlo.after (rH5 (F := F)) V (Proc.devRef .tc main_v124)
    = Cert.Spec.hop (V (Proc.devRef .tc main_v1)) (V (Proc.devRef .tc main_v3)) (V (Proc.devRef .tc main_v98)) (V (Proc.devRef .tc main_v111)) := by
  after_results_cat
  rfl

set_option maxHeartbeats 2000000 in
/-- The second dense stage on the hidden features and their two hops side by side. -/
theorem rD2_v130 : StableHlo.after (rD2 (F := F)) V (Proc.devRef .tc main_v130)
    = Cert.Spec.fc2R (concatenate S50000x384 1 [⟨S50000x128, V (Proc.devRef .tc main_v73)⟩, ⟨S50000x128, V (Proc.devRef .tc main_v111)⟩,
          ⟨S50000x128, V (Proc.devRef .tc main_v124)⟩] concatenates_S50000x128_S50000x128_S50000x128_S50000x384_d1)
        (V (Proc.devRef .tc main_arg5)) (V (Proc.devRef .tc main_arg6)) := by
  after_results_cat
  rfl

set_option maxHeartbeats 2000000 in
/-- The time embedding: the time column times the 1 × 128 weight, the bias row added. -/
theorem rTE_v144 : StableHlo.after (rTE (F := F)) V (Proc.devRef .tc main_v144)
    = Cert.Spec.teR (V (Proc.devRef .tc main_arg2)) (V (Proc.devRef .tc main_arg7)) (V (Proc.devRef .tc main_arg8)) := by
  after_results_cat
  rfl

set_option maxHeartbeats 2000000 in
/-- The final projection: the hidden features and the time embedding side by side, times the final weight, the bias added. -/
theorem rOUT_v149 : StableHlo.after (rOUT (F := F)) V (Proc.devRef .tc main_v149)
    = Cert.Spec.outR (V (Proc.devRef .tc main_v130)) (V (Proc.devRef .tc main_v144)) (V (Proc.devRef .tc main_arg9)) (V (Proc.devRef .tc main_arg10)) := by
  after_results_cat
  rfl

end Cert.ReferenceIdeal.RefHand

end
-- ==== Proof.RefHand.lean ====
/-
  The reference program read whole: its thirteen pieces of host operations chained into ONE statement — from any
  starting contents the result buffer ends holding the named function of what the eleven argument buffers held — and
  its run: every weakly fair execution terminates with the result at that function of the arguments' launch contents
  and the arguments unchanged.

  The chain: the rows of the edge table and the inverse root of the degree give the edge weights; three hops of the
  input features give the first layer's four feature blocks, whose dense stage is the first hidden layer; the degree
  and the weights are computed once more (the same terms); two hops of the hidden layer give the second layer's three
  blocks and its dense stage; the time embedding; the final projection of the two side by side. Each piece's result is
  rewritten into terms of the starting contents, and each buffer a later piece reads is carried unchanged across the
  pieces that do not write it.
-/
import proofs.«161761_j55783035240724_1_alg».proof.Proof.RefChunksSub
import proofs.«161761_j55783035240724_1_alg».proof.Proof.RefPiecesA
import proofs.«161761_j55783035240724_1_alg».proof.Proof.RefPiecesB
import proofs.«161761_j55783035240724_1_alg».proof.Proof.Spec
import proofs.«161761_j55783035240724_1_alg».proof.Proof.LibNary3
import Idealize.ShloMosaic.Lib.StableHlo.Run
import Idealize.ShloMosaic.Lib.Pipeline.Frame

set_option maxRecDepth 16384

noncomputable section

namespace Cert.ReferenceIdeal.RefHand

open Cert.ReferenceIdeal Cert.ReferenceIdeal.Gen Idealize.ShloMosaic Idealize.ShloMosaic.TcCoe Idealize.SL.Sem Idealize.ShloMosaic.StableHlo

variable {F : FTy → Type} [FloatOps F]

/-! ## The thirteen pieces chained: the result buffer as one function of the arguments -/

set_option maxHeartbeats 4000000 in
/-- The reference's result buffer after its operations, from ANY starting contents: the named function of what the
    eleven argument buffers held. Piece by piece: what a piece's last buffer holds is rewritten into terms of the
    starting contents, and every buffer a later piece reads is carried across the pieces that do not write it. -/
theorem ref_reads (V : Valuation τ sig (Elt F)) :
    after (ops (F := F)) V (Proc.devRef .tc main_v149) = Cert.Spec.refAll (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  show after (rA0 ++ (rN1 ++ (rH1 ++ (rH2 ++ (rH3 ++ (rD1 ++ (rA1 ++ (rN2 ++ (rH4 ++ (rH5 ++ (rD2 ++ (rTE ++ rOUT)))))))))))) V (Proc.devRef .tc main_v149) = _
  rw [after_append, after_append, after_append, after_append, after_append, after_append, after_append, after_append, after_append, after_append, after_append, after_append]
  -- the two rows of the edge table, the inverse root of the degree
  have f0_v1 := rA0_v1 V
  have f0_v3 := rA0_v3 V
  have f0_v13 := rA0_v13 V
  have f0_arg0 := rA0_keep V main_arg0 (by decide)
  have f0_arg3 := rA0_keep V main_arg3 (by decide)
  have f0_arg4 := rA0_keep V main_arg4 (by decide)
  have f0_arg5 := rA0_keep V main_arg5 (by decide)
  have f0_arg6 := rA0_keep V main_arg6 (by decide)
  have f0_arg2 := rA0_keep V main_arg2 (by decide)
  have f0_arg7 := rA0_keep V main_arg7 (by decide)
  have f0_arg8 := rA0_keep V main_arg8 (by decide)
  have f0_arg9 := rA0_keep V main_arg9 (by decide)
  have f0_arg10 := rA0_keep V main_arg10 (by decide)
  generalize after (rA0 (F := F)) V = W0 at *
  -- the edge weights
  have f1_v28 := rN1_v28 W0
  rw [f0_v13, f0_v1, f0_v3] at f1_v28
  have f1_v1 := (rN1_keep W0 main_v1 (by decide)).trans f0_v1
  have f1_v3 := (rN1_keep W0 main_v3 (by decide)).trans f0_v3
  have f1_arg0 := (rN1_keep W0 main_arg0 (by decide)).trans f0_arg0
  have f1_arg3 := (rN1_keep W0 main_arg3 (by decide)).trans f0_arg3
  have f1_arg4 := (rN1_keep W0 main_arg4 (by decide)).trans f0_arg4
  have f1_arg5 := (rN1_keep W0 main_arg5 (by decide)).trans f0_arg5
  have f1_arg6 := (rN1_keep W0 main_arg6 (by decide)).trans f0_arg6
  have f1_arg2 := (rN1_keep W0 main_arg2 (by decide)).trans f0_arg2
  have f1_arg7 := (rN1_keep W0 main_arg7 (by decide)).trans f0_arg7
  have f1_arg8 := (rN1_keep W0 main_arg8 (by decide)).trans f0_arg8
  have f1_arg9 := (rN1_keep W0 main_arg9 (by decide)).trans f0_arg9
  have f1_arg10 := (rN1_keep W0 main_arg10 (by decide)).trans f0_arg10
  generalize after (rN1 (F := F)) W0 = W1 at *
  -- the first hop
  have f2_v41 := rH1_v41 W1
  rw [f1_v1, f1_v3, f1_v28, f1_arg0] at f2_v41
  have f2_v1 := (rH1_keep W1 main_v1 (by decide)).trans f1_v1
  have f2_v3 := (rH1_keep W1 main_v3 (by decide)).trans f1_v3
  have f2_v28 := (rH1_keep W1 main_v28 (by decide)).trans f1_v28
  have f2_arg0 := (rH1_keep W1 main_arg0 (by decide)).trans f1_arg0
  have f2_arg3 := (rH1_keep W1 main_arg3 (by decide)).trans f1_arg3
  have f2_arg4 := (rH1_keep W1 main_arg4 (by decide)).trans f1_arg4
  have f2_arg5 := (rH1_keep W1 main_arg5 (by decide)).trans f1_arg5
  have f2_arg6 := (rH1_keep W1 main_arg6 (by decide)).trans f1_arg6
  have f2_arg2 := (rH1_keep W1 main_arg2 (by decide)).trans f1_arg2
  have f2_arg7 := (rH1_keep W1 main_arg7 (by decide)).trans f1_arg7
  have f2_arg8 := (rH1_keep W1 main_arg8 (by decide)).trans f1_arg8
  have f2_arg9 := (rH1_keep W1 main_arg9 (by decide)).trans f1_arg9
  have f2_arg10 := (rH1_keep W1 main_arg10 (by decide)).trans f1_arg10
  generalize after (rH1 (F := F)) W1 = W2 at *
  -- the second hop
  have f3_v54 := rH2_v54 W2
  rw [f2_v1, f2_v3, f2_v28, f2_v41] at f3_v54
  have f3_v1 := (rH2_keep W2 main_v1 (by decide)).trans f2_v1
  have f3_v3 := (rH2_keep W2 main_v3 (by decide)).trans f2_v3
  have f3_v28 := (rH2_keep W2 main_v28 (by decide)).trans f2_v28
  have f3_arg0 := (rH2_keep W2 main_arg0 (by decide)).trans f2_arg0
  have f3_v41 := (rH2_keep W2 main_v41 (by decide)).trans f2_v41
  have f3_arg3 := (rH2_keep W2 main_arg3 (by decide)).trans f2_arg3
  have f3_arg4 := (rH2_keep W2 main_arg4 (by decide)).trans f2_arg4
  have f3_arg5 := (rH2_keep W2 main_arg5 (by decide)).trans f2_arg5
  have f3_arg6 := (rH2_keep W2 main_arg6 (by decide)).trans f2_arg6
  have f3_arg2 := (rH2_keep W2 main_arg2 (by decide)).trans f2_arg2
  have f3_arg7 := (rH2_keep W2 main_arg7 (by decide)).trans f2_arg7
  have f3_arg8 := (rH2_keep W2 main_arg8 (by decide)).trans f2_arg8
  have f3_arg9 := (rH2_keep W2 main_arg9 (by decide)).trans f2_arg9
  have f3_arg10 := (rH2_keep W2 main_arg10 (by decide)).trans f2_arg10
  generalize after (rH2 (F := F)) W2 = W3 at *
  -- the third hop
  have f4_v67 := rH3_v67 W3
  rw [f3_v1, f3_v3, f3_v28, f3_v54] at f4_v67
  have f4_arg0 := (rH3_keep W3 main_arg0 (by decide)).trans f3_arg0
  have f4_v41 := (rH3_keep W3 main_v41 (by decide)).trans f3_v41
  have f4_v54 := (rH3_keep W3 main_v54 (by decide)).trans f3_v54
  have f4_arg3 := (rH3_keep W3 main_arg3 (by decide)).trans f3_arg3
  have f4_arg4 := (rH3_keep W3 main_arg4 (by decide)).trans f3_arg4
  have f4_v3 := (rH3_keep W3 main_v3 (by decide)).trans f3_v3
  have f4_v1 := (rH3_keep W3 main_v1 (by decide)).trans f3_v1
  have f4_arg5 := (rH3_keep W3 main_arg5 (by decide)).trans f3_arg5
  have f4_arg6 := (rH3_keep W3 main_arg6 (by decide)).trans f3_arg6
  have f4_arg2 := (rH3_keep W3 main_arg2 (by decide)).trans f3_arg2
  have f4_arg7 := (rH3_keep W3 main_arg7 (by decide)).trans f3_arg7
  have f4_arg8 := (rH3_keep W3 main_arg8 (by decide)).trans f3_arg8
  have f4_arg9 := (rH3_keep W3 main_arg9 (by decide)).trans f3_arg9
  have f4_arg10 := (rH3_keep W3 main_arg10 (by decide)).trans f3_arg10
  generalize after (rH3 (F := F)) W3 = W4 at *
  -- the first dense stage
  have f5_v73 := rD1_v73 W4
  rw [f4_arg0, f4_v41, f4_v54, f4_v67, f4_arg3, f4_arg4] at f5_v73
  have f5_v3 := (rD1_keep W4 main_v3 (by decide)).trans f4_v3
  have f5_v1 := (rD1_keep W4 main_v1 (by decide)).trans f4_v1
  have f5_arg5 := (rD1_keep W4 main_arg5 (by decide)).trans f4_arg5
  have f5_arg6 := (rD1_keep W4 main_arg6 (by decide)).trans f4_arg6
  have f5_arg2 := (rD1_keep W4 main_arg2 (by decide)).trans f4_arg2
  have f5_arg7 := (rD1_keep W4 main_arg7 (by decide)).trans f4_arg7
  have f5_arg8 := (rD1_keep W4 main_arg8 (by decide)).trans f4_arg8
  have f5_arg9 := (rD1_keep W4 main_arg9 (by decide)).trans f4_arg9
  have f5_arg10 := (rD1_keep W4 main_arg10 (by decide)).trans f4_arg10
  generalize after (rD1 (F := F)) W4 = W5 at *
  -- the inverse root of the degree once more
  have f6_v83 := rA1_v83 W5
  rw [f5_v3] at f6_v83
  have f6_v1 := (rA1_keep W5 main_v1 (by decide)).trans f5_v1
  have f6_v3 := (rA1_keep W5 main_v3 (by decide)).trans f5_v3
  have f6_v73 := (rA1_keep W5 main_v73 (by decide)).trans f5_v73
  have f6_arg5 := (rA1_keep W5 main_arg5 (by decide)).trans f5_arg5
  have f6_arg6 := (rA1_keep W5 main_arg6 (by decide)).trans f5_arg6
  have f6_arg2 := (rA1_keep W5 main_arg2 (by decide)).trans f5_arg2
  have f6_arg7 := (rA1_keep W5 main_arg7 (by decide)).trans f5_arg7
  have f6_arg8 := (rA1_keep W5 main_arg8 (by decide)).trans f5_arg8
  have f6_arg9 := (rA1_keep W5 main_arg9 (by decide)).trans f5_arg9
  have f6_arg10 := (rA1_keep W5 main_arg10 (by decide)).trans f5_arg10
  generalize after (rA1 (F := F)) W5 = W6 at *
  -- the edge weights once more
  have f7_v98 := rN2_v98 W6
  rw [f6_v83, f6_v1, f6_v3] at f7_v98
  have f7_v1 := (rN2_keep W6 main_v1 (by decide)).trans f6_v1
  have f7_v3 := (rN2_keep W6 main_v3 (by decide)).trans f6_v3
  have f7_v73 := (rN2_keep W6 main_v73 (by decide)).trans f6_v73
  have f7_arg5 := (rN2_keep W6 main_arg5 (by decide)).trans f6_arg5
  have f7_arg6 := (rN2_keep W6 main_arg6 (by decide)).trans f6_arg6
  have f7_arg2 := (rN2_keep W6 main_arg2 (by decide)).trans f6_arg2
  have f7_arg7 := (rN2_keep W6 main_arg7 (by decide)).trans f6_arg7
  have f7_arg8 := (rN2_keep W6 main_arg8 (by decide)).trans f6_arg8
  have f7_arg9 := (rN2_keep W6 main_arg9 (by decide)).trans f6_arg9
  have f7_arg10 := (rN2_keep W6 main_arg10 (by decide)).trans f6_arg10
  generalize after (rN2 (F := F)) W6 = W7 at *
  -- the first hop of the second layer
  have f8_v111 := rH4_v111 W7
  rw [f7_v1, f7_v3, f7_v98, f7_v73] at f8_v111
  have f8_v1 := (rH4_keep W7 main_v1 (by decide)).trans f7_v1
  have f8_v3 := (rH4_keep W7 main_v3 (by decide)).trans f7_v3
  have f8_v98 := (rH4_keep W7 main_v98 (by decide)).trans f7_v98
  have f8_v73 := (rH4_keep W7 main_v73 (by decide)).trans f7_v73
  have f8_arg5 := (rH4_keep W7 main_arg5 (by decide)).trans f7_arg5
  have f8_arg6 := (rH4_keep W7 main_arg6 (by decide)).trans f7_arg6
  have f8_arg2 := (rH4_keep W7 main_arg2 (by decide)).trans f7_arg2
  have f8_arg7 := (rH4_keep W7 main_arg7 (by decide)).trans f7_arg7
  have f8_arg8 := (rH4_keep W7 main_arg8 (by decide)).trans f7_arg8
  have f8_arg9 := (rH4_keep W7 main_arg9 (by decide)).trans f7_arg9
  have f8_arg10 := (rH4_keep W7 main_arg10 (by decide)).trans f7_arg10
  generalize after (rH4 (F := F)) W7 = W8 at *
  -- the second hop of the second layer
  have f9_v124 := rH5_v124 W8
  rw [f8_v1, f8_v3, f8_v98, f8_v111] at f9_v124
  have f9_v73 := (rH5_keep W8 main_v73 (by decide)).trans f8_v73
  have f9_v111 := (rH5_keep W8 main_v111 (by decide)).trans f8_v111
  have f9_arg5 := (rH5_keep W8 main_arg5 (by decide)).trans f8_arg5
  have f9_arg6 := (rH5_keep W8 main_arg6 (by decide)).trans f8_arg6
  have f9_arg2 := (rH5_keep W8 main_arg2 (by decide)).trans f8_arg2
  have f9_arg7 := (rH5_keep W8 main_arg7 (by decide)).trans f8_arg7
  have f9_arg8 := (rH5_keep W8 main_arg8 (by decide)).trans f8_arg8
  have f9_arg9 := (rH5_keep W8 main_arg9 (by decide)).trans f8_arg9
  have f9_arg10 := (rH5_keep W8 main_arg10 (by decide)).trans f8_arg10
  generalize after (rH5 (F := F)) W8 = W9 at *
  -- the second dense stage
  have f10_v130 := rD2_v130 W9
  rw [f9_v73, f9_v111, f9_v124, f9_arg5, f9_arg6] at f10_v130
  have f10_arg2 := (rD2_keep W9 main_arg2 (by decide)).trans f9_arg2
  have f10_arg7 := (rD2_keep W9 main_arg7 (by decide)).trans f9_arg7
  have f10_arg8 := (rD2_keep W9 main_arg8 (by decide)).trans f9_arg8
  have f10_arg9 := (rD2_keep W9 main_arg9 (by decide)).trans f9_arg9
  have f10_arg10 := (rD2_keep W9 main_arg10 (by decide)).trans f9_arg10
  generalize after (rD2 (F := F)) W9 = W10 at *
  -- the time embedding
  have f11_v144 := rTE_v144 W10
  rw [f10_arg2, f10_arg7, f10_arg8] at f11_v144
  have f11_v130 := (rTE_keep W10 main_v130 (by decide)).trans f10_v130
  have f11_arg9 := (rTE_keep W10 main_arg9 (by decide)).trans f10_arg9
  have f11_arg10 := (rTE_keep W10 main_arg10 (by decide)).trans f10_arg10
  generalize after (rTE (F := F)) W10 = W11 at *
  -- the final projection
  refine (rOUT_v149 W11).trans ?_
  rw [f11_v130, f11_v144, f11_arg9, f11_arg10]
  rfl

/-- A buffer none of the thirteen pieces writes holds, after all the operations, what it held before. -/
theorem ops_keep (V : Valuation τ sig (Elt F)) (r : Ref sig .tc)
    (h0 : r ∉ rA0_W)
    (h1 : r ∉ rN1_W)
    (h2 : r ∉ rH1_W)
    (h3 : r ∉ rH2_W)
    (h4 : r ∉ rH3_W)
    (h5 : r ∉ rD1_W)
    (h6 : r ∉ rA1_W)
    (h7 : r ∉ rN2_W)
    (h8 : r ∉ rH4_W)
    (h9 : r ∉ rH5_W)
    (h10 : r ∉ rD2_W)
    (h11 : r ∉ rTE_W)
    (h12 : r ∉ rOUT_W) :
    after (ops (F := F)) V (Proc.devRef .tc r) = V (Proc.devRef .tc r) := by
  show after (rA0 ++ (rN1 ++ (rH1 ++ (rH2 ++ (rH3 ++ (rD1 ++ (rA1 ++ (rN2 ++ (rH4 ++ (rH5 ++ (rD2 ++ (rTE ++ rOUT)))))))))))) V (Proc.devRef .tc r) = _
  rw [after_append, after_append, after_append, after_append, after_append, after_append, after_append, after_append, after_append, after_append, after_append, after_append]
  rw [rOUT_keep _ r h12, rTE_keep _ r h11, rD2_keep _ r h10, rH5_keep _ r h9, rH4_keep _ r h8, rN2_keep _ r h7, rA1_keep _ r h6, rD1_keep _ r h5, rH3_keep _ r h4, rH2_keep _ r h3, rH1_keep _ r h2, rN1_keep _ r h1, rA0_keep _ r h0]

/-! ## The run -/

/-- On every device, for any float values, from any memory with zero counters: every weakly fair execution of the
    reference terminates with its result buffer at the named function of the arguments' launch contents, the
    arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v149) = Cert.Spec.refAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v149).trans (ref_reads (launchContents m c)),
      (h c main_arg0).trans (ops_keep (launchContents m c) main_arg0 (by decide) (by decide) (by decide) (by decide) (by decide) (by decide) (by decide) (by decide) (by decide) (by decide) (by decide) (by decide) (by decide)),
      (h c main_arg1).trans (ops_keep (launchContents m c) main_arg1 (by decide) (by decide) (by decide) (by decide) (by decide) (by decide) (by decide) (by decide) (by decide) (by decide) (by decide) (by decide) (by decide)),
      (h c main_arg2).trans (ops_keep (launchContents m c) main_arg2 (by decide) (by decide) (by decide) (by decide) (by decide) (by decide) (by decide) (by decide) (by decide) (by decide) (by decide) (by decide) (by decide)),
      (h c main_arg3).trans (ops_keep (launchContents m c) main_arg3 (by decide) (by decide) (by decide) (by decide) (by decide) (by decide) (by decide) (by decide) (by decide) (by decide) (by decide) (by decide) (by decide)),
      (h c main_arg4).trans (ops_keep (launchContents m c) main_arg4 (by decide) (by decide) (by decide) (by decide) (by decide) (by decide) (by decide) (by decide) (by decide) (by decide) (by decide) (by decide) (by decide)),
      (h c main_arg5).trans (ops_keep (launchContents m c) main_arg5 (by decide) (by decide) (by decide) (by decide) (by decide) (by decide) (by decide) (by decide) (by decide) (by decide) (by decide) (by decide) (by decide)),
      (h c main_arg6).trans (ops_keep (launchContents m c) main_arg6 (by decide) (by decide) (by decide) (by decide) (by decide) (by decide) (by decide) (by decide) (by decide) (by decide) (by decide) (by decide) (by decide)),
      (h c main_arg7).trans (ops_keep (launchContents m c) main_arg7 (by decide) (by decide) (by decide) (by decide) (by decide) (by decide) (by decide) (by decide) (by decide) (by decide) (by decide) (by decide) (by decide)),
      (h c main_arg8).trans (ops_keep (launchContents m c) main_arg8 (by decide) (by decide) (by decide) (by decide) (by decide) (by decide) (by decide) (by decide) (by decide) (by decide) (by decide) (by decide) (by decide)),
      (h c main_arg9).trans (ops_keep (launchContents m c) main_arg9 (by decide) (by decide) (by decide) (by decide) (by decide) (by decide) (by decide) (by decide) (by decide) (by decide) (by decide) (by decide) (by decide)),
      (h c main_arg10).trans (ops_keep (launchContents m c) main_arg10 (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ)

end Cert.ReferenceIdeal.RefHand

end
-- ==== Proof.lean ====
/-
  The certificate of a two-layer graph convolution with a time embedding and a final projection, computed by a kernel
  program of three pipelined regions among stretches of host operations, against its reference of host operations only.

  The frames. The kernel's program (at the word level and at the ideal values alike) is run segment by segment: each
  stretch of host operations rewrites the buffers it writes and leaves the rest; each region fetches the blocks of its
  input windows, runs its body at every grid point — which loads its input blocks whole, computes, and stores its output
  block whole — and writes the output blocks back; no stretch and no region writes an argument array, so each ends as
  launched. The reference is one line of host operations.

  The value, at the ideal values (floats are extended reals, every operation exact, a change of format the identity):
  both programs compute, with A the edge-weighted one-hop aggregation over the graph,
      h1 = max ([x, A x, A² x, A³ x] · W1 + b1) 0,   h2 = max ([h1, A h1, A² h1] · W2 + b2) 0,
      te = t · Wt + bt  with  t = (ts − min ts) / (max ts − min ts + ε),      out = [h2, te] · Wf + bf.
  The aggregation, the degrees and t are the same host operations on both sides. The kernel's three regions compute the
  three dense stages block of rows by block of rows, each block's entries the same sums over the contracted index as
  the reference's whole matrix products (a matrix unit's product into a zero accumulator is the plain sum); the time
  embedding is an entrywise product on one side and a product over one contracted index on the other; and the kernel's
  last stage multiplies h2 and te by the two halves of Wf, padded with zero columns, and keeps the first two columns,
  where the reference multiplies the two side by side by Wf whole: a sum over 256 indices split into its two halves.
  Only associativity and commutativity of addition are used, so the finiteness of the inputs is never opened.
-/
import proofs.«161761_j55783035240724_1_alg».proof.Defs
import proofs.«161761_j55783035240724_1_alg».proof.Proof.Gen.Kernel
import proofs.«161761_j55783035240724_1_alg».proof.Proof.Gen.KernelIdeal
import proofs.«161761_j55783035240724_1_alg».proof.Proof.Gen.ReferenceIdeal
import proofs.«161761_j55783035240724_1_alg».proof.Proof.Gen.Pre_finite_inputs
import proofs.«161761_j55783035240724_1_alg».proof.Proof.K.Run
import proofs.«161761_j55783035240724_1_alg».proof.Proof.KI.Value
import proofs.«161761_j55783035240724_1_alg».proof.Proof.RefHand
import Idealize.ShloMosaic.Adequacy
import Idealize.ShloMosaic.Init

noncomputable section

namespace Cert.Proof

open Idealize.ShloMosaic Idealize.ShloMosaic.TcCoe Idealize.SL.Sem

/-- The word-level kernel runs to its end and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- And the reference: its run with the result dropped. -/
theorem frame_ri : Cert.frame_ReferenceIdeal := fun m ρ _ =>
  (θ_run Cert.ReferenceIdeal.defs _ _).mono (fun _ h c => (h c).2) (Cert.ReferenceIdeal.RefHand.ref_run (F := Ideal) m ρ)

/-- The ideal pass rewrote nothing: the idealization is the program's own text read at the ideal values. -/
theorem preserves : Cert.preserves_Kernel_KernelIdeal := trivial

/-- From memories agreeing on the arguments both programs end with the same result: the named function of the arguments. -/
theorem algebraic : Cert.algebraic_KernelIdeal_ReferenceIdeal := by
  intro m ρ m' ρ' _ hagree
  refine ⟨fun c => Cert.Spec.refAll (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.KernelIdeal.Hand.run_kernel m ρ, ?_⟩
  refine (θ_run Cert.ReferenceIdeal.defs _ _).mono (fun _ h c => ⟨(h c).1.trans ?_, (h c).2⟩)
    (Cert.ReferenceIdeal.RefHand.ref_run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
